-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S256x20 : Shape := ⟨2, ![256, 20]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256x20 : S_.BroadcastsInDim S256x20 (![] : Fin 0 → Fin S256x20.rank)
  reducesTo_S256x20_S_d0_1 : S256x20.ReducesTo [0, 1] S_

variable [Facts]

def fn_part1 {F : FTy → Type} [FloatOps F] (main_arg4 : FVec F S256x20 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x20 .f32 := Host.absf main_arg4
  let main_cst_6 : FVec F S_ .f32 := constant S_ .f32 0x7F800000#32
  let main_v20 : FVec F S256x20 .f32 := broadcastInDim S256x20 ![] bcast_S_S256x20 main_cst_6
  let main_v21 : IVec S256x20 1 := cmpf .olt main_v19 main_v20
  let main_c_7 : IVec S_ 1 := constantI S_ 1 1#1
  let main_v22 : IVec S_ 1 := (fun x v => Host.reduce IntOp.andi x v reducesTo_S256x20_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128x256 .f32) (main_arg4 : FVec F S256x20 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S256x20 : Shape := ⟨2, ![256, 20]⟩
abbrev S10000x20 : Shape := ⟨2, ![10000, 20]⟩
abbrev S200x10000 : Shape := ⟨2, ![200, 10000]⟩
abbrev S200x20 : Shape := ⟨2, ![200, 20]⟩
abbrev S200x128 : Shape := ⟨2, ![200, 128]⟩
abbrev S200x256 : Shape := ⟨2, ![200, 256]⟩
abbrev S1000x10000 : Shape := ⟨2, ![1000, 10000]⟩
abbrev S1000x20 : Shape := ⟨2, ![1000, 20]⟩
abbrev S400x20 : Shape := ⟨2, ![400, 20]⟩
abbrev S400x10000 : Shape := ⟨2, ![400, 10000]⟩

abbrev nBuf : Space → Nat
  | .hbm => 11
  | .vmem => 27
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x256, .f32⟩
  | .hbm, ⟨4, _⟩ => ⟨S256x20, .f32⟩
  | .hbm, ⟨5, _⟩ => ⟨S10000x128, .bf16⟩
  | .hbm, ⟨6, _⟩ => ⟨S10000x10000, .bf16⟩
  | .hbm, ⟨7, _⟩ => ⟨S10000x20, .bf16⟩
  | .hbm, ⟨8, _⟩ => ⟨S10000x20, .bf16⟩
  | .hbm, ⟨9, _⟩ => ⟨S10000x20, .f32⟩
  | .hbm, ⟨10, _⟩ => ⟨S10000x10000, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S200x10000, .f32⟩
  | .local _ .vmem, ⟨4, _⟩ => ⟨S200x10000, .f32⟩
  | .local _ .vmem, ⟨5, _⟩ => ⟨S10000x128, .bf16⟩
  | .local _ .vmem, ⟨6, _⟩ => ⟨S128x256, .f32⟩
  | .local _ .vmem, ⟨7, _⟩ => ⟨S256x20, .f32⟩
  | .local _ .vmem, ⟨8, _⟩ => ⟨S200x10000, .bf16⟩
  | .local _ .vmem, ⟨9, _⟩ => ⟨S200x10000, .bf16⟩
  | .local _ .vmem, ⟨10, _⟩ => ⟨S200x20, .bf16⟩
  | .local _ .vmem, ⟨11, _⟩ => ⟨S200x20, .bf16⟩
  | .local _ .vmem, ⟨12, _⟩ => ⟨S1000x10000, .bf16⟩
  | .local _ .vmem, ⟨13, _⟩ => ⟨S1000x10000, .bf16⟩
  | .local _ .vmem, ⟨14, _⟩ => ⟨S10000x20, .bf16⟩
  | .local _ .vmem, ⟨15, _⟩ => ⟨S1000x20, .bf16⟩
  | .local _ .vmem, ⟨16, _⟩ => ⟨S1000x20, .bf16⟩
  | .local _ .vmem, ⟨17, _⟩ => ⟨S1000x10000, .bf16⟩
  | .local _ .vmem, ⟨18, _⟩ => ⟨S1000x10000, .bf16⟩
  | .local _ .vmem, ⟨19, _⟩ => ⟨S10000x20, .bf16⟩
  | .local _ .vmem, ⟨20, _⟩ => ⟨S1000x20, .f32⟩
  | .local _ .vmem, ⟨21, _⟩ => ⟨S1000x20, .f32⟩
  | .local _ .vmem, ⟨22, _⟩ => ⟨S400x20, .f32⟩
  | .local _ .vmem, ⟨23, _⟩ => ⟨S400x20, .f32⟩
  | .local _ .vmem, ⟨24, _⟩ => ⟨S10000x20, .f32⟩
  | .local _ .vmem, ⟨25, _⟩ => ⟨S400x10000, .f32⟩
  | .local _ .vmem, ⟨26, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x20 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x20 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x20 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x20 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x20 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x20 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x20 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x10000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  inb_S256x20_S256x20_0_0 : ∀ a, (![0, 0] : Fin 2 → Nat) a + S256x20.size a ≤ S256x20.size a
  h_S256x20 : 0 < S256x20.numel
  inb_S200x20_S200x20_0_0 : ∀ a, (![0, 0] : Fin 2 → Nat) a + S200x20.size a ≤ S200x20.size a
  h_S200x20 : 0 < S200x20.numel
  packedbf16_S200x20_S200x20_0_0 : (Rect.unit (s := S200x20) ![0, 0] S200x20.size inb_S200x20_S200x20_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S10000x20_S10000x20_0_0 : ∀ a, (![0, 0] : Fin 2 → Nat) a + S10000x20.size a ≤ S10000x20.size a
  h_S10000x20 : 0 < S10000x20.numel
  shapeCasts_S10000x20_S10000x20 : S10000x20.ShapeCasts S10000x20
  inb_S1000x20_S1000x20_0_0 : ∀ a, (![0, 0] : Fin 2 → Nat) a + S1000x20.size a ≤ S1000x20.size a
  h_S1000x20 : 0 < S1000x20.numel
  packedbf16_S1000x20_S1000x20_0_0 : (Rect.unit (s := S1000x20) ![0, 0] S1000x20.size inb_S1000x20_S1000x20_0_0).PackedRows (EltTy.packing .bf16)
  inb_S400x20_S400x20_0_0 : ∀ a, (![0, 0] : Fin 2 → Nat) a + S400x20.size a ≤ S400x20.size a
  h_S400x20 : 0 < S400x20.numel
  shapeCasts_S400x20_S400x20 : S400x20.ShapeCasts S400x20
  inb_S400x10000_S400x10000_0_0 : ∀ a, (![0, 0] : Fin 2 → Nat) a + S400x10000.size a ≤ S400x10000.size a
  h_S400x10000 : 0 < S400x10000.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x256_S200x256_1_0_0_1_n_n_wf : DotDims.WF S200x128 S128x256 S200x256 [1] [0] [0] [1] [] []
  dot_S200x256_S256x20_S200x20_1_0_0_1_n_n_wf : DotDims.WF S200x256 S256x20 S200x20 [1] [0] [0] [1] [] []
  dot_S1000x10000_S10000x20_S1000x20_1_0_0_1_n_n_wf : DotDims.WF S1000x10000 S10000x20 S1000x20 [1] [0] [0] [1] [] []
  dot_S400x20_S10000x20_S400x10000_1_1_0_0_n_n_wf : DotDims.WF S400x20 S10000x20 S400x10000 [1] [1] [0] [0] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x20.size a ≤ S256x20.size a
  hwx1_3 : ∀ i : grid1.Coords, EltTy.bits .f32 = 32 ∨ (Rect.block (s := S256x20) S256x20.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x10000.size a ≤ S10000x10000.size a
  hwx1_4 : ∀ i : grid1.Coords, EltTy.bits .bf16 = 32 ∨ (Rect.block (s := S10000x10000) S200x10000.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x20.size a ≤ S10000x20.size a
  hwx1_5 : ∀ i : grid1.Coords, EltTy.bits .bf16 = 32 ∨ (Rect.block (s := S10000x20) S200x20.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x20.size a ≤ S10000x20.size a
  hwx2_1 : ∀ i : grid2.Coords, EltTy.bits .bf16 = 32 ∨ (Rect.block (s := S10000x20) S10000x20.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x20.size a ≤ S10000x20.size a
  hwx2_2 : ∀ i : grid2.Coords, EltTy.bits .bf16 = 32 ∨ (Rect.block (s := S10000x20) S1000x20.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x20.size a ≤ S10000x20.size a
  hwx3_1 : ∀ i : grid3.Coords, EltTy.bits .bf16 = 32 ∨ (Rect.block (s := S10000x20) S10000x20.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x20.size a ≤ S10000x20.size a
  hwx3_2 : ∀ i : grid3.Coords, EltTy.bits .f32 = 32 ∨ (Rect.block (s := S10000x20) S1000x20.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x20.size a ≤ S10000x20.size a
  hwx4_0 : ∀ i : grid4.Coords, EltTy.bits .f32 = 32 ∨ (Rect.block (s := S10000x20) S400x20.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x20.size a ≤ S10000x20.size a
  hwx4_1 : ∀ i : grid4.Coords, EltTy.bits .f32 = 32 ∨ (Rect.block (s := S10000x20) S10000x20.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x10000.size a ≤ S10000x10000.size a
  hwx4_2 : ∀ i : grid4.Coords, EltTy.bits .f32 = 32 ∨ (Rect.block (s := S10000x10000) S400x10000.size (cc4_transform_2 i) (hinb4_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x256_S200x256_1_0_0_1_n_n : DotDims S200x128 S128x256 S200x256 where
  lhsContracting := [1]
  rhsContracting := [0]
  lhsNonContracting := [0]
  rhsNonContracting := [1]
  lhsBatch := []
  rhsBatch := []
  wf := dot_S200x128_S128x256_S200x256_1_0_0_1_n_n_wf
def dot_S200x256_S256x20_S200x20_1_0_0_1_n_n : DotDims S200x256 S256x20 S200x20 where
  lhsContracting := [1]
  rhsContracting := [0]
  lhsNonContracting := [0]
  rhsNonContracting := [1]
  lhsBatch := []
  rhsBatch := []
  wf := dot_S200x256_S256x20_S200x20_1_0_0_1_n_n_wf
def dot_S1000x10000_S10000x20_S1000x20_1_0_0_1_n_n : DotDims S1000x10000 S10000x20 S1000x20 where
  lhsContracting := [1]
  rhsContracting := [0]
  lhsNonContracting := [0]
  rhsNonContracting := [1]
  lhsBatch := []
  rhsBatch := []
  wf := dot_S1000x10000_S10000x20_S1000x20_1_0_0_1_n_n_wf
def dot_S400x20_S10000x20_S400x10000_1_1_0_0_n_n : DotDims S400x20 S10000x20 S400x10000 where
  lhsContracting := [1]
  rhsContracting := [1]
  lhsNonContracting := [0]
  rhsNonContracting := [0]
  lhsBatch := []
  rhsBatch := []
  wf := dot_S400x20_S10000x20_S400x10000_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S256x20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S200x10000.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S200x20.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v1_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S10000x20.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1000x20.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1_0) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x20.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1000x20.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v3) S400x20.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S10000x20.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S400x10000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S256x20 : Shape := ⟨2, ![256, 20]⟩
abbrev S10000x256 : Shape := ⟨2, ![10000, 256]⟩
abbrev S10000x20 : Shape := ⟨2, ![10000, 20]⟩
abbrev S20x10000 : Shape := ⟨2, ![20, 10000]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x256, .f32⟩
  | .hbm, ⟨4, _⟩ => ⟨S256x20, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x256, .f32⟩
  | .hbm, ⟨9, _⟩ => ⟨S10000x256, .f32⟩
  | .hbm, ⟨10, _⟩ => ⟨S10000x256, .f32⟩
  | .hbm, ⟨11, _⟩ => ⟨S10000x20, .f32⟩
  | .hbm, ⟨12, _⟩ => ⟨S10000x20, .f32⟩
  | .hbm, ⟨13, _⟩ => ⟨S20x10000, .f32⟩
  | .hbm, ⟨14, _⟩ => ⟨S10000x10000, .f32⟩
  | .hbm, ⟨15, _⟩ => ⟨S10000x10000, .f32⟩
  | .hbm, ⟨16, _⟩ => ⟨S10000x10000, .f32⟩
  | .hbm, ⟨17, _⟩ => ⟨S_, .f32⟩
  | .hbm, ⟨18, _⟩ => ⟨S10000x10000, .f32⟩
  | .hbm, ⟨19, _⟩ => ⟨S10000x10000, .f32⟩
  | .hbm, ⟨20, _⟩ => ⟨S_, .f32⟩
  | .hbm, ⟨21, _⟩ => ⟨S10000x10000, .f32⟩
  | .hbm, ⟨22, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S10000x20_S20x10000_1_0 : S10000x20.Transposes [1, 0] S20x10000
  bcast_S_S10000x10000 : S_.BroadcastsInDim S10000x10000 (![] : Fin 0 → Fin S10000x10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []
  dot_S10000x256_S256x20_S10000x20_1_0_0_1_n_n_wf : DotDims.WF S10000x256 S256x20 S10000x20 [1] [0] [0] [1] [] []
  dot_S10000x10000_S10000x20_S10000x20_1_0_0_1_n_n_wf : DotDims.WF S10000x10000 S10000x20 S10000x20 [1] [0] [0] [1] [] []
  dot_S10000x20_S20x10000_S10000x10000_1_0_0_1_n_n_wf : DotDims.WF S10000x20 S20x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x20_S10000x20_1_0_0_1_n_n : DotDims S10000x256 S256x20 S10000x20 where
  lhsContracting := [1]
  rhsContracting := [0]
  lhsNonContracting := [0]
  rhsNonContracting := [1]
  lhsBatch := []
  rhsBatch := []
  wf := dot_S10000x256_S256x20_S10000x20_1_0_0_1_n_n_wf
def dot_S10000x10000_S10000x20_S10000x20_1_0_0_1_n_n : DotDims S10000x10000 S10000x20 S10000x20 where
  lhsContracting := [1]
  rhsContracting := [0]
  lhsNonContracting := [0]
  rhsNonContracting := [1]
  lhsBatch := []
  rhsBatch := []
  wf := dot_S10000x10000_S10000x20_S10000x20_1_0_0_1_n_n_wf
def dot_S10000x20_S20x10000_S10000x10000_1_0_0_1_n_n : DotDims S10000x20 S20x10000 S10000x10000 where
  lhsContracting := [1]
  rhsContracting := [0]
  lhsNonContracting := [0]
  rhsNonContracting := [1]
  lhsBatch := []
  rhsBatch := []
  wf := dot_S10000x20_S20x10000_S10000x10000_1_0_0_1_n_n_wf

class Facts : Prop extends Facts₀ where

variable [Facts]
-- ==== Proof.BitsRegion0.lean ====
/-
  Region 0 of the program (the first layer's support, s = tanh (x W1), computed in one step with no grid): the kernel body's Hoare triple on its three staging buffers, and the
  region's proof data.

  The body reads its two input buffers whole, computes one value from them and stores it over the whole output
  buffer. So after the body the output buffer holds that value — a function of the two input blocks alone — and
  the input buffers are as they were. At grid point t the first input buffer holds block t of its array and the
  second holds its whole array, whether or not the pipeline fetched them at t (a block whose index did not move is
  not fetched again, and is still there).
-/
import proofs.«107705_g22454089023912_cont_8to1_328_7_alg».proof.Proof.Gen.Kernel.Launch
import proofs.«107705_g22454089023912_cont_8to1_328_7_alg».proof.Proof.Gen.Kernel.Skeleton
import proofs.«107705_g22454089023912_cont_8to1_328_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w`'s array that grid point `t` addresses, read off the array as the region finds it. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole of each staging buffer as a rectangle: what the body's loads and its store address. -/
abbrev all0_0 : Rect S10000x128 := Rect.unit (s := S10000x128) ![0, 0] S10000x128.size inb_S10000x128_S10000x128_0_0
abbrev all0_1 : Rect S128x128 := Rect.unit (s := S128x128) ![0, 0] S128x128.size inb_S128x128_S128x128_0_0
abbrev all0_2 : Rect S10000x128 := Rect.unit (s := S10000x128) ![0, 0] S10000x128.size inb_S10000x128_S10000x128_0_0

/-- What the body's one store leaves in the output buffer, as a function of the two input buffers' contents. -/
def res0 (a : Vec F S10000x128 .f32) (b : Vec F S128x128 .f32) : Vec F S10000x128 .bf16 :=
  View.canon [⟨all0_2, k0_pay1 (View.ld a all0_0) (View.ld b all0_1)⟩]

/-- The store's rectangle is the whole buffer, so every index of the buffer is written. -/
theorem res0_cover (v : Vec F S10000x128 .bf16) (y : S10000x128.Idx) :
    ∃ pc ∈ ([⟨all0_2, v⟩] : List (View.Piece (Elt F) S10000x128 .bf16)), y ∈ pc.1.set :=
  View.cover_of_tiled [⟨all0_2, v⟩] S10000x128.size (by rfl) y

set_option maxHeartbeats 1000000 in
/-- The body's triple: from the two input buffers at contents `a`, `b` and the output buffer at anything, it runs
    to the end leaving the inputs as they were and the output at `res0 a b`. -/
theorem body0_triple (c : Dev nD) (E : Set ℕ)
    (arg0 : Memref sig .tc .vmem S10000x128 .f32) (harg0 : arg0.IsWhole)
    (arg1 : Memref sig .tc .vmem S128x128 .f32) (harg1 : arg1.IsWhole)
    (arg2 : Memref sig .tc .vmem S10000x128 .bf16) (harg2 : arg2.IsWhole)
    (a : Vec F S10000x128 .f32) (b : Vec F S128x128 .f32) (K : PUnit → sProp 𝕄) :
    iprop(owns (c : Thread nD τ) arg0 fullShare a ∗ owns (c : Thread nD τ) arg1 fullShare b
        ∗ (∃ d, owns (c : Thread nD τ) arg2 fullShare d)
        ∗ (iprop(owns (c : Thread nD τ) arg0 fullShare a ∗ owns (c : Thread nD τ) arg1 fullShare b
            ∗ owns (c : Thread nD τ) arg2 fullShare (res0 a b)) -∗ K ⟨⟩))
      ⊢ wp frame (wpE (defs₀ (F := F)) Variants.none c none) E (cc0__s1_body arg0 harg0 arg1 harg1 arg2 harg2) K := by
  simp only [cc0__s1_body_eq_skeleton]; unfold cc0__s1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res0_cover _)

/-- The region's proof data on core `c`: the arrays as the region finds them; after the body at point `t` each
    input buffer still at its block and the output buffer at `res0` of the two blocks; the invariant is the
    untouched scoped rest and the generator register; nothing is owed; every array at the full share. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) :
    (dat0 V c).after 2 t = res0 (blk0 V c 0 t) (blk0 V c 1 t) := by dsimp only [dat0]

/-- An input buffer holds its window's block at every point: a window not fetched at `t` has not moved. -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)

/-- The body obligation at every grid point: the input buffers hold their blocks, the triple applies, and the
    invariant and what the core owes pass through untouched. -/
theorem obligation0 (c : Dev nD) :
    BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)))
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0_triple c Set.univ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Hand

end
-- ==== Proof.BitsRegion1.lean ====
/-
  Region 1 of the program (the first pass over the adjacency matrix): the kernel body's Hoare triple on its six
  staging buffers, and the region's proof data.

  At grid point t the body reads a panel of 200 rows of the adjacency matrix, the whole support matrix and the two
  weight matrices W2, W3. It stores the panel itself (in the narrower format) over the first output buffer, and the
  panel's rows of tanh ((A s) W2) W3 over the second. Both stores cover their buffers, so each output buffer ends
  at a function of the input blocks alone, and the four input buffers are as they were. Each input buffer holds
  its window's block at every point, fetched there or not: the three whole-array windows are fetched once and never
  move.
-/
import proofs.«107705_g22454089023912_cont_8to1_328_7_alg».proof.Proof.Gen.Kernel.Launch
import proofs.«107705_g22454089023912_cont_8to1_328_7_alg».proof.Proof.Gen.Kernel.Skeleton
import proofs.«107705_g22454089023912_cont_8to1_328_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w`'s array that grid point `t` addresses, read off the array as the region finds it. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The whole of each staging buffer as a rectangle: what the body's loads and its stores address. -/
abbrev all1_0 : Rect S200x10000 := Rect.unit (s := S200x10000) ![0, 0] S200x10000.size inb_S200x10000_S200x10000_0_0
abbrev all1_1 : Rect S10000x128 := Rect.unit (s := S10000x128) ![0, 0] S10000x128.size inb_S10000x128_S10000x128_0_0
abbrev all1_2 : Rect S128x256 := Rect.unit (s := S128x256) ![0, 0] S128x256.size inb_S128x256_S128x256_0_0
abbrev all1_3 : Rect S256x20 := Rect.unit (s := S256x20) ![0, 0] S256x20.size inb_S256x20_S256x20_0_0
abbrev all1_5 : Rect S200x20 := Rect.unit (s := S200x20) ![0, 0] S200x20.size inb_S200x20_S200x20_0_0

/-- What the first store leaves in the copy's buffer: the adjacency panel. -/
def res1_4 (a : Vec F S200x10000 .f32) : Vec F S200x10000 .bf16 :=
  View.canon [⟨all1_0, k1_pay1 (View.ld a all1_0)⟩]

/-- What the second store leaves in the epilogue's buffer, from the four input buffers' contents. -/
def res1_5 (a : Vec F S200x10000 .f32) (s : Vec F S10000x128 .bf16) (w2 : Vec F S128x256 .f32) (w3 : Vec F S256x20 .f32) :
    Vec F S200x20 .bf16 :=
  View.canon [⟨all1_5, k1_pay2 (View.ld a all1_0) (View.ld s all1_1) (View.ld w2 all1_2) (View.ld w3 all1_3)⟩]

/-- Each store's rectangle is its whole buffer, so every index of the buffer is written. -/
theorem res1_4_cover (v : Vec F S200x10000 .bf16) (y : S200x10000.Idx) :
    ∃ pc ∈ ([⟨all1_0, v⟩] : List (View.Piece (Elt F) S200x10000 .bf16)), y ∈ pc.1.set :=
  View.cover_of_tiled [⟨all1_0, v⟩] S200x10000.size (by rfl) y
theorem res1_5_cover (v : Vec F S200x20 .bf16) (y : S200x20.Idx) :
    ∃ pc ∈ ([⟨all1_5, v⟩] : List (View.Piece (Elt F) S200x20 .bf16)), y ∈ pc.1.set :=
  View.cover_of_tiled [⟨all1_5, v⟩] S200x20.size (by rfl) y

set_option maxHeartbeats 1000000 in
/-- The body's triple: from the four input buffers at contents `a`, `s`, `w2`, `w3` and the two output buffers
    at anything, it runs to the end leaving the inputs as they were and the outputs at `res1_4 a` and
    `res1_5 a s w2 w3`. -/
theorem body1_triple (c : Dev nD) (E : Set ℕ) (i : grid1.Coords)
    (arg1 : Memref sig .tc .vmem S200x10000 .f32) (harg1 : arg1.IsWhole)
    (arg2 : Memref sig .tc .vmem S10000x128 .bf16) (harg2 : arg2.IsWhole)
    (arg3 : Memref sig .tc .vmem S128x256 .f32) (harg3 : arg3.IsWhole)
    (arg4 : Memref sig .tc .vmem S256x20 .f32) (harg4 : arg4.IsWhole)
    (arg5 : Memref sig .tc .vmem S200x10000 .bf16) (harg5 : arg5.IsWhole)
    (arg6 : Memref sig .tc .vmem S200x20 .bf16) (harg6 : arg6.IsWhole)
    (a : Vec F S200x10000 .f32) (s : Vec F S10000x128 .bf16) (w2 : Vec F S128x256 .f32) (w3 : Vec F S256x20 .f32)
    (K : PUnit → sProp 𝕄) :
    iprop(owns (c : Thread nD τ) arg1 fullShare a ∗ owns (c : Thread nD τ) arg2 fullShare s
        ∗ owns (c : Thread nD τ) arg3 fullShare w2 ∗ owns (c : Thread nD τ) arg4 fullShare w3
        ∗ (∃ d, owns (c : Thread nD τ) arg5 fullShare d) ∗ (∃ d, owns (c : Thread nD τ) arg6 fullShare d)
        ∗ (iprop(owns (c : Thread nD τ) arg1 fullShare a ∗ owns (c : Thread nD τ) arg2 fullShare s
            ∗ owns (c : Thread nD τ) arg3 fullShare w2 ∗ owns (c : Thread nD τ) arg4 fullShare w3
            ∗ owns (c : Thread nD τ) arg5 fullShare (res1_4 a)
            ∗ owns (c : Thread nD τ) arg6 fullShare (res1_5 a s w2 w3)) -∗ K ⟨⟩))
      ⊢ wp frame (wpE (defs₀ (F := F)) Variants.none c none) E
          (cc1__pass1_body i arg1 harg1 arg2 harg2 arg3 harg3 arg4 harg4 arg5 harg5 arg6 harg6) K := by
  simp only [cc1__pass1_body_eq_skeleton]; unfold cc1__pass1_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (res1_4_cover _)
  iexists _; isplitr
  swap; · iexact H6
  ipureintro
  exact View.read_writes_eq_canon _ _ _ (res1_5_cover _)

/-- The region's proof data on core `c`: the arrays as the region finds them; after the body at point `t` each
    input buffer still at its block and the two output buffers at `res1_4`, `res1_5` of the blocks; the invariant is
    the untouched scoped rest and the generator register; nothing is owed; every array at the full share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => res1_4 (blk1 V c 0 t)
    | ⟨5, _⟩ => res1_5 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = res1_4 (blk1 V c 0 t) := by dsimp only [dat1]
theorem dat1_after5 (c : Dev nD) (t : Fin cfg1.N) :
    (dat1 V c).after 5 t = res1_5 (blk1 V c 0 t) (blk1 V c 1 t) (blk1 V c 2 t) (blk1 V c 3 t) := by dsimp only [dat1]

/-- An input buffer holds its window's block at every point: a window not fetched at `t` has not moved. -/
theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)
theorem dat1_before2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)
theorem dat1_before3 (c : Dev nD) (t : Fin cfg1.N) (d) : (dat1 V c).before 3 t d = blk1 V c 3 t :=
  ((dat1 V c).before_in_eq_fetched 3 rfl (fun _ => rfl) (fun _ _ _ => rfl)
    (fun t => by rw [dat1_after3]; unfold Dat.blockOf blk1; rw [dat1_A]; try rfl) t d).trans
    (by unfold Dat.fetched Dat.blockOf blk1; rw [dat1_A]; try rfl)

/-- The body obligation at every grid point: the input buffers hold their blocks, the triple applies, and the
    invariant and what the core owes pass through untouched. -/
theorem obligation1 (c : Dev nD) :
    BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ owns (c : Thread nD τ) (st1_5 t) fullShare ((dat1 V c).after 5 t)))
  simp only [dat1_before0, dat1_before1, dat1_before2, dat1_before3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5]
  iintro ⟨HΦ, Ho, ⟨%d0, H0⟩, ⟨%d1, H1⟩, ⟨%d2, H2⟩, ⟨%d3, H3⟩, ⟨%d4, H4⟩, ⟨%d5, H5⟩⟩
  iapply (body1_triple c Set.univ _ _ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end

end Cert.Kernel.Hand

end
-- ==== Proof.BitsRegion2.lean ====
/-
  Region 2 of the program (the second product with the adjacency copy, u = A t): the kernel body's Hoare triple on its three staging buffers, and the
  region's proof data.

  The body reads its two input buffers whole, computes one value from them and stores it over the whole output
  buffer. So after the body the output buffer holds that value — a function of the two input blocks alone — and
  the input buffers are as they were. At grid point t the first input buffer holds block t of its array and the
  second holds its whole array, whether or not the pipeline fetched them at t (a block whose index did not move is
  not fetched again, and is still there).
-/
import proofs.«107705_g22454089023912_cont_8to1_328_7_alg».proof.Proof.Gen.Kernel.Launch
import proofs.«107705_g22454089023912_cont_8to1_328_7_alg».proof.Proof.Gen.Kernel.Skeleton
import proofs.«107705_g22454089023912_cont_8to1_328_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w`'s array that grid point `t` addresses, read off the array as the region finds it. -/
def blk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The whole of each staging buffer as a rectangle: what the body's loads and its store address. -/
abbrev all2_0 : Rect S1000x10000 := Rect.unit (s := S1000x10000) ![0, 0] S1000x10000.size inb_S1000x10000_S1000x10000_0_0
abbrev all2_1 : Rect S10000x20 := Rect.unit (s := S10000x20) ![0, 0] S10000x20.size inb_S10000x20_S10000x20_0_0
abbrev all2_2 : Rect S1000x20 := Rect.unit (s := S1000x20) ![0, 0] S1000x20.size inb_S1000x20_S1000x20_0_0

/-- What the body's one store leaves in the output buffer, as a function of the two input buffers' contents. -/
def res2 (a : Vec F S1000x10000 .bf16) (b : Vec F S10000x20 .bf16) : Vec F S1000x20 .bf16 :=
  View.canon [⟨all2_2, k2_pay1 (View.ld a all2_0) (View.ld b all2_1)⟩]

/-- The store's rectangle is the whole buffer, so every index of the buffer is written. -/
theorem res2_cover (v : Vec F S1000x20 .bf16) (y : S1000x20.Idx) :
    ∃ pc ∈ ([⟨all2_2, v⟩] : List (View.Piece (Elt F) S1000x20 .bf16)), y ∈ pc.1.set :=
  View.cover_of_tiled [⟨all2_2, v⟩] S1000x20.size (by rfl) y

set_option maxHeartbeats 1000000 in
/-- The body's triple: from the two input buffers at contents `a`, `b` and the output buffer at anything, it runs
    to the end leaving the inputs as they were and the output at `res2 a b`. -/
theorem body2_triple (c : Dev nD) (E : Set ℕ) (i : grid2.Coords)
    (arg0 : Memref sig .tc .vmem S1000x10000 .bf16) (harg0 : arg0.IsWhole)
    (arg1 : Memref sig .tc .vmem S10000x20 .bf16) (harg1 : arg1.IsWhole)
    (arg2 : Memref sig .tc .vmem S1000x20 .bf16) (harg2 : arg2.IsWhole)
    (a : Vec F S1000x10000 .bf16) (b : Vec F S10000x20 .bf16) (K : PUnit → sProp 𝕄) :
    iprop(owns (c : Thread nD τ) arg0 fullShare a ∗ owns (c : Thread nD τ) arg1 fullShare b
        ∗ (∃ d, owns (c : Thread nD τ) arg2 fullShare d)
        ∗ (iprop(owns (c : Thread nD τ) arg0 fullShare a ∗ owns (c : Thread nD τ) arg1 fullShare b
            ∗ owns (c : Thread nD τ) arg2 fullShare (res2 a b)) -∗ K ⟨⟩))
      ⊢ wp frame (wpE (defs₀ (F := F)) Variants.none c none) E (cc2__spmm_body i arg0 harg0 arg1 harg1 arg2 harg2) K := by
  simp only [cc2__spmm_body_eq_skeleton]; unfold cc2__spmm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res2_cover _)

/-- The region's proof data on core `c`: the arrays as the region finds them; after the body at point `t` each
    input buffer still at its block and the output buffer at `res2` of the two blocks; the invariant is the
    untouched scoped rest and the generator register; nothing is owed; every array at the full share. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) :
    (dat2 V c).after 2 t = res2 (blk2 V c 0 t) (blk2 V c 1 t) := by dsimp only [dat2]

/-- An input buffer holds its window's block at every point: a window not fetched at `t` has not moved. -/
theorem dat2_before0 (c : Dev nD) (t : Fin cfg2.N) (d) : (dat2 V c).before 0 t d = blk2 V c 0 t :=
  ((dat2 V c).before_in_eq_fetched 0 rfl (fun _ => rfl) (fun _ _ _ => rfl)
    (fun t => by rw [dat2_after0]; unfold Dat.blockOf blk2; rw [dat2_A]; try rfl) t d).trans
    (by unfold Dat.fetched Dat.blockOf blk2; rw [dat2_A]; try rfl)
theorem dat2_before1 (c : Dev nD) (t : Fin cfg2.N) (d) : (dat2 V c).before 1 t d = blk2 V c 1 t :=
  ((dat2 V c).before_in_eq_fetched 1 rfl (fun _ => rfl) (fun _ _ _ => rfl)
    (fun t => by rw [dat2_after1]; unfold Dat.blockOf blk2; rw [dat2_A]; try rfl) t d).trans
    (by unfold Dat.fetched Dat.blockOf blk2; rw [dat2_A]; try rfl)

/-- The body obligation at every grid point: the input buffers hold their blocks, the triple applies, and the
    invariant and what the core owes pass through untouched. -/
theorem obligation2 (c : Dev nD) :
    BodyObligation (dat2 (F := F) V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)))
  simp only [dat2_before0, dat2_before1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (body2_triple c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Hand

end
-- ==== Proof.BitsRegion3.lean ====
/-
  Region 3 of the program (the third product with the adjacency copy, the embedding z = A u): the kernel body's Hoare triple on its three staging buffers, and the
  region's proof data.

  The body reads its two input buffers whole, computes one value from them and stores it over the whole output
  buffer. So after the body the output buffer holds that value — a function of the two input blocks alone — and
  the input buffers are as they were. At grid point t the first input buffer holds block t of its array and the
  second holds its whole array, whether or not the pipeline fetched them at t (a block whose index did not move is
  not fetched again, and is still there).
-/
import proofs.«107705_g22454089023912_cont_8to1_328_7_alg».proof.Proof.Gen.Kernel.Launch
import proofs.«107705_g22454089023912_cont_8to1_328_7_alg».proof.Proof.Gen.Kernel.Skeleton
import proofs.«107705_g22454089023912_cont_8to1_328_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w`'s array that grid point `t` addresses, read off the array as the region finds it. -/
def blk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The whole of each staging buffer as a rectangle: what the body's loads and its store address. -/
abbrev all3_0 : Rect S1000x10000 := Rect.unit (s := S1000x10000) ![0, 0] S1000x10000.size inb_S1000x10000_S1000x10000_0_0
abbrev all3_1 : Rect S10000x20 := Rect.unit (s := S10000x20) ![0, 0] S10000x20.size inb_S10000x20_S10000x20_0_0
abbrev all3_2 : Rect S1000x20 := Rect.unit (s := S1000x20) ![0, 0] S1000x20.size inb_S1000x20_S1000x20_0_0

/-- What the body's one store leaves in the output buffer, as a function of the two input buffers' contents. -/
def res3 (a : Vec F S1000x10000 .bf16) (b : Vec F S10000x20 .bf16) : Vec F S1000x20 .f32 :=
  View.canon [⟨all3_2, k3_pay1 (View.ld a all3_0) (View.ld b all3_1)⟩]

/-- The store's rectangle is the whole buffer, so every index of the buffer is written. -/
theorem res3_cover (v : Vec F S1000x20 .f32) (y : S1000x20.Idx) :
    ∃ pc ∈ ([⟨all3_2, v⟩] : List (View.Piece (Elt F) S1000x20 .f32)), y ∈ pc.1.set :=
  View.cover_of_tiled [⟨all3_2, v⟩] S1000x20.size (by rfl) y

set_option maxHeartbeats 1000000 in
/-- The body's triple: from the two input buffers at contents `a`, `b` and the output buffer at anything, it runs
    to the end leaving the inputs as they were and the output at `res3 a b`. -/
theorem body3_triple (c : Dev nD) (E : Set ℕ) (i : grid3.Coords)
    (arg0 : Memref sig .tc .vmem S1000x10000 .bf16) (harg0 : arg0.IsWhole)
    (arg1 : Memref sig .tc .vmem S10000x20 .bf16) (harg1 : arg1.IsWhole)
    (arg2 : Memref sig .tc .vmem S1000x20 .f32) (harg2 : arg2.IsWhole)
    (a : Vec F S1000x10000 .bf16) (b : Vec F S10000x20 .bf16) (K : PUnit → sProp 𝕄) :
    iprop(owns (c : Thread nD τ) arg0 fullShare a ∗ owns (c : Thread nD τ) arg1 fullShare b
        ∗ (∃ d, owns (c : Thread nD τ) arg2 fullShare d)
        ∗ (iprop(owns (c : Thread nD τ) arg0 fullShare a ∗ owns (c : Thread nD τ) arg1 fullShare b
            ∗ owns (c : Thread nD τ) arg2 fullShare (res3 a b)) -∗ K ⟨⟩))
      ⊢ wp frame (wpE (defs₀ (F := F)) Variants.none c none) E (cc3__spmm_body i arg0 harg0 arg1 harg1 arg2 harg2) K := by
  simp only [cc3__spmm_body_eq_skeleton]; unfold cc3__spmm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res3_cover _)

/-- The region's proof data on core `c`: the arrays as the region finds them; after the body at point `t` each
    input buffer still at its block and the output buffer at `res3` of the two blocks; the invariant is the
    untouched scoped rest and the generator register; nothing is owed; every array at the full share. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => res3 (blk3 V c 0 t) (blk3 V c 1 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) :
    (dat3 V c).after 2 t = res3 (blk3 V c 0 t) (blk3 V c 1 t) := by dsimp only [dat3]

/-- An input buffer holds its window's block at every point: a window not fetched at `t` has not moved. -/
theorem dat3_before0 (c : Dev nD) (t : Fin cfg3.N) (d) : (dat3 V c).before 0 t d = blk3 V c 0 t :=
  ((dat3 V c).before_in_eq_fetched 0 rfl (fun _ => rfl) (fun _ _ _ => rfl)
    (fun t => by rw [dat3_after0]; unfold Dat.blockOf blk3; rw [dat3_A]; try rfl) t d).trans
    (by unfold Dat.fetched Dat.blockOf blk3; rw [dat3_A]; try rfl)
theorem dat3_before1 (c : Dev nD) (t : Fin cfg3.N) (d) : (dat3 V c).before 1 t d = blk3 V c 1 t :=
  ((dat3 V c).before_in_eq_fetched 1 rfl (fun _ => rfl) (fun _ _ _ => rfl)
    (fun t => by rw [dat3_after1]; unfold Dat.blockOf blk3; rw [dat3_A]; try rfl) t d).trans
    (by unfold Dat.fetched Dat.blockOf blk3; rw [dat3_A]; try rfl)

/-- The body obligation at every grid point: the input buffers hold their blocks, the triple applies, and the
    invariant and what the core owes pass through untouched. -/
theorem obligation3 (c : Dev nD) :
    BodyObligation (dat3 (F := F) V c) (defs₀ (F := F)) Variants.none () Set.univ := fun t => by
  rw [bigSep_W3, bigSep_W3]
  show iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t)))
  simp only [dat3_before0, dat3_before1]
  rw [show (dat3 V c).Φ t.succ = (dat3 V c).Φ t.castSucc from rfl,
    show (dat3 V c).owesAt () t.succ = (dat3 V c).owesAt () t.castSucc from rfl,
    dat3_after0, dat3_after1, dat3_after2]
  iintro ⟨HΦ, Ho, ⟨%d0, H0⟩, ⟨%d1, H1⟩, ⟨%d2, H2⟩⟩
  iapply (body3_triple c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Hand

end
-- ==== Proof.BitsRegion4.lean ====
/-
  Region 4 of the program (the logistic function of the embedding's Gram matrix, row panel by row panel): the kernel body's Hoare triple on its three staging buffers, and the
  region's proof data.

  The body reads its two input buffers whole, computes one value from them and stores it over the whole output
  buffer. So after the body the output buffer holds that value — a function of the two input blocks alone — and
  the input buffers are as they were. At grid point t the first input buffer holds block t of its array and the
  second holds its whole array, whether or not the pipeline fetched them at t (a block whose index did not move is
  not fetched again, and is still there).
-/
import proofs.«107705_g22454089023912_cont_8to1_328_7_alg».proof.Proof.Gen.Kernel.Launch
import proofs.«107705_g22454089023912_cont_8to1_328_7_alg».proof.Proof.Gen.Kernel.Skeleton
import proofs.«107705_g22454089023912_cont_8to1_328_7_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w`'s array that grid point `t` addresses, read off the array as the region finds it. -/
def blk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The whole of each staging buffer as a rectangle: what the body's loads and its store address. -/
abbrev all4_0 : Rect S400x20 := Rect.unit (s := S400x20) ![0, 0] S400x20.size inb_S400x20_S400x20_0_0
abbrev all4_1 : Rect S10000x20 := Rect.unit (s := S10000x20) ![0, 0] S10000x20.size inb_S10000x20_S10000x20_0_0
abbrev all4_2 : Rect S400x10000 := Rect.unit (s := S400x10000) ![0, 0] S400x10000.size inb_S400x10000_S400x10000_0_0

/-- What the body's one store leaves in the output buffer, as a function of the two input buffers' contents. -/
def res4 (a : Vec F S400x20 .f32) (b : Vec F S10000x20 .f32) : Vec F S400x10000 .f32 :=
  View.canon [⟨all4_2, k4_pay1 (View.ld a all4_0) (View.ld b all4_1)⟩]

/-- The store's rectangle is the whole buffer, so every index of the buffer is written. -/
theorem res4_cover (v : Vec F S400x10000 .f32) (y : S400x10000.Idx) :
    ∃ pc ∈ ([⟨all4_2, v⟩] : List (View.Piece (Elt F) S400x10000 .f32)), y ∈ pc.1.set :=
  View.cover_of_tiled [⟨all4_2, v⟩] S400x10000.size (by rfl) y

set_option maxHeartbeats 1000000 in
/-- The body's triple: from the two input buffers at contents `a`, `b` and the output buffer at anything, it runs
    to the end leaving the inputs as they were and the output at `res4 a b`. -/
theorem body4_triple (c : Dev nD) (E : Set ℕ) (i : grid4.Coords)
    (arg0 : Memref sig .tc .vmem S400x20 .f32) (harg0 : arg0.IsWhole)
    (arg1 : Memref sig .tc .vmem S10000x20 .f32) (harg1 : arg1.IsWhole)
    (arg2 : Memref sig .tc .vmem S400x10000 .f32) (harg2 : arg2.IsWhole)
    (a : Vec F S400x20 .f32) (b : Vec F S10000x20 .f32) (K : PUnit → sProp 𝕄) :
    iprop(owns (c : Thread nD τ) arg0 fullShare a ∗ owns (c : Thread nD τ) arg1 fullShare b
        ∗ (∃ d, owns (c : Thread nD τ) arg2 fullShare d)
        ∗ (iprop(owns (c : Thread nD τ) arg0 fullShare a ∗ owns (c : Thread nD τ) arg1 fullShare b
            ∗ owns (c : Thread nD τ) arg2 fullShare (res4 a b)) -∗ K ⟨⟩))
      ⊢ wp frame (wpE (defs₀ (F := F)) Variants.none c none) E (cc4__zz_body i arg0 harg0 arg1 harg1 arg2 harg2) K := by
  simp only [cc4__zz_body_eq_skeleton]; unfold cc4__zz_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res4_cover _)

/-- The region's proof data on core `c`: the arrays as the region finds them; after the body at point `t` each
    input buffer still at its block and the output buffer at `res4` of the two blocks; the invariant is the
    untouched scoped rest and the generator register; nothing is owed. The two input windows read ONE array (the embedding): each holds it at half the share, the
    output array is held whole. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => res4 (blk4 V c 0 t) (blk4 V c 1 t)
  Φ _ := Pipeline.ΦA spec4 c
  q w := match w with
    | ⟨0, _⟩ => fullShare.left
    | ⟨1, _⟩ => fullShare.right
    | ⟨2, _⟩ => fullShare
  owed _ := 0

theorem dat4_A (c : Dev nD) (w : Fin cfg4.W) : (dat4 V c).A w = V c (Pipeline.arrRef spec4 w) := by
  dsimp only [dat4]
theorem dat4_after0 (c : Dev nD) (t : Fin cfg4.N) : (dat4 V c).after 0 t = blk4 V c 0 t := by dsimp only [dat4]
theorem dat4_after1 (c : Dev nD) (t : Fin cfg4.N) : (dat4 V c).after 1 t = blk4 V c 1 t := by dsimp only [dat4]
theorem dat4_after2 (c : Dev nD) (t : Fin cfg4.N) :
    (dat4 V c).after 2 t = res4 (blk4 V c 0 t) (blk4 V c 1 t) := by dsimp only [dat4]

/-- An input buffer holds its window's block at every point: a window not fetched at `t` has not moved. -/
theorem dat4_before0 (c : Dev nD) (t : Fin cfg4.N) (d) : (dat4 V c).before 0 t d = blk4 V c 0 t :=
  ((dat4 V c).before_in_eq_fetched 0 rfl (fun _ => rfl) (fun _ _ _ => rfl)
    (fun t => by rw [dat4_after0]; unfold Dat.blockOf blk4; rw [dat4_A]; try rfl) t d).trans
    (by unfold Dat.fetched Dat.blockOf blk4; rw [dat4_A]; try rfl)
theorem dat4_before1 (c : Dev nD) (t : Fin cfg4.N) (d) : (dat4 V c).before 1 t d = blk4 V c 1 t :=
  ((dat4 V c).before_in_eq_fetched 1 rfl (fun _ => rfl) (fun _ _ _ => rfl)
    (fun t => by rw [dat4_after1]; unfold Dat.blockOf blk4; rw [dat4_A]; try rfl) t d).trans
    (by unfold Dat.fetched Dat.blockOf blk4; rw [dat4_A]; try rfl)

/-- The body obligation at every grid point: the input buffers hold their blocks, the triple applies, and the
    invariant and what the core owes pass through untouched. -/
theorem obligation4 (c : Dev nD) :
    BodyObligation (dat4 (F := F) V c) (defs₀ (F := F)) Variants.none () Set.univ := fun t => by
  rw [bigSep_W4, bigSep_W4]
  show iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) (fun _ =>
      iprop((dat4 V c).Φ t.succ ∗ (dat4 V c).owesAt () t.succ
        ∗ owns (c : Thread nD τ) (st4_0 t) fullShare ((dat4 V c).after 0 t)
        ∗ owns (c : Thread nD τ) (st4_1 t) fullShare ((dat4 V c).after 1 t)
        ∗ owns (c : Thread nD τ) (st4_2 t) fullShare ((dat4 V c).after 2 t)))
  simp only [dat4_before0, dat4_before1]
  rw [show (dat4 V c).Φ t.succ = (dat4 V c).Φ t.castSucc from rfl,
    show (dat4 V c).owesAt () t.succ = (dat4 V c).owesAt () t.castSucc from rfl,
    dat4_after0, dat4_after1, dat4_after2]
  iintro ⟨HΦ, Ho, ⟨%d0, H0⟩, ⟨%d1, H1⟩, ⟨%d2, H2⟩⟩
  iapply (body4_triple c Set.univ _ _ _ _ _ _ _ (blk4 V c 0 t) (blk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.Kernel.Hand

end
-- ==== Proof.BitsBounds.lean ====
/-
  The contents of the TensorCore's unscoped buffers at the boundaries of the program's five kernel regions.

  At launch they are the memory's. A region leaves every buffer as it found it except its own arrays, which end at
  what the pipeline's write-backs leave: an input array unchanged, an output array with every flushed block written.
  Region 4 reads one array (the embedding) through two windows, so its exit contents are stated directly: only the
  Gram matrix's array changes.
-/
import proofs.«107705_g22454089023912_cont_8to1_328_7_alg».proof.Proof.Gen.Kernel.Launch
import proofs.«107705_g22454089023912_cont_8to1_328_7_alg».proof.Proof.Gen.Kernel.Skeleton
import proofs.«107705_g22454089023912_cont_8to1_328_7_alg».proof.Proof.Gen.Kernel.Points
import proofs.«107705_g22454089023912_cont_8to1_328_7_alg».proof.Proof.BitsRegion0
import proofs.«107705_g22454089023912_cont_8to1_328_7_alg».proof.Proof.BitsRegion1
import proofs.«107705_g22454089023912_cont_8to1_328_7_alg».proof.Proof.BitsRegion2
import proofs.«107705_g22454089023912_cont_8to1_328_7_alg».proof.Proof.BitsRegion3
import proofs.«107705_g22454089023912_cont_8to1_328_7_alg».proof.Proof.BitsRegion4
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- Core `c`'s buffers at launch. -/
abbrev E0 : Dev nD → Valuation τ sig (Elt F) := fun c b => m (c, b)
abbrev V0 : (c : Dev nD) → (b : Ref sig .tc) → Buf (Elt F) ((c : Thread nD τ).loc b) := fun c b => E0 m c b

/-- The contents when region 0 is left: its arrays at what the pipeline's write-backs leave, every other buffer as
    when it was entered. -/
def E1 (c : Dev nD) : Valuation τ sig (Elt F) :=
  Pipeline.withArrays spec0 c (E0 m c) fun w => (dat0 (V0 m) c).arrAt w cfg0.N
/-- The same read at the TensorCore's references. -/
abbrev V1 : (c : Dev nD) → (b : Ref sig .tc) → Buf (Elt F) ((c : Thread nD τ).loc b) := fun c b => E1 m c b
theorem E1_at (c : Dev nD) (w : Fin cfg0.W) :
    E1 m c (Proc.devRef .tc (Pipeline.arrRef spec0 w)) = (dat0 (V0 m) c).arrAt w cfg0.N := by
  unfold E1; exact Pipeline.withArrays_arr spec0 launch0.win.arr_inj c _ _ w
theorem E1_off (c : Dev nD) (b : Ref sig .tc) (hb : ∀ w, Pipeline.arrRef spec0 w ≠ b) :
    E1 m c (Proc.devRef .tc b) = E0 m c (Proc.devRef .tc b) := by
  unfold E1; exact Pipeline.withArrays_of_ne spec0 c _ _ b hb
theorem E1_arr (c : Dev nD) (w : Fin cfg0.W) :
    (dat0 (V0 m) c).arrAt w cfg0.N = V1 m c (Pipeline.arrRef spec0 w) := (E1_at m c w).symm
theorem E1_rest (c : Dev nD) : ∀ b, b ∉ Finset.univ.image (Pipeline.arrRef spec0) → V1 m c b = V0 m c b :=
  fun b hb => E1_off m c b fun w e => hb (Finset.mem_image.mpr ⟨w, Finset.mem_univ _, e⟩)

/-- The contents when region 1 is left: its arrays at what the pipeline's write-backs leave, every other buffer as
    when it was entered. -/
def E2 (c : Dev nD) : Valuation τ sig (Elt F) :=
  Pipeline.withArrays spec1 c (E1 m c) fun w => (dat1 (V1 m) c).arrAt w cfg1.N
/-- The same read at the TensorCore's references. -/
abbrev V2 : (c : Dev nD) → (b : Ref sig .tc) → Buf (Elt F) ((c : Thread nD τ).loc b) := fun c b => E2 m c b
theorem E2_at (c : Dev nD) (w : Fin cfg1.W) :
    E2 m c (Proc.devRef .tc (Pipeline.arrRef spec1 w)) = (dat1 (V1 m) c).arrAt w cfg1.N := by
  unfold E2; exact Pipeline.withArrays_arr spec1 launch1.win.arr_inj c _ _ w
theorem E2_off (c : Dev nD) (b : Ref sig .tc) (hb : ∀ w, Pipeline.arrRef spec1 w ≠ b) :
    E2 m c (Proc.devRef .tc b) = E1 m c (Proc.devRef .tc b) := by
  unfold E2; exact Pipeline.withArrays_of_ne spec1 c _ _ b hb
theorem E2_arr (c : Dev nD) (w : Fin cfg1.W) :
    (dat1 (V1 m) c).arrAt w cfg1.N = V2 m c (Pipeline.arrRef spec1 w) := (E2_at m c w).symm
theorem E2_rest (c : Dev nD) : ∀ b, b ∉ Finset.univ.image (Pipeline.arrRef spec1) → V2 m c b = V1 m c b :=
  fun b hb => E2_off m c b fun w e => hb (Finset.mem_image.mpr ⟨w, Finset.mem_univ _, e⟩)

/-- The contents when region 2 is left: its arrays at what the pipeline's write-backs leave, every other buffer as
    when it was entered. -/
def E3 (c : Dev nD) : Valuation τ sig (Elt F) :=
  Pipeline.withArrays spec2 c (E2 m c) fun w => (dat2 (V2 m) c).arrAt w cfg2.N
/-- The same read at the TensorCore's references. -/
abbrev V3 : (c : Dev nD) → (b : Ref sig .tc) → Buf (Elt F) ((c : Thread nD τ).loc b) := fun c b => E3 m c b
theorem E3_at (c : Dev nD) (w : Fin cfg2.W) :
    E3 m c (Proc.devRef .tc (Pipeline.arrRef spec2 w)) = (dat2 (V2 m) c).arrAt w cfg2.N := by
  unfold E3; exact Pipeline.withArrays_arr spec2 launch2.win.arr_inj c _ _ w
theorem E3_off (c : Dev nD) (b : Ref sig .tc) (hb : ∀ w, Pipeline.arrRef spec2 w ≠ b) :
    E3 m c (Proc.devRef .tc b) = E2 m c (Proc.devRef .tc b) := by
  unfold E3; exact Pipeline.withArrays_of_ne spec2 c _ _ b hb
theorem E3_arr (c : Dev nD) (w : Fin cfg2.W) :
    (dat2 (V2 m) c).arrAt w cfg2.N = V3 m c (Pipeline.arrRef spec2 w) := (E3_at m c w).symm
theorem E3_rest (c : Dev nD) : ∀ b, b ∉ Finset.univ.image (Pipeline.arrRef spec2) → V3 m c b = V2 m c b :=
  fun b hb => E3_off m c b fun w e => hb (Finset.mem_image.mpr ⟨w, Finset.mem_univ _, e⟩)

/-- The contents when region 3 is left: its arrays at what the pipeline's write-backs leave, every other buffer as
    when it was entered. -/
def E4 (c : Dev nD) : Valuation τ sig (Elt F) :=
  Pipeline.withArrays spec3 c (E3 m c) fun w => (dat3 (V3 m) c).arrAt w cfg3.N
/-- The same read at the TensorCore's references. -/
abbrev V4 : (c : Dev nD) → (b : Ref sig .tc) → Buf (Elt F) ((c : Thread nD τ).loc b) := fun c b => E4 m c b
theorem E4_at (c : Dev nD) (w : Fin cfg3.W) :
    E4 m c (Proc.devRef .tc (Pipeline.arrRef spec3 w)) = (dat3 (V3 m) c).arrAt w cfg3.N := by
  unfold E4; exact Pipeline.withArrays_arr spec3 launch3.win.arr_inj c _ _ w
theorem E4_off (c : Dev nD) (b : Ref sig .tc) (hb : ∀ w, Pipeline.arrRef spec3 w ≠ b) :
    E4 m c (Proc.devRef .tc b) = E3 m c (Proc.devRef .tc b) := by
  unfold E4; exact Pipeline.withArrays_of_ne spec3 c _ _ b hb
theorem E4_arr (c : Dev nD) (w : Fin cfg3.W) :
    (dat3 (V3 m) c).arrAt w cfg3.N = V4 m c (Pipeline.arrRef spec3 w) := (E4_at m c w).symm
theorem E4_rest (c : Dev nD) : ∀ b, b ∉ Finset.univ.image (Pipeline.arrRef spec3) → V4 m c b = V3 m c b :=
  fun b hb => E4_off m c b fun w e => hb (Finset.mem_image.mpr ⟨w, Finset.mem_univ _, e⟩)

/-- The contents when region 4 is left: the Gram matrix's array at what the write-backs leave; every other buffer
    (the embedding, which both of the region's input windows read, included) as when it was entered. -/
def E5 (c : Dev nD) : Valuation τ sig (Elt F) :=
  Function.update (E4 m c) (Proc.devRef .tc main_v4) ((dat4 (V4 m) c).arrAt 2 cfg4.N)
abbrev V5 : (c : Dev nD) → (b : Ref sig .tc) → Buf (Elt F) ((c : Thread nD τ).loc b) := fun c b => E5 m c b

end Cert.Kernel.Hand

end
-- ==== Proof.BitsRun.lean ====
/-
  The program's run: its five kernel regions one after another, from the launch to the return.

  Between two regions every unscoped buffer of the TensorCore is held at known contents: at launch the memory's; after
  a region, the contents before it with the region's arrays replaced by what its pipeline's write-backs leave. Each
  region is entered from the contents the previous one left. At the end every buffer is read back: the two results
  at what regions 3 and 4 leave in them, the five arguments at their launch contents (no region writes them).
-/
import proofs.«107705_g22454089023912_cont_8to1_328_7_alg».proof.Proof.Gen.Kernel.Launch
import proofs.«107705_g22454089023912_cont_8to1_328_7_alg».proof.Proof.Gen.Kernel.Skeleton
import proofs.«107705_g22454089023912_cont_8to1_328_7_alg».proof.Proof.Gen.Kernel.Points
import proofs.«107705_g22454089023912_cont_8to1_328_7_alg».proof.Proof.BitsBounds
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data, the side state, the regions as segments -/

abbrev adm : (p : Fin 5) → (pcfgs (F := F) p).Adm := fun p => (cfgs p).toPCfg_adm

/-- Every pipeline's proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c

abbrev 𝒱₀ : Variants := Variants.none
abbrev L : GSem nD τ sig → Finset Unit := fun _ => ∅
abbrev lv : GSem nD τ sig → Unit → ℕ := fun _ _ => 0

/-- What rides beside the buffers through every region: the generator register at some state, and the core owing
    nothing. -/
abbrev side (c : Dev nD) : sProp 𝕄 :=
  iprop((∃ r, prngReg c r) ∗ ∃ W, owes (c : Thread nD τ) (0 : CellTallies nD τ sig Unit) W)

set_option backward.isDefEq.respectTransparency.types false in
/-- Region 0 as a segment of the run: entered with every unscoped buffer at the contents `E0`, left with them at
    `E1`. At entry the region's arrays are split out of the unscoped buffers and the generator register goes
    into the region's invariant; at exit both come back, the arrays at what the write-backs left. -/
def seg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V0 m) c).loose
  hwaits := Pipeline.hwaits_of_owed_zero _ _ _ _ L lv 0 fun _ _ => rfl
  pre c := iprop(StableHlo.held (c : Thread nD τ) (Pipeline.ucRefs τ sig) (E0 m c) ∗ side c)
  post c := iprop(StableHlo.held (c : Thread nD τ) (Pipeline.ucRefs τ sig) (E1 m c) ∗ side c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (fun b => E1 m c b) ((pdats m 0 c).arrAt · cfg0.N) (E1_arr m c) (E1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at the contents `E1`, left with them at
    `E2`. At entry the region's arrays are split out of the unscoped buffers and the generator register goes
    into the region's invariant; at exit both come back, the arrays at what the write-backs left. -/
def seg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V1 m) c).loose
  hwaits := Pipeline.hwaits_of_owed_zero _ _ _ _ L lv 1 fun _ _ => rfl
  pre c := iprop(StableHlo.held (c : Thread nD τ) (Pipeline.ucRefs τ sig) (E1 m c) ∗ side c)
  post c := iprop(StableHlo.held (c : Thread nD τ) (Pipeline.ucRefs τ sig) (E2 m c) ∗ side c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (fun b => E2 m c b) ((pdats m 1 c).arrAt · cfg1.N) (E2_arr m c) (E2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the run: entered with every unscoped buffer at the contents `E2`, left with them at
    `E3`. At entry the region's arrays are split out of the unscoped buffers and the generator register goes
    into the region's invariant; at exit both come back, the arrays at what the write-backs left. -/
def seg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (V2 m) c).loose
  hwaits := Pipeline.hwaits_of_owed_zero _ _ _ _ L lv 2 fun _ _ => rfl
  pre c := iprop(StableHlo.held (c : Thread nD τ) (Pipeline.ucRefs τ sig) (E2 m c) ∗ side c)
  post c := iprop(StableHlo.held (c : Thread nD τ) (Pipeline.ucRefs τ sig) (E3 m c) ∗ side c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (fun b => E3 m c b) ((pdats m 2 c).arrAt · cfg2.N) (E3_arr m c) (E3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment of the run: entered with every unscoped buffer at the contents `E3`, left with them at
    `E4`. At entry the region's arrays are split out of the unscoped buffers and the generator register goes
    into the region's invariant; at exit both come back, the arrays at what the write-backs left. -/
def seg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (V3 m) c).loose
  hwaits := Pipeline.hwaits_of_owed_zero _ _ _ _ L lv 3 fun _ _ => rfl
  pre c := iprop(StableHlo.held (c : Thread nD τ) (Pipeline.ucRefs τ sig) (E3 m c) ∗ side c)
  post c := iprop(StableHlo.held (c : Thread nD τ) (Pipeline.ucRefs τ sig) (E4 m c) ∗ side c)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V3 m c) (fun b => E4 m c b) ((pdats m 3 c).arrAt · cfg3.N) (E4_arr m c) (E4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4: two windows on one array -/

section Shared
variable (V : (c : Dev nD) → (b : Ref sig .tc) → Buf (Elt F) ((c : Thread nD τ).loc b))

/-- Region 4's windows address two buffers: the embedding (twice) and the Gram matrix. -/
theorem arrays4_refs : (Finset.univ.image (Pipeline.arrRef spec4)) = ({main_v3, main_v4} : Finset (Ref sig .tc)) := by decide

theorem share4_0 (c : Dev nD) : (dat4 V c).share 0 = fullShare.left := rfl
theorem share4_1 (c : Dev nD) : (dat4 V c).share 1 = fullShare.right := rfl
theorem share4_2 (c : Dev nD) : (dat4 V c).share 2 = fullShare := rfl

/-- ENTRY. The unscoped buffers are region 4's arrays and the rest: the embedding's buffer, held whole, is dealt to the
    two input windows that read it, half the share each; the Gram matrix's buffer goes whole to the output window. -/
theorem arrays4_of_bufs (c : Dev nD) :
    (unscopedBufs c (V c) : sProp 𝕄) ⊢ iprop((dat4 V c).arrays (dat4 V c).A ∗ Pipeline.unscopedRest spec4 c (V c)) := by
  rw [Pipeline.unscopedBufs_split₀ cfgs 4 winFacts₀4.arr_unscoped c (V c)]
  refine sep_mono ?_ .rfl
  unfold Pipeline.arrBufs Pipeline.Dat.arrays
  rw [bigSep_W4]
  rw [show Finset.image (Pipeline.arrRef (cfgs 4).spec) Finset.univ = ({main_v3, main_v4} : Finset (Ref sig .tc)) from arrays4_refs]
  rw [bigSep_insert (by decide : main_v3 ∉ ({main_v4} : Finset (Ref sig .tc))), bigSep_singleton]
  rw [(arr_whole4 0).set_eq_univ, (arr_whole4 2).set_eq_univ]
  rw [share4_0, share4_1, share4_2, dat4_A, dat4_A, dat4_A]
  show iprop((((c : Thread nD τ).loc main_v3) ↦{fullShare} V c main_v3) ∗ (((c : Thread nD τ).loc main_v4) ↦{fullShare} V c main_v4)) ⊢ _
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- EXIT. The two halves of the embedding's buffer, unchanged, join to the whole; with the Gram matrix's buffer at what
    the write-backs left and the rest, they are the unscoped buffers at any contents `V'` that has the Gram matrix
    there and agrees with the entry contents elsewhere. -/
theorem bufs_of_arrays4 (c : Dev nD) (V' : (b : Ref sig .tc) → Buf (Elt F) ((c : Thread nD τ).loc b))
    (h4 : V' main_v4 = (dat4 V c).arrAt 2 cfg4.N) (hrest : ∀ b : Ref sig .tc, b ≠ main_v4 → V' b = V c b) :
    iprop((dat4 V c).arrays ((dat4 V c).arrAt · cfg4.N) ∗ Pipeline.unscopedRest spec4 c (V c)) ⊢ (unscopedBufs c V' : sProp 𝕄) := by
  rw [Pipeline.unscopedBufs_split₀ cfgs 4 winFacts₀4.arr_unscoped c V']
  refine sep_mono ?_ (Entails.of_eq ?_)
  · unfold Pipeline.arrBufs Pipeline.Dat.arrays
    rw [bigSep_W4]
    rw [show Finset.image (Pipeline.arrRef (cfgs 4).spec) Finset.univ = ({main_v3, main_v4} : Finset (Ref sig .tc)) from arrays4_refs]
    rw [bigSep_insert (by decide : main_v3 ∉ ({main_v4} : Finset (Ref sig .tc))), bigSep_singleton]
    rw [(arr_whole4 0).set_eq_univ, (arr_whole4 2).set_eq_univ]
    beta_reduce
    rw [share4_0, share4_1, share4_2, (dat4 V c).arrAt_in 0 rfl, (dat4 V c).arrAt_in 1 rfl, dat4_A, dat4_A,
      hrest main_v3 (by decide), h4]
    show _ ⊢ iprop((((c : Thread nD τ).loc main_v3) ↦{fullShare} V c main_v3) ∗ (((c : Thread nD τ).loc main_v4) ↦{fullShare} (dat4 V c).arrAt 2 cfg4.N))
    iintro ⟨Hl, Hr, H4⟩
    isplitl [Hl Hr]
    · iapply (pointsTo_share (PosShare.mem_left_op_right fullShare)).2
      isplitl [Hl]; · iexact Hl
      iexact Hr
    iexact H4
  · unfold Pipeline.unscopedRest
    refine bigSep_congr fun b hb => ?_
    rw [hrest b fun e => (Finset.mem_sdiff.mp hb).2 (e ▸ Finset.mem_image.mpr ⟨2, Finset.mem_univ _, rfl⟩)]

end Shared

theorem E5_v4_self (c : Dev nD) : V5 m c main_v4 = (dat4 (V4 m) c).arrAt 2 cfg4.N := by
  show Function.update (E4 m c) (Proc.devRef .tc main_v4) _ (Proc.devRef .tc main_v4) = _
  rw [Function.update_self]
theorem E5_other (c : Dev nD) (b : Ref sig .tc) (hb : b ≠ main_v4) : V5 m c b = V4 m c b := by
  show Function.update (E4 m c) (Proc.devRef .tc main_v4) _ (Proc.devRef .tc b) = _
  rw [Function.update_of_ne (StableHlo.devRef_ne_of_ne hb)]

set_option backward.isDefEq.respectTransparency.types false in
/-- Region 4 as a segment of the run: entered with every unscoped buffer at `E4`, left with them at `E5`. As the
    other regions, but for the embedding's buffer, which both input windows read: it is dealt to them in halves at
    entry and joined again at exit. -/
def seg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (obligation4 (V4 m) c).loose
  hwaits := Pipeline.hwaits_of_owed_zero _ _ _ _ L lv 4 fun _ _ => rfl
  pre c := iprop(StableHlo.held (c : Thread nD τ) (Pipeline.ucRefs τ sig) (E4 m c) ∗ side c)
  post c := iprop((StableHlo.held (c : Thread nD τ) (Pipeline.ucRefs τ sig) (E5 m c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m c)
  hentry c := by
    rw [Pipeline.ownSems0_none]
    have hsplit := arrays4_of_bufs (F := F) (V4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest spec4 c (V4 m c))
        ⊢ (unscopedBufs c (fun b => E5 m c b) : sProp 𝕄) :=
      bufs_of_arrays4 (F := F) (V4 m) c (fun b => E5 m c b) (E5_v4_self m c) (fun b hb => E5_other m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its five regions, and the launch -/

/-- The program's regions in order. -/
abbrev regions : List (Pipeline.Seg (pcfgs (F := F)) adm (pdats m) () defs₀ 𝒱₀ L lv) :=
  [.region (seg0 m), .region (seg1 m), .region (seg2 m), .region (seg3 m), .region (seg4 m)]

/-- The program is the run of its regions. -/
theorem main_regions (c : Dev nD) : main (F := F) c = Pipeline.Seg.run (regions m) := (main_chain c).trans (by chain_rfl)

/-- An unscoped TensorCore reference is among those held between regions. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, every weakly fair execution of the program on the TensorCores
    terminates, nothing faulting, and in every final state each unscoped buffer holds what the last region's exit
    contents `E5` say. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = E5 m c b) :=
  Pipeline.θ_run_regions_kit (pcfgs (F := F)) adm (pdats m) () cellOf_inj emb₁ defs₀ 𝒱₀ L lv m ρ main (regions m)
    (fun c Q => by rw [main_regions m c])
    (by simp only [regions, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ side c))
    (Tₙ := fun c => iprop(StableHlo.held (c : Thread nD τ) (Pipeline.ucRefs τ sig) (E5 m c) ∗ ∃ r, prngReg c r))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E5 m c b)
    (hfin := fun c s' => by
      iintro ⟨⟨Hh, -⟩, HSI⟩
      unfold StableHlo.held
      imodintro
      iapply (pointsTo_read_all (Pipeline.ucRefs τ sig) (fun b => (((c : Thread nD τ)).1, b)) (E5 m c) s')
      isplitl [Hh] <;> iassumption)
    (hQ := fun s h c => h c)

end Cert.Kernel.Hand

end
-- ==== Proof.BitsReads.lean ====
/-
  What the program's five kernel regions read, and what the buffers hold at the end.

  A region changes only its output arrays: an array it reads through an input window is never written back, and a
  buffer that is none of its arrays is left as it was found. Following each buffer through the five regions:
  the five arguments are never an output array, so they end as launched; every intermediate array is written by
  exactly one region and read by later ones as that region left it. The arrays are: region 0 reads arguments 0
  and 2 and writes v0; region 1 reads arguments 1, 3, 4 and v0 and writes v1_0 and v1_1; region 2 reads v1_0 and
  v1_1 and writes v2; region 3 reads v1_0 and v2 and writes v3; region 4 reads v3 (through two windows) and writes v4.
-/
import proofs.«107705_g22454089023912_cont_8to1_328_7_alg».proof.Proof.BitsBounds
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (c : Dev nD)

/-! ## Region 0 reads the launch memory -/

theorem V0_arg0 : V0 m c main_arg0 = m ((c : Thread nD τ).loc main_arg0) := rfl
theorem V0_arg2 : V0 m c main_arg2 = m ((c : Thread nD τ).loc main_arg2) := rfl

/-! ## What region 1 reads: region 0's output, and three arguments region 0 does not touch -/

theorem V1_v0 : V1 m c main_v0 = (dat0 (V0 m) c).arrAt 2 cfg0.N := E1_at m c 2

theorem V1_arg1 : V1 m c main_arg1 = m ((c : Thread nD τ).loc main_arg1) := E1_off m c main_arg1 (by decide)
theorem V1_arg3 : V1 m c main_arg3 = m ((c : Thread nD τ).loc main_arg3) := E1_off m c main_arg3 (by decide)
theorem V1_arg4 : V1 m c main_arg4 = m ((c : Thread nD τ).loc main_arg4) := E1_off m c main_arg4 (by decide)

/-! ## What regions 2, 3 and 4 read -/

theorem V2_v1_0 : V2 m c main_v1_0 = (dat1 (V1 m) c).arrAt 4 cfg1.N := E2_at m c 4
theorem V2_v1_1 : V2 m c main_v1_1 = (dat1 (V1 m) c).arrAt 5 cfg1.N := E2_at m c 5

/-- Region 2 reads v1_0 through an input window, so leaves it as it found it. -/
theorem V3_v1_0 : V3 m c main_v1_0 = V2 m c main_v1_0 :=
  calc V3 m c main_v1_0
      = (dat2 (V2 m) c).arrAt 0 cfg2.N := E3_at m c 0
    _ = (dat2 (V2 m) c).A 0 := (dat2 (V2 m) c).arrAt_in 0 rfl cfg2.N
    _ = V2 m c main_v1_0 := dat2_A (V2 m) c 0

theorem V3_v2 : V3 m c main_v2 = (dat2 (V2 m) c).arrAt 2 cfg2.N := E3_at m c 2

theorem V4_v3 : V4 m c main_v3 = (dat3 (V3 m) c).arrAt 2 cfg3.N := E4_at m c 2

/-! ## The two results at the end -/

/-- Region 4 writes only v4, so the embedding v3 ends as region 3 left it. -/
theorem E5_v3 : E5 m c (Proc.devRef .tc main_v3) = (dat3 (V3 m) c).arrAt 2 cfg3.N :=
  calc E5 m c (Proc.devRef .tc main_v3)
      = E4 m c (Proc.devRef .tc main_v3) := Function.update_of_ne (StableHlo.devRef_ne_of_ne (by decide)) _ _
    _ = (dat3 (V3 m) c).arrAt 2 cfg3.N := E4_at m c 2

theorem E5_v4 : E5 m c (Proc.devRef .tc main_v4) = (dat4 (V4 m) c).arrAt 2 cfg4.N := Function.update_self _ _ _

/-! ## The five arguments end as launched -/

/-- Argument 0 is an input array of region 0 and no array of a later region. -/
theorem E5_arg0 : E5 m c (Proc.devRef .tc main_arg0) = m ((c : Thread nD τ).loc main_arg0) :=
  calc E5 m c (Proc.devRef .tc main_arg0)
      = E4 m c (Proc.devRef .tc main_arg0) := Function.update_of_ne (StableHlo.devRef_ne_of_ne (by decide)) _ _
    _ = E3 m c (Proc.devRef .tc main_arg0) := E4_off m c main_arg0 (by decide)
    _ = E2 m c (Proc.devRef .tc main_arg0) := E3_off m c main_arg0 (by decide)
    _ = E1 m c (Proc.devRef .tc main_arg0) := E2_off m c main_arg0 (by decide)
    _ = (dat0 (V0 m) c).arrAt 0 cfg0.N := E1_at m c 0
    _ = (dat0 (V0 m) c).A 0 := (dat0 (V0 m) c).arrAt_in 0 rfl cfg0.N
    _ = m ((c : Thread nD τ).loc main_arg0) := dat0_A (V0 m) c 0

/-- Argument 2 is an input array of region 0 and no array of a later region. -/
theorem E5_arg2 : E5 m c (Proc.devRef .tc main_arg2) = m ((c : Thread nD τ).loc main_arg2) :=
  calc E5 m c (Proc.devRef .tc main_arg2)
      = E4 m c (Proc.devRef .tc main_arg2) := Function.update_of_ne (StableHlo.devRef_ne_of_ne (by decide)) _ _
    _ = E3 m c (Proc.devRef .tc main_arg2) := E4_off m c main_arg2 (by decide)
    _ = E2 m c (Proc.devRef .tc main_arg2) := E3_off m c main_arg2 (by decide)
    _ = E1 m c (Proc.devRef .tc main_arg2) := E2_off m c main_arg2 (by decide)
    _ = (dat0 (V0 m) c).arrAt 1 cfg0.N := E1_at m c 1
    _ = (dat0 (V0 m) c).A 1 := (dat0 (V0 m) c).arrAt_in 1 rfl cfg0.N
    _ = m ((c : Thread nD τ).loc main_arg2) := dat0_A (V0 m) c 1

/-- Argument 1 is no array of region 0, an input array of region 1 and no array of a later region. -/
theorem E5_arg1 : E5 m c (Proc.devRef .tc main_arg1) = m ((c : Thread nD τ).loc main_arg1) :=
  calc E5 m c (Proc.devRef .tc main_arg1)
      = E4 m c (Proc.devRef .tc main_arg1) := Function.update_of_ne (StableHlo.devRef_ne_of_ne (by decide)) _ _
    _ = E3 m c (Proc.devRef .tc main_arg1) := E4_off m c main_arg1 (by decide)
    _ = E2 m c (Proc.devRef .tc main_arg1) := E3_off m c main_arg1 (by decide)
    _ = (dat1 (V1 m) c).arrAt 0 cfg1.N := E2_at m c 0
    _ = (dat1 (V1 m) c).A 0 := (dat1 (V1 m) c).arrAt_in 0 rfl cfg1.N
    _ = V1 m c main_arg1 := dat1_A (V1 m) c 0
    _ = m ((c : Thread nD τ).loc main_arg1) := V1_arg1 m c

/-- Argument 3 is no array of region 0, an input array of region 1 and no array of a later region. -/
theorem E5_arg3 : E5 m c (Proc.devRef .tc main_arg3) = m ((c : Thread nD τ).loc main_arg3) :=
  calc E5 m c (Proc.devRef .tc main_arg3)
      = E4 m c (Proc.devRef .tc main_arg3) := Function.update_of_ne (StableHlo.devRef_ne_of_ne (by decide)) _ _
    _ = E3 m c (Proc.devRef .tc main_arg3) := E4_off m c main_arg3 (by decide)
    _ = E2 m c (Proc.devRef .tc main_arg3) := E3_off m c main_arg3 (by decide)
    _ = (dat1 (V1 m) c).arrAt 2 cfg1.N := E2_at m c 2
    _ = (dat1 (V1 m) c).A 2 := (dat1 (V1 m) c).arrAt_in 2 rfl cfg1.N
    _ = V1 m c main_arg3 := dat1_A (V1 m) c 2
    _ = m ((c : Thread nD τ).loc main_arg3) := V1_arg3 m c

/-- Argument 4 is no array of region 0, an input array of region 1 and no array of a later region. -/
theorem E5_arg4 : E5 m c (Proc.devRef .tc main_arg4) = m ((c : Thread nD τ).loc main_arg4) :=
  calc E5 m c (Proc.devRef .tc main_arg4)
      = E4 m c (Proc.devRef .tc main_arg4) := Function.update_of_ne (StableHlo.devRef_ne_of_ne (by decide)) _ _
    _ = E3 m c (Proc.devRef .tc main_arg4) := E4_off m c main_arg4 (by decide)
    _ = E2 m c (Proc.devRef .tc main_arg4) := E3_off m c main_arg4 (by decide)
    _ = (dat1 (V1 m) c).arrAt 3 cfg1.N := E2_at m c 3
    _ = (dat1 (V1 m) c).A 3 := (dat1 (V1 m) c).arrAt_in 3 rfl cfg1.N
    _ = V1 m c main_arg4 := dat1_A (V1 m) c 3
    _ = m ((c : Thread nD τ).loc main_arg4) := V1_arg4 m c

end Cert.Kernel.Hand

end
-- ==== Proof.IdealRegion0.lean ====
/-
  Region 0 of the program (the first layer's support, s = tanh (x W1), computed in one step with no grid): the kernel body's Hoare triple on its three staging buffers, and the
  region's proof data.

  The body reads its two input buffers whole, computes one value from them and stores it over the whole output
  buffer. So after the body the output buffer holds that value — a function of the two input blocks alone — and
  the input buffers are as they were. At grid point t the first input buffer holds block t of its array and the
  second holds its whole array, whether or not the pipeline fetched them at t (a block whose index did not move is
  not fetched again, and is still there).
-/
import proofs.«107705_g22454089023912_cont_8to1_328_7_alg».proof.Proof.Gen.KernelIdeal.Launch
import proofs.«107705_g22454089023912_cont_8to1_328_7_alg».proof.Proof.Gen.KernelIdeal.Skeleton
import proofs.«107705_g22454089023912_cont_8to1_328_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w`'s array that grid point `t` addresses, read off the array as the region finds it. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole of each staging buffer as a rectangle: what the body's loads and its store address. -/
abbrev all0_0 : Rect S10000x128 := Rect.unit (s := S10000x128) ![0, 0] S10000x128.size inb_S10000x128_S10000x128_0_0
abbrev all0_1 : Rect S128x128 := Rect.unit (s := S128x128) ![0, 0] S128x128.size inb_S128x128_S128x128_0_0
abbrev all0_2 : Rect S10000x128 := Rect.unit (s := S10000x128) ![0, 0] S10000x128.size inb_S10000x128_S10000x128_0_0

/-- What the body's one store leaves in the output buffer, as a function of the two input buffers' contents. -/
def res0 (a : Vec F S10000x128 .f32) (b : Vec F S128x128 .f32) : Vec F S10000x128 .bf16 :=
  View.canon [⟨all0_2, k0_pay1 (View.ld a all0_0) (View.ld b all0_1)⟩]

/-- The store's rectangle is the whole buffer, so every index of the buffer is written. -/
theorem res0_cover (v : Vec F S10000x128 .bf16) (y : S10000x128.Idx) :
    ∃ pc ∈ ([⟨all0_2, v⟩] : List (View.Piece (Elt F) S10000x128 .bf16)), y ∈ pc.1.set :=
  View.cover_of_tiled [⟨all0_2, v⟩] S10000x128.size (by rfl) y

set_option maxHeartbeats 1000000 in
/-- The body's triple: from the two input buffers at contents `a`, `b` and the output buffer at anything, it runs
    to the end leaving the inputs as they were and the output at `res0 a b`. -/
theorem body0_triple (c : Dev nD) (E : Set ℕ)
    (arg0 : Memref sig .tc .vmem S10000x128 .f32) (harg0 : arg0.IsWhole)
    (arg1 : Memref sig .tc .vmem S128x128 .f32) (harg1 : arg1.IsWhole)
    (arg2 : Memref sig .tc .vmem S10000x128 .bf16) (harg2 : arg2.IsWhole)
    (a : Vec F S10000x128 .f32) (b : Vec F S128x128 .f32) (K : PUnit → sProp 𝕄) :
    iprop(owns (c : Thread nD τ) arg0 fullShare a ∗ owns (c : Thread nD τ) arg1 fullShare b
        ∗ (∃ d, owns (c : Thread nD τ) arg2 fullShare d)
        ∗ (iprop(owns (c : Thread nD τ) arg0 fullShare a ∗ owns (c : Thread nD τ) arg1 fullShare b
            ∗ owns (c : Thread nD τ) arg2 fullShare (res0 a b)) -∗ K ⟨⟩))
      ⊢ wp frame (wpE (defs₀ (F := F)) Variants.none c none) E (cc0__s1_body arg0 harg0 arg1 harg1 arg2 harg2) K := by
  simp only [cc0__s1_body_eq_skeleton]; unfold cc0__s1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res0_cover _)

/-- The region's proof data on core `c`: the arrays as the region finds them; after the body at point `t` each
    input buffer still at its block and the output buffer at `res0` of the two blocks; the invariant is the
    untouched scoped rest and the generator register; nothing is owed; every array at the full share. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) :
    (dat0 V c).after 2 t = res0 (blk0 V c 0 t) (blk0 V c 1 t) := by dsimp only [dat0]

/-- An input buffer holds its window's block at every point: a window not fetched at `t` has not moved. -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)
theorem dat0_before1 (c : Dev nD) (t : Fin cfg0.N) (d) : (dat0 V c).before 1 t d = blk0 V c 1 t :=
  ((dat0 V c).before_in_eq_fetched 1 rfl (fun _ => rfl) (fun _ _ _ => rfl)
    (fun t => by rw [dat0_after1]; unfold Dat.blockOf blk0; rw [dat0_A]; try rfl) t d).trans
    (by unfold Dat.fetched Dat.blockOf blk0; rw [dat0_A]; try rfl)

/-- The body obligation at every grid point: the input buffers hold their blocks, the triple applies, and the
    invariant and what the core owes pass through untouched. -/
theorem obligation0 (c : Dev nD) :
    BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)))
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0_triple c Set.univ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Hand

end
-- ==== Proof.IdealRegion1.lean ====
/-
  Region 1 of the program (the first pass over the adjacency matrix): the kernel body's Hoare triple on its six
  staging buffers, and the region's proof data.

  At grid point t the body reads a panel of 200 rows of the adjacency matrix, the whole support matrix and the two
  weight matrices W2, W3. It stores the panel itself (in the narrower format) over the first output buffer, and the
  panel's rows of tanh ((A s) W2) W3 over the second. Both stores cover their buffers, so each output buffer ends
  at a function of the input blocks alone, and the four input buffers are as they were. Each input buffer holds
  its window's block at every point, fetched there or not: the three whole-array windows are fetched once and never
  move.
-/
import proofs.«107705_g22454089023912_cont_8to1_328_7_alg».proof.Proof.Gen.KernelIdeal.Launch
import proofs.«107705_g22454089023912_cont_8to1_328_7_alg».proof.Proof.Gen.KernelIdeal.Skeleton
import proofs.«107705_g22454089023912_cont_8to1_328_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w`'s array that grid point `t` addresses, read off the array as the region finds it. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The whole of each staging buffer as a rectangle: what the body's loads and its stores address. -/
abbrev all1_0 : Rect S200x10000 := Rect.unit (s := S200x10000) ![0, 0] S200x10000.size inb_S200x10000_S200x10000_0_0
abbrev all1_1 : Rect S10000x128 := Rect.unit (s := S10000x128) ![0, 0] S10000x128.size inb_S10000x128_S10000x128_0_0
abbrev all1_2 : Rect S128x256 := Rect.unit (s := S128x256) ![0, 0] S128x256.size inb_S128x256_S128x256_0_0
abbrev all1_3 : Rect S256x20 := Rect.unit (s := S256x20) ![0, 0] S256x20.size inb_S256x20_S256x20_0_0
abbrev all1_5 : Rect S200x20 := Rect.unit (s := S200x20) ![0, 0] S200x20.size inb_S200x20_S200x20_0_0

/-- What the first store leaves in the copy's buffer: the adjacency panel. -/
def res1_4 (a : Vec F S200x10000 .f32) : Vec F S200x10000 .bf16 :=
  View.canon [⟨all1_0, k1_pay1 (View.ld a all1_0)⟩]

/-- What the second store leaves in the epilogue's buffer, from the four input buffers' contents. -/
def res1_5 (a : Vec F S200x10000 .f32) (s : Vec F S10000x128 .bf16) (w2 : Vec F S128x256 .f32) (w3 : Vec F S256x20 .f32) :
    Vec F S200x20 .bf16 :=
  View.canon [⟨all1_5, k1_pay2 (View.ld a all1_0) (View.ld s all1_1) (View.ld w2 all1_2) (View.ld w3 all1_3)⟩]

/-- Each store's rectangle is its whole buffer, so every index of the buffer is written. -/
theorem res1_4_cover (v : Vec F S200x10000 .bf16) (y : S200x10000.Idx) :
    ∃ pc ∈ ([⟨all1_0, v⟩] : List (View.Piece (Elt F) S200x10000 .bf16)), y ∈ pc.1.set :=
  View.cover_of_tiled [⟨all1_0, v⟩] S200x10000.size (by rfl) y
theorem res1_5_cover (v : Vec F S200x20 .bf16) (y : S200x20.Idx) :
    ∃ pc ∈ ([⟨all1_5, v⟩] : List (View.Piece (Elt F) S200x20 .bf16)), y ∈ pc.1.set :=
  View.cover_of_tiled [⟨all1_5, v⟩] S200x20.size (by rfl) y

set_option maxHeartbeats 1000000 in
/-- The body's triple: from the four input buffers at contents `a`, `s`, `w2`, `w3` and the two output buffers
    at anything, it runs to the end leaving the inputs as they were and the outputs at `res1_4 a` and
    `res1_5 a s w2 w3`. -/
theorem body1_triple (c : Dev nD) (E : Set ℕ) (i : grid1.Coords)
    (arg1 : Memref sig .tc .vmem S200x10000 .f32) (harg1 : arg1.IsWhole)
    (arg2 : Memref sig .tc .vmem S10000x128 .bf16) (harg2 : arg2.IsWhole)
    (arg3 : Memref sig .tc .vmem S128x256 .f32) (harg3 : arg3.IsWhole)
    (arg4 : Memref sig .tc .vmem S256x20 .f32) (harg4 : arg4.IsWhole)
    (arg5 : Memref sig .tc .vmem S200x10000 .bf16) (harg5 : arg5.IsWhole)
    (arg6 : Memref sig .tc .vmem S200x20 .bf16) (harg6 : arg6.IsWhole)
    (a : Vec F S200x10000 .f32) (s : Vec F S10000x128 .bf16) (w2 : Vec F S128x256 .f32) (w3 : Vec F S256x20 .f32)
    (K : PUnit → sProp 𝕄) :
    iprop(owns (c : Thread nD τ) arg1 fullShare a ∗ owns (c : Thread nD τ) arg2 fullShare s
        ∗ owns (c : Thread nD τ) arg3 fullShare w2 ∗ owns (c : Thread nD τ) arg4 fullShare w3
        ∗ (∃ d, owns (c : Thread nD τ) arg5 fullShare d) ∗ (∃ d, owns (c : Thread nD τ) arg6 fullShare d)
        ∗ (iprop(owns (c : Thread nD τ) arg1 fullShare a ∗ owns (c : Thread nD τ) arg2 fullShare s
            ∗ owns (c : Thread nD τ) arg3 fullShare w2 ∗ owns (c : Thread nD τ) arg4 fullShare w3
            ∗ owns (c : Thread nD τ) arg5 fullShare (res1_4 a)
            ∗ owns (c : Thread nD τ) arg6 fullShare (res1_5 a s w2 w3)) -∗ K ⟨⟩))
      ⊢ wp frame (wpE (defs₀ (F := F)) Variants.none c none) E
          (cc1__pass1_body i arg1 harg1 arg2 harg2 arg3 harg3 arg4 harg4 arg5 harg5 arg6 harg6) K := by
  simp only [cc1__pass1_body_eq_skeleton]; unfold cc1__pass1_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (res1_4_cover _)
  iexists _; isplitr
  swap; · iexact H6
  ipureintro
  exact View.read_writes_eq_canon _ _ _ (res1_5_cover _)

/-- The region's proof data on core `c`: the arrays as the region finds them; after the body at point `t` each
    input buffer still at its block and the two output buffers at `res1_4`, `res1_5` of the blocks; the invariant is
    the untouched scoped rest and the generator register; nothing is owed; every array at the full share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => res1_4 (blk1 V c 0 t)
    | ⟨5, _⟩ => res1_5 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = res1_4 (blk1 V c 0 t) := by dsimp only [dat1]
theorem dat1_after5 (c : Dev nD) (t : Fin cfg1.N) :
    (dat1 V c).after 5 t = res1_5 (blk1 V c 0 t) (blk1 V c 1 t) (blk1 V c 2 t) (blk1 V c 3 t) := by dsimp only [dat1]

/-- An input buffer holds its window's block at every point: a window not fetched at `t` has not moved. -/
theorem dat1_before0 (c : Dev nD) (t : Fin cfg1.N) (d) : (dat1 V c).before 0 t d = blk1 V c 0 t :=
  ((dat1 V c).before_in_eq_fetched 0 rfl (fun _ => rfl) (fun _ _ _ => rfl)
    (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
    (fun t => by rw [dat1_after1]; unfold Dat.blockOf blk1; rw [dat1_A]; try rfl) t d).trans
    (by unfold Dat.fetched Dat.blockOf blk1; rw [dat1_A]; try rfl)
theorem dat1_before2 (c : Dev nD) (t : Fin cfg1.N) (d) : (dat1 V c).before 2 t d = blk1 V c 2 t :=
  ((dat1 V c).before_in_eq_fetched 2 rfl (fun _ => rfl) (fun _ _ _ => rfl)
    (fun t => by rw [dat1_after2]; unfold Dat.blockOf blk1; rw [dat1_A]; try rfl) t d).trans
    (by unfold Dat.fetched Dat.blockOf blk1; rw [dat1_A]; try rfl)
theorem dat1_before3 (c : Dev nD) (t : Fin cfg1.N) (d) : (dat1 V c).before 3 t d = blk1 V c 3 t :=
  ((dat1 V c).before_in_eq_fetched 3 rfl (fun _ => rfl) (fun _ _ _ => rfl)
    (fun t => by rw [dat1_after3]; unfold Dat.blockOf blk1; rw [dat1_A]; try rfl) t d).trans
    (by unfold Dat.fetched Dat.blockOf blk1; rw [dat1_A]; try rfl)

/-- The body obligation at every grid point: the input buffers hold their blocks, the triple applies, and the
    invariant and what the core owes pass through untouched. -/
theorem obligation1 (c : Dev nD) :
    BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t)
        ∗ owns (c : Thread nD τ) (st1_4 t) fullShare ((dat1 V c).after 4 t)
        ∗ owns (c : Thread nD τ) (st1_5 t) fullShare ((dat1 V c).after 5 t)))
  simp only [dat1_before0, dat1_before1, dat1_before2, dat1_before3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5]
  iintro ⟨HΦ, Ho, ⟨%d0, H0⟩, ⟨%d1, H1⟩, ⟨%d2, H2⟩, ⟨%d3, H3⟩, ⟨%d4, H4⟩, ⟨%d5, H5⟩⟩
  iapply (body1_triple c Set.univ _ _ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

end

end Cert.KernelIdeal.Hand

end
-- ==== Proof.IdealRegion2.lean ====
/-
  Region 2 of the program (the second product with the adjacency copy, u = A t): the kernel body's Hoare triple on its three staging buffers, and the
  region's proof data.

  The body reads its two input buffers whole, computes one value from them and stores it over the whole output
  buffer. So after the body the output buffer holds that value — a function of the two input blocks alone — and
  the input buffers are as they were. At grid point t the first input buffer holds block t of its array and the
  second holds its whole array, whether or not the pipeline fetched them at t (a block whose index did not move is
  not fetched again, and is still there).
-/
import proofs.«107705_g22454089023912_cont_8to1_328_7_alg».proof.Proof.Gen.KernelIdeal.Launch
import proofs.«107705_g22454089023912_cont_8to1_328_7_alg».proof.Proof.Gen.KernelIdeal.Skeleton
import proofs.«107705_g22454089023912_cont_8to1_328_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w`'s array that grid point `t` addresses, read off the array as the region finds it. -/
def blk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The whole of each staging buffer as a rectangle: what the body's loads and its store address. -/
abbrev all2_0 : Rect S1000x10000 := Rect.unit (s := S1000x10000) ![0, 0] S1000x10000.size inb_S1000x10000_S1000x10000_0_0
abbrev all2_1 : Rect S10000x20 := Rect.unit (s := S10000x20) ![0, 0] S10000x20.size inb_S10000x20_S10000x20_0_0
abbrev all2_2 : Rect S1000x20 := Rect.unit (s := S1000x20) ![0, 0] S1000x20.size inb_S1000x20_S1000x20_0_0

/-- What the body's one store leaves in the output buffer, as a function of the two input buffers' contents. -/
def res2 (a : Vec F S1000x10000 .bf16) (b : Vec F S10000x20 .bf16) : Vec F S1000x20 .bf16 :=
  View.canon [⟨all2_2, k2_pay1 (View.ld a all2_0) (View.ld b all2_1)⟩]

/-- The store's rectangle is the whole buffer, so every index of the buffer is written. -/
theorem res2_cover (v : Vec F S1000x20 .bf16) (y : S1000x20.Idx) :
    ∃ pc ∈ ([⟨all2_2, v⟩] : List (View.Piece (Elt F) S1000x20 .bf16)), y ∈ pc.1.set :=
  View.cover_of_tiled [⟨all2_2, v⟩] S1000x20.size (by rfl) y

set_option maxHeartbeats 1000000 in
/-- The body's triple: from the two input buffers at contents `a`, `b` and the output buffer at anything, it runs
    to the end leaving the inputs as they were and the output at `res2 a b`. -/
theorem body2_triple (c : Dev nD) (E : Set ℕ) (i : grid2.Coords)
    (arg0 : Memref sig .tc .vmem S1000x10000 .bf16) (harg0 : arg0.IsWhole)
    (arg1 : Memref sig .tc .vmem S10000x20 .bf16) (harg1 : arg1.IsWhole)
    (arg2 : Memref sig .tc .vmem S1000x20 .bf16) (harg2 : arg2.IsWhole)
    (a : Vec F S1000x10000 .bf16) (b : Vec F S10000x20 .bf16) (K : PUnit → sProp 𝕄) :
    iprop(owns (c : Thread nD τ) arg0 fullShare a ∗ owns (c : Thread nD τ) arg1 fullShare b
        ∗ (∃ d, owns (c : Thread nD τ) arg2 fullShare d)
        ∗ (iprop(owns (c : Thread nD τ) arg0 fullShare a ∗ owns (c : Thread nD τ) arg1 fullShare b
            ∗ owns (c : Thread nD τ) arg2 fullShare (res2 a b)) -∗ K ⟨⟩))
      ⊢ wp frame (wpE (defs₀ (F := F)) Variants.none c none) E (cc2__spmm_body i arg0 harg0 arg1 harg1 arg2 harg2) K := by
  simp only [cc2__spmm_body_eq_skeleton]; unfold cc2__spmm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res2_cover _)

/-- The region's proof data on core `c`: the arrays as the region finds them; after the body at point `t` each
    input buffer still at its block and the output buffer at `res2` of the two blocks; the invariant is the
    untouched scoped rest and the generator register; nothing is owed; every array at the full share. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => res2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) :
    (dat2 V c).after 2 t = res2 (blk2 V c 0 t) (blk2 V c 1 t) := by dsimp only [dat2]

/-- An input buffer holds its window's block at every point: a window not fetched at `t` has not moved. -/
theorem dat2_before0 (c : Dev nD) (t : Fin cfg2.N) (d) : (dat2 V c).before 0 t d = blk2 V c 0 t :=
  ((dat2 V c).before_in_eq_fetched 0 rfl (fun _ => rfl) (fun _ _ _ => rfl)
    (fun t => by rw [dat2_after0]; unfold Dat.blockOf blk2; rw [dat2_A]; try rfl) t d).trans
    (by unfold Dat.fetched Dat.blockOf blk2; rw [dat2_A]; try rfl)
theorem dat2_before1 (c : Dev nD) (t : Fin cfg2.N) (d) : (dat2 V c).before 1 t d = blk2 V c 1 t :=
  ((dat2 V c).before_in_eq_fetched 1 rfl (fun _ => rfl) (fun _ _ _ => rfl)
    (fun t => by rw [dat2_after1]; unfold Dat.blockOf blk2; rw [dat2_A]; try rfl) t d).trans
    (by unfold Dat.fetched Dat.blockOf blk2; rw [dat2_A]; try rfl)

/-- The body obligation at every grid point: the input buffers hold their blocks, the triple applies, and the
    invariant and what the core owes pass through untouched. -/
theorem obligation2 (c : Dev nD) :
    BodyObligation (dat2 (F := F) V c) (defs₀ (F := F)) Variants.none () Set.univ := fun t => by
  rw [bigSep_W2, bigSep_W2]
  show iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t)))
  simp only [dat2_before0, dat2_before1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (body2_triple c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Hand

end
-- ==== Proof.IdealRegion3.lean ====
/-
  Region 3 of the program (the third product with the adjacency copy, the embedding z = A u): the kernel body's Hoare triple on its three staging buffers, and the
  region's proof data.

  The body reads its two input buffers whole, computes one value from them and stores it over the whole output
  buffer. So after the body the output buffer holds that value — a function of the two input blocks alone — and
  the input buffers are as they were. At grid point t the first input buffer holds block t of its array and the
  second holds its whole array, whether or not the pipeline fetched them at t (a block whose index did not move is
  not fetched again, and is still there).
-/
import proofs.«107705_g22454089023912_cont_8to1_328_7_alg».proof.Proof.Gen.KernelIdeal.Launch
import proofs.«107705_g22454089023912_cont_8to1_328_7_alg».proof.Proof.Gen.KernelIdeal.Skeleton
import proofs.«107705_g22454089023912_cont_8to1_328_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w`'s array that grid point `t` addresses, read off the array as the region finds it. -/
def blk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The whole of each staging buffer as a rectangle: what the body's loads and its store address. -/
abbrev all3_0 : Rect S1000x10000 := Rect.unit (s := S1000x10000) ![0, 0] S1000x10000.size inb_S1000x10000_S1000x10000_0_0
abbrev all3_1 : Rect S10000x20 := Rect.unit (s := S10000x20) ![0, 0] S10000x20.size inb_S10000x20_S10000x20_0_0
abbrev all3_2 : Rect S1000x20 := Rect.unit (s := S1000x20) ![0, 0] S1000x20.size inb_S1000x20_S1000x20_0_0

/-- What the body's one store leaves in the output buffer, as a function of the two input buffers' contents. -/
def res3 (a : Vec F S1000x10000 .bf16) (b : Vec F S10000x20 .bf16) : Vec F S1000x20 .f32 :=
  View.canon [⟨all3_2, k3_pay1 (View.ld a all3_0) (View.ld b all3_1)⟩]

/-- The store's rectangle is the whole buffer, so every index of the buffer is written. -/
theorem res3_cover (v : Vec F S1000x20 .f32) (y : S1000x20.Idx) :
    ∃ pc ∈ ([⟨all3_2, v⟩] : List (View.Piece (Elt F) S1000x20 .f32)), y ∈ pc.1.set :=
  View.cover_of_tiled [⟨all3_2, v⟩] S1000x20.size (by rfl) y

set_option maxHeartbeats 1000000 in
/-- The body's triple: from the two input buffers at contents `a`, `b` and the output buffer at anything, it runs
    to the end leaving the inputs as they were and the output at `res3 a b`. -/
theorem body3_triple (c : Dev nD) (E : Set ℕ) (i : grid3.Coords)
    (arg0 : Memref sig .tc .vmem S1000x10000 .bf16) (harg0 : arg0.IsWhole)
    (arg1 : Memref sig .tc .vmem S10000x20 .bf16) (harg1 : arg1.IsWhole)
    (arg2 : Memref sig .tc .vmem S1000x20 .f32) (harg2 : arg2.IsWhole)
    (a : Vec F S1000x10000 .bf16) (b : Vec F S10000x20 .bf16) (K : PUnit → sProp 𝕄) :
    iprop(owns (c : Thread nD τ) arg0 fullShare a ∗ owns (c : Thread nD τ) arg1 fullShare b
        ∗ (∃ d, owns (c : Thread nD τ) arg2 fullShare d)
        ∗ (iprop(owns (c : Thread nD τ) arg0 fullShare a ∗ owns (c : Thread nD τ) arg1 fullShare b
            ∗ owns (c : Thread nD τ) arg2 fullShare (res3 a b)) -∗ K ⟨⟩))
      ⊢ wp frame (wpE (defs₀ (F := F)) Variants.none c none) E (cc3__spmm_body i arg0 harg0 arg1 harg1 arg2 harg2) K := by
  simp only [cc3__spmm_body_eq_skeleton]; unfold cc3__spmm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res3_cover _)

/-- The region's proof data on core `c`: the arrays as the region finds them; after the body at point `t` each
    input buffer still at its block and the output buffer at `res3` of the two blocks; the invariant is the
    untouched scoped rest and the generator register; nothing is owed; every array at the full share. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => res3 (blk3 V c 0 t) (blk3 V c 1 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) :
    (dat3 V c).after 2 t = res3 (blk3 V c 0 t) (blk3 V c 1 t) := by dsimp only [dat3]

/-- An input buffer holds its window's block at every point: a window not fetched at `t` has not moved. -/
theorem dat3_before0 (c : Dev nD) (t : Fin cfg3.N) (d) : (dat3 V c).before 0 t d = blk3 V c 0 t :=
  ((dat3 V c).before_in_eq_fetched 0 rfl (fun _ => rfl) (fun _ _ _ => rfl)
    (fun t => by rw [dat3_after0]; unfold Dat.blockOf blk3; rw [dat3_A]; try rfl) t d).trans
    (by unfold Dat.fetched Dat.blockOf blk3; rw [dat3_A]; try rfl)
theorem dat3_before1 (c : Dev nD) (t : Fin cfg3.N) (d) : (dat3 V c).before 1 t d = blk3 V c 1 t :=
  ((dat3 V c).before_in_eq_fetched 1 rfl (fun _ => rfl) (fun _ _ _ => rfl)
    (fun t => by rw [dat3_after1]; unfold Dat.blockOf blk3; rw [dat3_A]; try rfl) t d).trans
    (by unfold Dat.fetched Dat.blockOf blk3; rw [dat3_A]; try rfl)

/-- The body obligation at every grid point: the input buffers hold their blocks, the triple applies, and the
    invariant and what the core owes pass through untouched. -/
theorem obligation3 (c : Dev nD) :
    BodyObligation (dat3 (F := F) V c) (defs₀ (F := F)) Variants.none () Set.univ := fun t => by
  rw [bigSep_W3, bigSep_W3]
  show iprop((dat3 V c).Φ t.castSucc ∗ (dat3 V c).owesAt () t.castSucc
      ∗ (∃ d, owns (c : Thread nD τ) (st3_0 t) fullShare ((dat3 V c).before 0 t d))
      ∗ (∃ d, owns (c : Thread nD τ) (st3_1 t) fullShare ((dat3 V c).before 1 t d))
      ∗ (∃ d, owns (c : Thread nD τ) (st3_2 t) fullShare ((dat3 V c).before 2 t d)))
    ⊢ wp frame (wpE (defs₀ (F := F)) Variants.none c none) Set.univ (bodyAt3 t) (fun _ =>
      iprop((dat3 V c).Φ t.succ ∗ (dat3 V c).owesAt () t.succ
        ∗ owns (c : Thread nD τ) (st3_0 t) fullShare ((dat3 V c).after 0 t)
        ∗ owns (c : Thread nD τ) (st3_1 t) fullShare ((dat3 V c).after 1 t)
        ∗ owns (c : Thread nD τ) (st3_2 t) fullShare ((dat3 V c).after 2 t)))
  simp only [dat3_before0, dat3_before1]
  rw [show (dat3 V c).Φ t.succ = (dat3 V c).Φ t.castSucc from rfl,
    show (dat3 V c).owesAt () t.succ = (dat3 V c).owesAt () t.castSucc from rfl,
    dat3_after0, dat3_after1, dat3_after2]
  iintro ⟨HΦ, Ho, ⟨%d0, H0⟩, ⟨%d1, H1⟩, ⟨%d2, H2⟩⟩
  iapply (body3_triple c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Hand

end
-- ==== Proof.IdealRegion4.lean ====
/-
  Region 4 of the program (the logistic function of the embedding's Gram matrix, row panel by row panel): the kernel body's Hoare triple on its three staging buffers, and the
  region's proof data.

  The body reads its two input buffers whole, computes one value from them and stores it over the whole output
  buffer. So after the body the output buffer holds that value — a function of the two input blocks alone — and
  the input buffers are as they were. At grid point t the first input buffer holds block t of its array and the
  second holds its whole array, whether or not the pipeline fetched them at t (a block whose index did not move is
  not fetched again, and is still there).
-/
import proofs.«107705_g22454089023912_cont_8to1_328_7_alg».proof.Proof.Gen.KernelIdeal.Launch
import proofs.«107705_g22454089023912_cont_8to1_328_7_alg».proof.Proof.Gen.KernelIdeal.Skeleton
import proofs.«107705_g22454089023912_cont_8to1_328_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The block of window `w`'s array that grid point `t` addresses, read off the array as the region finds it. -/
def blk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-- The whole of each staging buffer as a rectangle: what the body's loads and its store address. -/
abbrev all4_0 : Rect S400x20 := Rect.unit (s := S400x20) ![0, 0] S400x20.size inb_S400x20_S400x20_0_0
abbrev all4_1 : Rect S10000x20 := Rect.unit (s := S10000x20) ![0, 0] S10000x20.size inb_S10000x20_S10000x20_0_0
abbrev all4_2 : Rect S400x10000 := Rect.unit (s := S400x10000) ![0, 0] S400x10000.size inb_S400x10000_S400x10000_0_0

/-- What the body's one store leaves in the output buffer, as a function of the two input buffers' contents. -/
def res4 (a : Vec F S400x20 .f32) (b : Vec F S10000x20 .f32) : Vec F S400x10000 .f32 :=
  View.canon [⟨all4_2, k4_pay1 (View.ld a all4_0) (View.ld b all4_1)⟩]

/-- The store's rectangle is the whole buffer, so every index of the buffer is written. -/
theorem res4_cover (v : Vec F S400x10000 .f32) (y : S400x10000.Idx) :
    ∃ pc ∈ ([⟨all4_2, v⟩] : List (View.Piece (Elt F) S400x10000 .f32)), y ∈ pc.1.set :=
  View.cover_of_tiled [⟨all4_2, v⟩] S400x10000.size (by rfl) y

set_option maxHeartbeats 1000000 in
/-- The body's triple: from the two input buffers at contents `a`, `b` and the output buffer at anything, it runs
    to the end leaving the inputs as they were and the output at `res4 a b`. -/
theorem body4_triple (c : Dev nD) (E : Set ℕ) (i : grid4.Coords)
    (arg0 : Memref sig .tc .vmem S400x20 .f32) (harg0 : arg0.IsWhole)
    (arg1 : Memref sig .tc .vmem S10000x20 .f32) (harg1 : arg1.IsWhole)
    (arg2 : Memref sig .tc .vmem S400x10000 .f32) (harg2 : arg2.IsWhole)
    (a : Vec F S400x20 .f32) (b : Vec F S10000x20 .f32) (K : PUnit → sProp 𝕄) :
    iprop(owns (c : Thread nD τ) arg0 fullShare a ∗ owns (c : Thread nD τ) arg1 fullShare b
        ∗ (∃ d, owns (c : Thread nD τ) arg2 fullShare d)
        ∗ (iprop(owns (c : Thread nD τ) arg0 fullShare a ∗ owns (c : Thread nD τ) arg1 fullShare b
            ∗ owns (c : Thread nD τ) arg2 fullShare (res4 a b)) -∗ K ⟨⟩))
      ⊢ wp frame (wpE (defs₀ (F := F)) Variants.none c none) E (cc4__zz_body i arg0 harg0 arg1 harg1 arg2 harg2) K := by
  simp only [cc4__zz_body_eq_skeleton]; unfold cc4__zz_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (res4_cover _)

/-- The region's proof data on core `c`: the arrays as the region finds them; after the body at point `t` each
    input buffer still at its block and the output buffer at `res4` of the two blocks; the invariant is the
    untouched scoped rest and the generator register; nothing is owed. The two input windows read ONE array (the embedding): each holds it at half the share, the
    output array is held whole. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => res4 (blk4 V c 0 t) (blk4 V c 1 t)
  Φ _ := Pipeline.ΦA spec4 c
  q w := match w with
    | ⟨0, _⟩ => fullShare.left
    | ⟨1, _⟩ => fullShare.right
    | ⟨2, _⟩ => fullShare
  owed _ := 0

theorem dat4_A (c : Dev nD) (w : Fin cfg4.W) : (dat4 V c).A w = V c (Pipeline.arrRef spec4 w) := by
  dsimp only [dat4]
theorem dat4_after0 (c : Dev nD) (t : Fin cfg4.N) : (dat4 V c).after 0 t = blk4 V c 0 t := by dsimp only [dat4]
theorem dat4_after1 (c : Dev nD) (t : Fin cfg4.N) : (dat4 V c).after 1 t = blk4 V c 1 t := by dsimp only [dat4]
theorem dat4_after2 (c : Dev nD) (t : Fin cfg4.N) :
    (dat4 V c).after 2 t = res4 (blk4 V c 0 t) (blk4 V c 1 t) := by dsimp only [dat4]

/-- An input buffer holds its window's block at every point: a window not fetched at `t` has not moved. -/
theorem dat4_before0 (c : Dev nD) (t : Fin cfg4.N) (d) : (dat4 V c).before 0 t d = blk4 V c 0 t :=
  ((dat4 V c).before_in_eq_fetched 0 rfl (fun _ => rfl) (fun _ _ _ => rfl)
    (fun t => by rw [dat4_after0]; unfold Dat.blockOf blk4; rw [dat4_A]; try rfl) t d).trans
    (by unfold Dat.fetched Dat.blockOf blk4; rw [dat4_A]; try rfl)
theorem dat4_before1 (c : Dev nD) (t : Fin cfg4.N) (d) : (dat4 V c).before 1 t d = blk4 V c 1 t :=
  ((dat4 V c).before_in_eq_fetched 1 rfl (fun _ => rfl) (fun _ _ _ => rfl)
    (fun t => by rw [dat4_after1]; unfold Dat.blockOf blk4; rw [dat4_A]; try rfl) t d).trans
    (by unfold Dat.fetched Dat.blockOf blk4; rw [dat4_A]; try rfl)

/-- The body obligation at every grid point: the input buffers hold their blocks, the triple applies, and the
    invariant and what the core owes pass through untouched. -/
theorem obligation4 (c : Dev nD) :
    BodyObligation (dat4 (F := F) V c) (defs₀ (F := F)) Variants.none () Set.univ := fun t => by
  rw [bigSep_W4, bigSep_W4]
  show iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) (fun _ =>
      iprop((dat4 V c).Φ t.succ ∗ (dat4 V c).owesAt () t.succ
        ∗ owns (c : Thread nD τ) (st4_0 t) fullShare ((dat4 V c).after 0 t)
        ∗ owns (c : Thread nD τ) (st4_1 t) fullShare ((dat4 V c).after 1 t)
        ∗ owns (c : Thread nD τ) (st4_2 t) fullShare ((dat4 V c).after 2 t)))
  simp only [dat4_before0, dat4_before1]
  rw [show (dat4 V c).Φ t.succ = (dat4 V c).Φ t.castSucc from rfl,
    show (dat4 V c).owesAt () t.succ = (dat4 V c).owesAt () t.castSucc from rfl,
    dat4_after0, dat4_after1, dat4_after2]
  iintro ⟨HΦ, Ho, ⟨%d0, H0⟩, ⟨%d1, H1⟩, ⟨%d2, H2⟩⟩
  iapply (body4_triple c Set.univ _ _ _ _ _ _ _ (blk4 V c 0 t) (blk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end

end Cert.KernelIdeal.Hand

end
-- ==== Proof.IdealBounds.lean ====
/-
  The contents of the TensorCore's unscoped buffers at the boundaries of the program's five kernel regions.

  At launch they are the memory's. A region leaves every buffer as it found it except its own arrays, which end at
  what the pipeline's write-backs leave: an input array unchanged, an output array with every flushed block written.
  Region 4 reads one array (the embedding) through two windows, so its exit contents are stated directly: only the
  Gram matrix's array changes.
-/
import proofs.«107705_g22454089023912_cont_8to1_328_7_alg».proof.Proof.Gen.KernelIdeal.Launch
import proofs.«107705_g22454089023912_cont_8to1_328_7_alg».proof.Proof.Gen.KernelIdeal.Skeleton
import proofs.«107705_g22454089023912_cont_8to1_328_7_alg».proof.Proof.Gen.KernelIdeal.Points
import proofs.«107705_g22454089023912_cont_8to1_328_7_alg».proof.Proof.IdealRegion0
import proofs.«107705_g22454089023912_cont_8to1_328_7_alg».proof.Proof.IdealRegion1
import proofs.«107705_g22454089023912_cont_8to1_328_7_alg».proof.Proof.IdealRegion2
import proofs.«107705_g22454089023912_cont_8to1_328_7_alg».proof.Proof.IdealRegion3
import proofs.«107705_g22454089023912_cont_8to1_328_7_alg».proof.Proof.IdealRegion4
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- Core `c`'s buffers at launch. -/
abbrev E0 : Dev nD → Valuation τ sig (Elt F) := fun c b => m (c, b)
abbrev V0 : (c : Dev nD) → (b : Ref sig .tc) → Buf (Elt F) ((c : Thread nD τ).loc b) := fun c b => E0 m c b

/-- The contents when region 0 is left: its arrays at what the pipeline's write-backs leave, every other buffer as
    when it was entered. -/
def E1 (c : Dev nD) : Valuation τ sig (Elt F) :=
  Pipeline.withArrays spec0 c (E0 m c) fun w => (dat0 (V0 m) c).arrAt w cfg0.N
/-- The same read at the TensorCore's references. -/
abbrev V1 : (c : Dev nD) → (b : Ref sig .tc) → Buf (Elt F) ((c : Thread nD τ).loc b) := fun c b => E1 m c b
theorem E1_at (c : Dev nD) (w : Fin cfg0.W) :
    E1 m c (Proc.devRef .tc (Pipeline.arrRef spec0 w)) = (dat0 (V0 m) c).arrAt w cfg0.N := by
  unfold E1; exact Pipeline.withArrays_arr spec0 launch0.win.arr_inj c _ _ w
theorem E1_off (c : Dev nD) (b : Ref sig .tc) (hb : ∀ w, Pipeline.arrRef spec0 w ≠ b) :
    E1 m c (Proc.devRef .tc b) = E0 m c (Proc.devRef .tc b) := by
  unfold E1; exact Pipeline.withArrays_of_ne spec0 c _ _ b hb
theorem E1_arr (c : Dev nD) (w : Fin cfg0.W) :
    (dat0 (V0 m) c).arrAt w cfg0.N = V1 m c (Pipeline.arrRef spec0 w) := (E1_at m c w).symm
theorem E1_rest (c : Dev nD) : ∀ b, b ∉ Finset.univ.image (Pipeline.arrRef spec0) → V1 m c b = V0 m c b :=
  fun b hb => E1_off m c b fun w e => hb (Finset.mem_image.mpr ⟨w, Finset.mem_univ _, e⟩)

/-- The contents when region 1 is left: its arrays at what the pipeline's write-backs leave, every other buffer as
    when it was entered. -/
def E2 (c : Dev nD) : Valuation τ sig (Elt F) :=
  Pipeline.withArrays spec1 c (E1 m c) fun w => (dat1 (V1 m) c).arrAt w cfg1.N
/-- The same read at the TensorCore's references. -/
abbrev V2 : (c : Dev nD) → (b : Ref sig .tc) → Buf (Elt F) ((c : Thread nD τ).loc b) := fun c b => E2 m c b
theorem E2_at (c : Dev nD) (w : Fin cfg1.W) :
    E2 m c (Proc.devRef .tc (Pipeline.arrRef spec1 w)) = (dat1 (V1 m) c).arrAt w cfg1.N := by
  unfold E2; exact Pipeline.withArrays_arr spec1 launch1.win.arr_inj c _ _ w
theorem E2_off (c : Dev nD) (b : Ref sig .tc) (hb : ∀ w, Pipeline.arrRef spec1 w ≠ b) :
    E2 m c (Proc.devRef .tc b) = E1 m c (Proc.devRef .tc b) := by
  unfold E2; exact Pipeline.withArrays_of_ne spec1 c _ _ b hb
theorem E2_arr (c : Dev nD) (w : Fin cfg1.W) :
    (dat1 (V1 m) c).arrAt w cfg1.N = V2 m c (Pipeline.arrRef spec1 w) := (E2_at m c w).symm
theorem E2_rest (c : Dev nD) : ∀ b, b ∉ Finset.univ.image (Pipeline.arrRef spec1) → V2 m c b = V1 m c b :=
  fun b hb => E2_off m c b fun w e => hb (Finset.mem_image.mpr ⟨w, Finset.mem_univ _, e⟩)

/-- The contents when region 2 is left: its arrays at what the pipeline's write-backs leave, every other buffer as
    when it was entered. -/
def E3 (c : Dev nD) : Valuation τ sig (Elt F) :=
  Pipeline.withArrays spec2 c (E2 m c) fun w => (dat2 (V2 m) c).arrAt w cfg2.N
/-- The same read at the TensorCore's references. -/
abbrev V3 : (c : Dev nD) → (b : Ref sig .tc) → Buf (Elt F) ((c : Thread nD τ).loc b) := fun c b => E3 m c b
theorem E3_at (c : Dev nD) (w : Fin cfg2.W) :
    E3 m c (Proc.devRef .tc (Pipeline.arrRef spec2 w)) = (dat2 (V2 m) c).arrAt w cfg2.N := by
  unfold E3; exact Pipeline.withArrays_arr spec2 launch2.win.arr_inj c _ _ w
theorem E3_off (c : Dev nD) (b : Ref sig .tc) (hb : ∀ w, Pipeline.arrRef spec2 w ≠ b) :
    E3 m c (Proc.devRef .tc b) = E2 m c (Proc.devRef .tc b) := by
  unfold E3; exact Pipeline.withArrays_of_ne spec2 c _ _ b hb
theorem E3_arr (c : Dev nD) (w : Fin cfg2.W) :
    (dat2 (V2 m) c).arrAt w cfg2.N = V3 m c (Pipeline.arrRef spec2 w) := (E3_at m c w).symm
theorem E3_rest (c : Dev nD) : ∀ b, b ∉ Finset.univ.image (Pipeline.arrRef spec2) → V3 m c b = V2 m c b :=
  fun b hb => E3_off m c b fun w e => hb (Finset.mem_image.mpr ⟨w, Finset.mem_univ _, e⟩)

/-- The contents when region 3 is left: its arrays at what the pipeline's write-backs leave, every other buffer as
    when it was entered. -/
def E4 (c : Dev nD) : Valuation τ sig (Elt F) :=
  Pipeline.withArrays spec3 c (E3 m c) fun w => (dat3 (V3 m) c).arrAt w cfg3.N
/-- The same read at the TensorCore's references. -/
abbrev V4 : (c : Dev nD) → (b : Ref sig .tc) → Buf (Elt F) ((c : Thread nD τ).loc b) := fun c b => E4 m c b
theorem E4_at (c : Dev nD) (w : Fin cfg3.W) :
    E4 m c (Proc.devRef .tc (Pipeline.arrRef spec3 w)) = (dat3 (V3 m) c).arrAt w cfg3.N := by
  unfold E4; exact Pipeline.withArrays_arr spec3 launch3.win.arr_inj c _ _ w
theorem E4_off (c : Dev nD) (b : Ref sig .tc) (hb : ∀ w, Pipeline.arrRef spec3 w ≠ b) :
    E4 m c (Proc.devRef .tc b) = E3 m c (Proc.devRef .tc b) := by
  unfold E4; exact Pipeline.withArrays_of_ne spec3 c _ _ b hb
theorem E4_arr (c : Dev nD) (w : Fin cfg3.W) :
    (dat3 (V3 m) c).arrAt w cfg3.N = V4 m c (Pipeline.arrRef spec3 w) := (E4_at m c w).symm
theorem E4_rest (c : Dev nD) : ∀ b, b ∉ Finset.univ.image (Pipeline.arrRef spec3) → V4 m c b = V3 m c b :=
  fun b hb => E4_off m c b fun w e => hb (Finset.mem_image.mpr ⟨w, Finset.mem_univ _, e⟩)

/-- The contents when region 4 is left: the Gram matrix's array at what the write-backs leave; every other buffer
    (the embedding, which both of the region's input windows read, included) as when it was entered. -/
def E5 (c : Dev nD) : Valuation τ sig (Elt F) :=
  Function.update (E4 m c) (Proc.devRef .tc main_v4) ((dat4 (V4 m) c).arrAt 2 cfg4.N)
abbrev V5 : (c : Dev nD) → (b : Ref sig .tc) → Buf (Elt F) ((c : Thread nD τ).loc b) := fun c b => E5 m c b

end Cert.KernelIdeal.Hand

end
-- ==== Proof.IdealRun.lean ====
/-
  The program's run: its five kernel regions one after another, from the launch to the return.

  Between two regions every unscoped buffer of the TensorCore is held at known contents: at launch the memory's; after
  a region, the contents before it with the region's arrays replaced by what its pipeline's write-backs leave. Each
  region is entered from the contents the previous one left. At the end every buffer is read back: the two results
  at what regions 3 and 4 leave in them, the five arguments at their launch contents (no region writes them).
-/
import proofs.«107705_g22454089023912_cont_8to1_328_7_alg».proof.Proof.Gen.KernelIdeal.Launch
import proofs.«107705_g22454089023912_cont_8to1_328_7_alg».proof.Proof.Gen.KernelIdeal.Skeleton
import proofs.«107705_g22454089023912_cont_8to1_328_7_alg».proof.Proof.Gen.KernelIdeal.Points
import proofs.«107705_g22454089023912_cont_8to1_328_7_alg».proof.Proof.IdealBounds
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data, the side state, the regions as segments -/

abbrev adm : (p : Fin 5) → (pcfgs (F := F) p).Adm := fun p => (cfgs p).toPCfg_adm

/-- Every pipeline's proof data, each at the contents its region is entered with. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c

abbrev 𝒱₀ : Variants := Variants.none
abbrev L : GSem nD τ sig → Finset Unit := fun _ => ∅
abbrev lv : GSem nD τ sig → Unit → ℕ := fun _ _ => 0

/-- What rides beside the buffers through every region: the generator register at some state, and the core owing
    nothing. -/
abbrev side (c : Dev nD) : sProp 𝕄 :=
  iprop((∃ r, prngReg c r) ∗ ∃ W, owes (c : Thread nD τ) (0 : CellTallies nD τ sig Unit) W)

set_option backward.isDefEq.respectTransparency.types false in
/-- Region 0 as a segment of the run: entered with every unscoped buffer at the contents `E0`, left with them at
    `E1`. At entry the region's arrays are split out of the unscoped buffers and the generator register goes
    into the region's invariant; at exit both come back, the arrays at what the write-backs left. -/
def seg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V0 m) c).loose
  hwaits := Pipeline.hwaits_of_owed_zero _ _ _ _ L lv 0 fun _ _ => rfl
  pre c := iprop(StableHlo.held (c : Thread nD τ) (Pipeline.ucRefs τ sig) (E0 m c) ∗ side c)
  post c := iprop(StableHlo.held (c : Thread nD τ) (Pipeline.ucRefs τ sig) (E1 m c) ∗ side c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (fun b => E1 m c b) ((pdats m 0 c).arrAt · cfg0.N) (E1_arr m c) (E1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at the contents `E1`, left with them at
    `E2`. At entry the region's arrays are split out of the unscoped buffers and the generator register goes
    into the region's invariant; at exit both come back, the arrays at what the write-backs left. -/
def seg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V1 m) c).loose
  hwaits := Pipeline.hwaits_of_owed_zero _ _ _ _ L lv 1 fun _ _ => rfl
  pre c := iprop(StableHlo.held (c : Thread nD τ) (Pipeline.ucRefs τ sig) (E1 m c) ∗ side c)
  post c := iprop(StableHlo.held (c : Thread nD τ) (Pipeline.ucRefs τ sig) (E2 m c) ∗ side c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (fun b => E2 m c b) ((pdats m 1 c).arrAt · cfg1.N) (E2_arr m c) (E2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the run: entered with every unscoped buffer at the contents `E2`, left with them at
    `E3`. At entry the region's arrays are split out of the unscoped buffers and the generator register goes
    into the region's invariant; at exit both come back, the arrays at what the write-backs left. -/
def seg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (V2 m) c).loose
  hwaits := Pipeline.hwaits_of_owed_zero _ _ _ _ L lv 2 fun _ _ => rfl
  pre c := iprop(StableHlo.held (c : Thread nD τ) (Pipeline.ucRefs τ sig) (E2 m c) ∗ side c)
  post c := iprop(StableHlo.held (c : Thread nD τ) (Pipeline.ucRefs τ sig) (E3 m c) ∗ side c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (fun b => E3 m c b) ((pdats m 2 c).arrAt · cfg2.N) (E3_arr m c) (E3_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment of the run: entered with every unscoped buffer at the contents `E3`, left with them at
    `E4`. At entry the region's arrays are split out of the unscoped buffers and the generator register goes
    into the region's invariant; at exit both come back, the arrays at what the write-backs left. -/
def seg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (V3 m) c).loose
  hwaits := Pipeline.hwaits_of_owed_zero _ _ _ _ L lv 3 fun _ _ => rfl
  pre c := iprop(StableHlo.held (c : Thread nD τ) (Pipeline.ucRefs τ sig) (E3 m c) ∗ side c)
  post c := iprop(StableHlo.held (c : Thread nD τ) (Pipeline.ucRefs τ sig) (E4 m c) ∗ side c)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V3 m c) (fun b => E4 m c b) ((pdats m 3 c).arrAt · cfg3.N) (E4_arr m c) (E4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4: two windows on one array -/

section Shared
variable (V : (c : Dev nD) → (b : Ref sig .tc) → Buf (Elt F) ((c : Thread nD τ).loc b))

/-- Region 4's windows address two buffers: the embedding (twice) and the Gram matrix. -/
theorem arrays4_refs : (Finset.univ.image (Pipeline.arrRef spec4)) = ({main_v3, main_v4} : Finset (Ref sig .tc)) := by decide

theorem share4_0 (c : Dev nD) : (dat4 V c).share 0 = fullShare.left := rfl
theorem share4_1 (c : Dev nD) : (dat4 V c).share 1 = fullShare.right := rfl
theorem share4_2 (c : Dev nD) : (dat4 V c).share 2 = fullShare := rfl

/-- ENTRY. The unscoped buffers are region 4's arrays and the rest: the embedding's buffer, held whole, is dealt to the
    two input windows that read it, half the share each; the Gram matrix's buffer goes whole to the output window. -/
theorem arrays4_of_bufs (c : Dev nD) :
    (unscopedBufs c (V c) : sProp 𝕄) ⊢ iprop((dat4 V c).arrays (dat4 V c).A ∗ Pipeline.unscopedRest spec4 c (V c)) := by
  rw [Pipeline.unscopedBufs_split₀ cfgs 4 winFacts₀4.arr_unscoped c (V c)]
  refine sep_mono ?_ .rfl
  unfold Pipeline.arrBufs Pipeline.Dat.arrays
  rw [bigSep_W4]
  rw [show Finset.image (Pipeline.arrRef (cfgs 4).spec) Finset.univ = ({main_v3, main_v4} : Finset (Ref sig .tc)) from arrays4_refs]
  rw [bigSep_insert (by decide : main_v3 ∉ ({main_v4} : Finset (Ref sig .tc))), bigSep_singleton]
  rw [(arr_whole4 0).set_eq_univ, (arr_whole4 2).set_eq_univ]
  rw [share4_0, share4_1, share4_2, dat4_A, dat4_A, dat4_A]
  show iprop((((c : Thread nD τ).loc main_v3) ↦{fullShare} V c main_v3) ∗ (((c : Thread nD τ).loc main_v4) ↦{fullShare} V c main_v4)) ⊢ _
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- EXIT. The two halves of the embedding's buffer, unchanged, join to the whole; with the Gram matrix's buffer at what
    the write-backs left and the rest, they are the unscoped buffers at any contents `V'` that has the Gram matrix
    there and agrees with the entry contents elsewhere. -/
theorem bufs_of_arrays4 (c : Dev nD) (V' : (b : Ref sig .tc) → Buf (Elt F) ((c : Thread nD τ).loc b))
    (h4 : V' main_v4 = (dat4 V c).arrAt 2 cfg4.N) (hrest : ∀ b : Ref sig .tc, b ≠ main_v4 → V' b = V c b) :
    iprop((dat4 V c).arrays ((dat4 V c).arrAt · cfg4.N) ∗ Pipeline.unscopedRest spec4 c (V c)) ⊢ (unscopedBufs c V' : sProp 𝕄) := by
  rw [Pipeline.unscopedBufs_split₀ cfgs 4 winFacts₀4.arr_unscoped c V']
  refine sep_mono ?_ (Entails.of_eq ?_)
  · unfold Pipeline.arrBufs Pipeline.Dat.arrays
    rw [bigSep_W4]
    rw [show Finset.image (Pipeline.arrRef (cfgs 4).spec) Finset.univ = ({main_v3, main_v4} : Finset (Ref sig .tc)) from arrays4_refs]
    rw [bigSep_insert (by decide : main_v3 ∉ ({main_v4} : Finset (Ref sig .tc))), bigSep_singleton]
    rw [(arr_whole4 0).set_eq_univ, (arr_whole4 2).set_eq_univ]
    beta_reduce
    rw [share4_0, share4_1, share4_2, (dat4 V c).arrAt_in 0 rfl, (dat4 V c).arrAt_in 1 rfl, dat4_A, dat4_A,
      hrest main_v3 (by decide), h4]
    show _ ⊢ iprop((((c : Thread nD τ).loc main_v3) ↦{fullShare} V c main_v3) ∗ (((c : Thread nD τ).loc main_v4) ↦{fullShare} (dat4 V c).arrAt 2 cfg4.N))
    iintro ⟨Hl, Hr, H4⟩
    isplitl [Hl Hr]
    · iapply (pointsTo_share (PosShare.mem_left_op_right fullShare)).2
      isplitl [Hl]; · iexact Hl
      iexact Hr
    iexact H4
  · unfold Pipeline.unscopedRest
    refine bigSep_congr fun b hb => ?_
    rw [hrest b fun e => (Finset.mem_sdiff.mp hb).2 (e ▸ Finset.mem_image.mpr ⟨2, Finset.mem_univ _, rfl⟩)]

end Shared

theorem E5_v4_self (c : Dev nD) : V5 m c main_v4 = (dat4 (V4 m) c).arrAt 2 cfg4.N := by
  show Function.update (E4 m c) (Proc.devRef .tc main_v4) _ (Proc.devRef .tc main_v4) = _
  rw [Function.update_self]
theorem E5_other (c : Dev nD) (b : Ref sig .tc) (hb : b ≠ main_v4) : V5 m c b = V4 m c b := by
  show Function.update (E4 m c) (Proc.devRef .tc main_v4) _ (Proc.devRef .tc b) = _
  rw [Function.update_of_ne (StableHlo.devRef_ne_of_ne hb)]

set_option backward.isDefEq.respectTransparency.types false in
/-- Region 4 as a segment of the run: entered with every unscoped buffer at `E4`, left with them at `E5`. As the
    other regions, but for the embedding's buffer, which both input windows read: it is dealt to them in halves at
    entry and joined again at exit. -/
def seg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (obligation4 (V4 m) c).loose
  hwaits := Pipeline.hwaits_of_owed_zero _ _ _ _ L lv 4 fun _ _ => rfl
  pre c := iprop(StableHlo.held (c : Thread nD τ) (Pipeline.ucRefs τ sig) (E4 m c) ∗ side c)
  post c := iprop((StableHlo.held (c : Thread nD τ) (Pipeline.ucRefs τ sig) (E5 m c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m c)
  hentry c := by
    rw [Pipeline.ownSems0_none]
    have hsplit := arrays4_of_bufs (F := F) (V4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest spec4 c (V4 m c))
        ⊢ (unscopedBufs c (fun b => E5 m c b) : sProp 𝕄) :=
      bufs_of_arrays4 (F := F) (V4 m) c (fun b => E5 m c b) (E5_v4_self m c) (fun b hb => E5_other m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its five regions, and the launch -/

/-- The program's regions in order. -/
abbrev regions : List (Pipeline.Seg (pcfgs (F := F)) adm (pdats m) () defs₀ 𝒱₀ L lv) :=
  [.region (seg0 m), .region (seg1 m), .region (seg2 m), .region (seg3 m), .region (seg4 m)]

/-- The program is the run of its regions. -/
theorem main_regions (c : Dev nD) : main (F := F) c = Pipeline.Seg.run (regions m) := (main_chain c).trans (by chain_rfl)

/-- An unscoped TensorCore reference is among those held between regions. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters, every weakly fair execution of the program on the TensorCores
    terminates, nothing faulting, and in every final state each unscoped buffer holds what the last region's exit
    contents `E5` say. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = E5 m c b) :=
  Pipeline.θ_run_regions_kit (pcfgs (F := F)) adm (pdats m) () cellOf_inj emb₁ defs₀ 𝒱₀ L lv m ρ main (regions m)
    (fun c Q => by rw [main_regions m c])
    (by simp only [regions, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ side c))
    (Tₙ := fun c => iprop(StableHlo.held (c : Thread nD τ) (Pipeline.ucRefs τ sig) (E5 m c) ∗ ∃ r, prngReg c r))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E5 m c b)
    (hfin := fun c s' => by
      iintro ⟨⟨Hh, -⟩, HSI⟩
      unfold StableHlo.held
      imodintro
      iapply (pointsTo_read_all (Pipeline.ucRefs τ sig) (fun b => (((c : Thread nD τ)).1, b)) (E5 m c) s')
      isplitl [Hh] <;> iassumption)
    (hQ := fun s h c => h c)

end Cert.KernelIdeal.Hand

end
-- ==== Proof.IdealReads.lean ====
/-
  What the program's five kernel regions read, and what the buffers hold at the end.

  A region changes only its output arrays: an array it reads through an input window is never written back, and a
  buffer that is none of its arrays is left as it was found. Following each buffer through the five regions:
  the five arguments are never an output array, so they end as launched; every intermediate array is written by
  exactly one region and read by later ones as that region left it. The arrays are: region 0 reads arguments 0
  and 2 and writes v0; region 1 reads arguments 1, 3, 4 and v0 and writes v1_0 and v1_1; region 2 reads v1_0 and
  v1_1 and writes v2; region 3 reads v1_0 and v2 and writes v3; region 4 reads v3 (through two windows) and writes v4.
-/
import proofs.«107705_g22454089023912_cont_8to1_328_7_alg».proof.Proof.IdealBounds
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (c : Dev nD)

/-! ## Region 0 reads the launch memory -/

theorem V0_arg0 : V0 m c main_arg0 = m ((c : Thread nD τ).loc main_arg0) := rfl
theorem V0_arg2 : V0 m c main_arg2 = m ((c : Thread nD τ).loc main_arg2) := rfl

/-! ## What region 1 reads: region 0's output, and three arguments region 0 does not touch -/

theorem V1_v0 : V1 m c main_v0 = (dat0 (V0 m) c).arrAt 2 cfg0.N := E1_at m c 2

theorem V1_arg1 : V1 m c main_arg1 = m ((c : Thread nD τ).loc main_arg1) := E1_off m c main_arg1 (by decide)
theorem V1_arg3 : V1 m c main_arg3 = m ((c : Thread nD τ).loc main_arg3) := E1_off m c main_arg3 (by decide)
theorem V1_arg4 : V1 m c main_arg4 = m ((c : Thread nD τ).loc main_arg4) := E1_off m c main_arg4 (by decide)

/-! ## What regions 2, 3 and 4 read -/

theorem V2_v1_0 : V2 m c main_v1_0 = (dat1 (V1 m) c).arrAt 4 cfg1.N := E2_at m c 4
theorem V2_v1_1 : V2 m c main_v1_1 = (dat1 (V1 m) c).arrAt 5 cfg1.N := E2_at m c 5

/-- Region 2 reads v1_0 through an input window, so leaves it as it found it. -/
theorem V3_v1_0 : V3 m c main_v1_0 = V2 m c main_v1_0 :=
  calc V3 m c main_v1_0
      = (dat2 (V2 m) c).arrAt 0 cfg2.N := E3_at m c 0
    _ = (dat2 (V2 m) c).A 0 := (dat2 (V2 m) c).arrAt_in 0 rfl cfg2.N
    _ = V2 m c main_v1_0 := dat2_A (V2 m) c 0

theorem V3_v2 : V3 m c main_v2 = (dat2 (V2 m) c).arrAt 2 cfg2.N := E3_at m c 2

theorem V4_v3 : V4 m c main_v3 = (dat3 (V3 m) c).arrAt 2 cfg3.N := E4_at m c 2

/-! ## The two results at the end -/

/-- Region 4 writes only v4, so the embedding v3 ends as region 3 left it. -/
theorem E5_v3 : E5 m c (Proc.devRef .tc main_v3) = (dat3 (V3 m) c).arrAt 2 cfg3.N :=
  calc E5 m c (Proc.devRef .tc main_v3)
      = E4 m c (Proc.devRef .tc main_v3) := Function.update_of_ne (StableHlo.devRef_ne_of_ne (by decide)) _ _
    _ = (dat3 (V3 m) c).arrAt 2 cfg3.N := E4_at m c 2

theorem E5_v4 : E5 m c (Proc.devRef .tc main_v4) = (dat4 (V4 m) c).arrAt 2 cfg4.N := Function.update_self _ _ _

/-! ## The five arguments end as launched -/

/-- Argument 0 is an input array of region 0 and no array of a later region. -/
theorem E5_arg0 : E5 m c (Proc.devRef .tc main_arg0) = m ((c : Thread nD τ).loc main_arg0) :=
  calc E5 m c (Proc.devRef .tc main_arg0)
      = E4 m c (Proc.devRef .tc main_arg0) := Function.update_of_ne (StableHlo.devRef_ne_of_ne (by decide)) _ _
    _ = E3 m c (Proc.devRef .tc main_arg0) := E4_off m c main_arg0 (by decide)
    _ = E2 m c (Proc.devRef .tc main_arg0) := E3_off m c main_arg0 (by decide)
    _ = E1 m c (Proc.devRef .tc main_arg0) := E2_off m c main_arg0 (by decide)
    _ = (dat0 (V0 m) c).arrAt 0 cfg0.N := E1_at m c 0
    _ = (dat0 (V0 m) c).A 0 := (dat0 (V0 m) c).arrAt_in 0 rfl cfg0.N
    _ = m ((c : Thread nD τ).loc main_arg0) := dat0_A (V0 m) c 0

/-- Argument 2 is an input array of region 0 and no array of a later region. -/
theorem E5_arg2 : E5 m c (Proc.devRef .tc main_arg2) = m ((c : Thread nD τ).loc main_arg2) :=
  calc E5 m c (Proc.devRef .tc main_arg2)
      = E4 m c (Proc.devRef .tc main_arg2) := Function.update_of_ne (StableHlo.devRef_ne_of_ne (by decide)) _ _
    _ = E3 m c (Proc.devRef .tc main_arg2) := E4_off m c main_arg2 (by decide)
    _ = E2 m c (Proc.devRef .tc main_arg2) := E3_off m c main_arg2 (by decide)
    _ = E1 m c (Proc.devRef .tc main_arg2) := E2_off m c main_arg2 (by decide)
    _ = (dat0 (V0 m) c).arrAt 1 cfg0.N := E1_at m c 1
    _ = (dat0 (V0 m) c).A 1 := (dat0 (V0 m) c).arrAt_in 1 rfl cfg0.N
    _ = m ((c : Thread nD τ).loc main_arg2) := dat0_A (V0 m) c 1

/-- Argument 1 is no array of region 0, an input array of region 1 and no array of a later region. -/
theorem E5_arg1 : E5 m c (Proc.devRef .tc main_arg1) = m ((c : Thread nD τ).loc main_arg1) :=
  calc E5 m c (Proc.devRef .tc main_arg1)
      = E4 m c (Proc.devRef .tc main_arg1) := Function.update_of_ne (StableHlo.devRef_ne_of_ne (by decide)) _ _
    _ = E3 m c (Proc.devRef .tc main_arg1) := E4_off m c main_arg1 (by decide)
    _ = E2 m c (Proc.devRef .tc main_arg1) := E3_off m c main_arg1 (by decide)
    _ = (dat1 (V1 m) c).arrAt 0 cfg1.N := E2_at m c 0
    _ = (dat1 (V1 m) c).A 0 := (dat1 (V1 m) c).arrAt_in 0 rfl cfg1.N
    _ = V1 m c main_arg1 := dat1_A (V1 m) c 0
    _ = m ((c : Thread nD τ).loc main_arg1) := V1_arg1 m c

/-- Argument 3 is no array of region 0, an input array of region 1 and no array of a later region. -/
theorem E5_arg3 : E5 m c (Proc.devRef .tc main_arg3) = m ((c : Thread nD τ).loc main_arg3) :=
  calc E5 m c (Proc.devRef .tc main_arg3)
      = E4 m c (Proc.devRef .tc main_arg3) := Function.update_of_ne (StableHlo.devRef_ne_of_ne (by decide)) _ _
    _ = E3 m c (Proc.devRef .tc main_arg3) := E4_off m c main_arg3 (by decide)
    _ = E2 m c (Proc.devRef .tc main_arg3) := E3_off m c main_arg3 (by decide)
    _ = (dat1 (V1 m) c).arrAt 2 cfg1.N := E2_at m c 2
    _ = (dat1 (V1 m) c).A 2 := (dat1 (V1 m) c).arrAt_in 2 rfl cfg1.N
    _ = V1 m c main_arg3 := dat1_A (V1 m) c 2
    _ = m ((c : Thread nD τ).loc main_arg3) := V1_arg3 m c

/-- Argument 4 is no array of region 0, an input array of region 1 and no array of a later region. -/
theorem E5_arg4 : E5 m c (Proc.devRef .tc main_arg4) = m ((c : Thread nD τ).loc main_arg4) :=
  calc E5 m c (Proc.devRef .tc main_arg4)
      = E4 m c (Proc.devRef .tc main_arg4) := Function.update_of_ne (StableHlo.devRef_ne_of_ne (by decide)) _ _
    _ = E3 m c (Proc.devRef .tc main_arg4) := E4_off m c main_arg4 (by decide)
    _ = E2 m c (Proc.devRef .tc main_arg4) := E3_off m c main_arg4 (by decide)
    _ = (dat1 (V1 m) c).arrAt 3 cfg1.N := E2_at m c 3
    _ = (dat1 (V1 m) c).A 3 := (dat1 (V1 m) c).arrAt_in 3 rfl cfg1.N
    _ = V1 m c main_arg4 := dat1_A (V1 m) c 3
    _ = m ((c : Thread nD τ).loc main_arg4) := V1_arg4 m c

end Cert.KernelIdeal.Hand

end
-- ==== Proof.Spec.lean ====
/-
  The mathematics of the graph auto-encoder's forward pass, over the extended reals.

  With A the n × n adjacency matrix, X the n × d features and W1, W2, W3 the layer weights,
    S = tanh (X W1),  Z1 = A S,  H = tanh (Z1 W2)
  and the embedding is the product of A, A, H and W3. One program brackets it as A (A (H W3)), the other as
  A ((A H) W3); the two agree when every entry involved is a real number, by associativity of the matrix product.
  The second result is the logistic function of the Gram matrix Z Zᵀ of the embedding.

  Matrices are functions of a row and a column; `mat` and `vec` pass between them and arrays over a literal
  rank-2 shape.
-/
import Idealize.ShloMosaic.PureOps.Ideal
import Idealize.ShloMosaic.Lib.ValueIdx

noncomputable section

namespace Cert.Spec

open Idealize.ShloMosaic Idealize.ShloMosaic.ValueIdx

/-- The matrix L R: entry (p, q) is the sum over k of L(p, k) · R(k, q). -/
def mm {M K N : ℕ} (L : Fin M → Fin K → EReal) (R : Fin K → Fin N → EReal) : Fin M → Fin N → EReal :=
  fun p q => ∑ k : Fin K, L p k * R k q

/-- The matrix L Rᵀ: entry (p, q) is the sum over k of L(p, k) · R(q, k). -/
def mmT {M K N : ℕ} (L : Fin M → Fin K → EReal) (R : Fin N → Fin K → EReal) : Fin M → Fin N → EReal :=
  fun p q => ∑ k : Fin K, L p k * R q k

/-- The hyperbolic tangent of every entry. -/
def th {M N : ℕ} (A : Fin M → Fin N → EReal) : Fin M → Fin N → EReal := fun p q => Ideal.tanh (A p q)

/-- The logistic function 1 / (1 + e^(-x)) of every entry. -/
def sg {M N : ℕ} (A : Fin M → Fin N → EReal) : Fin M → Fin N → EReal := fun p q => Ideal.logistic (A p q)

/-- An array over the literal shape [M, N] as a matrix. -/
def mat {M N : ℕ} (v : (⟨2, ![M, N]⟩ : Shape).Idx → EReal) : Fin M → Fin N → EReal := fun p q => v (ix2 p q)

/-- A matrix as an array over the literal shape [M, N]. -/
def vec {M N : ℕ} (A : Fin M → Fin N → EReal) : (⟨2, ![M, N]⟩ : Shape).Idx → EReal := fun j => A (j 0) (j 1)

theorem vec_ix2 {M N : ℕ} (A : Fin M → Fin N → EReal) (p : Fin M) (q : Fin N) : vec A (ix2 p q) = A p q := rfl

theorem mat_vec {M N : ℕ} (A : Fin M → Fin N → EReal) : mat (vec A) = A := rfl

theorem vec_mat {M N : ℕ} (v : (⟨2, ![M, N]⟩ : Shape).Idx → EReal) : vec (mat v) = v := by
  funext j; exact (congrArg v (eq_ix2 j)).symm

section Encoder

variable {n d e1 e2 e3 : ℕ}
variable (X : Fin n → Fin d → EReal) (A : Fin n → Fin n → EReal)
variable (W1 : Fin d → Fin e1 → EReal) (W2 : Fin e1 → Fin e2 → EReal) (W3 : Fin e2 → Fin e3 → EReal)

/-- The first layer's support, tanh (X W1). -/
def sup1 : Fin n → Fin e1 → EReal := th (mm X W1)

/-- The hidden activations H = tanh ((A tanh (X W1)) W2). -/
def hid : Fin n → Fin e2 → EReal := th (mm (mm A (sup1 X W1)) W2)

/-- The embedding bracketed as A (A (H W3)). -/
def embK : Fin n → Fin e3 → EReal := mm A (mm A (mm (hid X A W1 W2) W3))

/-- The embedding bracketed as A ((A H) W3). -/
def embR : Fin n → Fin e3 → EReal := mm A (mm (mm A (hid X A W1 W2)) W3)

end Encoder

/-- The logistic function of the Gram matrix Z Zᵀ. -/
def gram {n e : ℕ} (Z : Fin n → Fin e → EReal) : Fin n → Fin n → EReal := sg (mmT Z Z)

end Cert.Spec

end
-- ==== Proof.LibPlainDot.lean ====
/-
  A plain two-dimensional matrix product read at one entry.

  For the dimension numbers "contract the left operand's second axis with the right operand's first" (an M × K matrix
  times a K × N matrix), entry (p, q) of the product at the exact values is the sum over k of L(p, k) · R(k, q): the
  kernel's product into a zero accumulator and the host's product are this same sum.
-/
import Idealize.ShloMosaic.PureOps.Ideal.Laws
import Idealize.ShloMosaic.Lib.ValueIdx

noncomputable section

namespace Idealize.ShloMosaic.ValueIdx

/-- The contraction sum of an M × K by K × N product at output entry (p, q), re-indexed by the contracted coordinate. -/
theorem plain_contr_sum {M K N : ℕ} (L : (⟨2, ![M, K]⟩ : Shape).Idx → EReal) (R : (⟨2, ![K, N]⟩ : Shape).Idx → EReal)
    (p : Fin M) (q : Fin N) :
    ∑ k : (DotDims.plain M K N).contr.Idx,
        L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's matrix product into the zero accumulator, for any dimension record that is the plain one. -/
theorem matmul_plain_zero_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- The host's matrix product, for any dimension record that is the plain one. -/
theorem dotGeneral_plain_apply {M K N : ℕ} (D : DotDims ⟨2, ![M, K]⟩ ⟨2, ![K, N]⟩ ⟨2, ![M, N]⟩)
    (hD : D = DotDims.plain M K N) (prec : Option ContractPrecision)
    (L : FVec Ideal ⟨2, ![M, K]⟩ .f32) (R : FVec Ideal ⟨2, ![K, N]⟩ .f32) (p : Fin M) (q : Fin N) :
    Host.dotGeneral D prec L R (ix2 p q) = ∑ k : Fin K, L (ix2 p k) * R (ix2 k q) := by
  subst hD
  simp only [Host.dotGeneral]
  exact (Ideal.dotGeneral_apply (DotDims.plain M K N) prec _ L R (ix2 p q)).trans (plain_contr_sum L R p q)

end Idealize.ShloMosaic.ValueIdx

end
-- ==== Proof.Payloads.lean ====
/-
  The values the five kernel bodies store, as matrices of the blocks they load.

  Each body computes one array from the arrays it has loaded and stores it. Read at the exact values (every float
  an extended real, every rounding the identity), that array is a matrix expression of the loaded blocks: a product,
  the hyperbolic tangent of a product, a chain of these, or the logistic function of L Rᵀ. A product into the zero
  accumulator is the sum over the contracted coordinate of the operands' products; for the dimension numbers
  "contract the second axis of both operands" that sum is entry (p, q) of L Rᵀ.
-/
import proofs.«107705_g22454089023912_cont_8to1_328_7_alg».proof.Proof.Gen.KernelIdeal.Skeleton
import proofs.«107705_g22454089023912_cont_8to1_328_7_alg».proof.Proof.Spec
import proofs.«107705_g22454089023912_cont_8to1_328_7_alg».proof.Proof.LibPlainDot
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.Spec Cert.KernelIdeal Cert.KernelIdeal.Gen

/-! ## A plain product into the zero accumulator, for operands of any two formats -/

/-- Entry (p, q) of an M × K by K × N product into the zero accumulator is the sum over k of L(p, k) · R(k, q). -/
theorem matmul_plain_zero_apply' {M K N : ℕ} {φ₁ φ₂ : FTy} (D : DotDims ⟨2, ![M, K]⟩ ⟨2, ![K, N]⟩ ⟨2, ![M, N]⟩)
    (hD : D = DotDims.plain M K N) (prec : Option ContractPrecision)
    (L : FVec Ideal ⟨2, ![M, K]⟩ φ₁) (R : FVec Ideal ⟨2, ![K, N]⟩ φ₂) (p : Fin M) (q : Fin N) :
    matmul D prec L R (constant ⟨2, ![M, N]⟩ .f32 0x00000000#32) (ix2 p q) = ∑ k : Fin K, L (ix2 p k) * R (ix2 k q) := by
  subst hD
  exact (Ideal.matmul_constant_zero_apply (DotDims.plain M K N) prec L R (ix2 p q)).trans (plain_contr_sum L R p q)

/-- The whole product into the zero accumulator is the matrix product of the operands. -/
theorem matmul_plain_zero_eq {M K N : ℕ} {φ₁ φ₂ : FTy} (D : DotDims ⟨2, ![M, K]⟩ ⟨2, ![K, N]⟩ ⟨2, ![M, N]⟩)
    (hD : D = DotDims.plain M K N) (prec : Option ContractPrecision)
    (L : FVec Ideal ⟨2, ![M, K]⟩ φ₁) (R : FVec Ideal ⟨2, ![K, N]⟩ φ₂) :
    matmul D prec L R (constant ⟨2, ![M, N]⟩ .f32 0x00000000#32) = vec (mm (mat L) (mat R)) := by
  funext j
  obtain ⟨p, q, rfl⟩ : ∃ (p : Fin M) (q : Fin N), j = ix2 p q := ⟨j 0, j 1, eq_ix2 j⟩
  exact matmul_plain_zero_apply' D hD prec L R p q

/-! ## The product L Rᵀ: both operands contracted on their second axis -/

/-- The contraction sum of an M × K by N × K product contracted on both second axes, at output entry (p, q),
    re-indexed by the contracted coordinate. -/
theorem transposed_contr_sum {M K N : ℕ} (L : (⟨2, ![M, K]⟩ : Shape).Idx → EReal) (R : (⟨2, ![N, K]⟩ : Shape).Idx → EReal)
    (p : Fin M) (q : Fin N) :
    ∑ k : (DotDims.transposedRhs M K N).contr.Idx,
        L ((DotDims.transposedRhs M K N).lhsIdx (ix2 p q) k) * R ((DotDims.transposedRhs M K N).rhsIdx (ix2 p q) k)
      = ∑ k : Fin K, L (ix2 p k) * R (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl (ix2 p q) _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => rfl
      | ⟨1, _⟩ => exact ((DotDims.transposedRhs M K N).rhsIdx_val_of_single rfl (ix2 p q) _).trans hk)
  rw [el, er]

/-- The whole product into the zero accumulator is L Rᵀ. -/
theorem matmul_transposed_zero_eq {M K N : ℕ} {φ₁ φ₂ : FTy} (D : DotDims ⟨2, ![M, K]⟩ ⟨2, ![N, K]⟩ ⟨2, ![M, N]⟩)
    (hD : D = DotDims.transposedRhs M K N) (prec : Option ContractPrecision)
    (L : FVec Ideal ⟨2, ![M, K]⟩ φ₁) (R : FVec Ideal ⟨2, ![N, K]⟩ φ₂) :
    matmul D prec L R (constant ⟨2, ![M, N]⟩ .f32 0x00000000#32) = vec (mmT (mat L) (mat R)) := by
  subst hD
  funext j
  obtain ⟨p, q, rfl⟩ : ∃ (p : Fin M) (q : Fin N), j = ix2 p q := ⟨j 0, j 1, eq_ix2 j⟩
  exact (Ideal.matmul_constant_zero_apply (DotDims.transposedRhs M K N) prec L R (ix2 p q)).trans (transposed_contr_sum L R p q)

/-! ## The dimension records of the bodies' products -/

theorem dot0_plain : dot_S10000x128_S128x128_S10000x128_1_0_0_1_n_n = DotDims.plain 10000 128 128 := rfl
theorem dot1a_plain : dot_S200x10000_S10000x128_S200x128_1_0_0_1_n_n = DotDims.plain 200 10000 128 := rfl
theorem dot1b_plain : dot_S200x128_S128x256_S200x256_1_0_0_1_n_n = DotDims.plain 200 128 256 := rfl
theorem dot1c_plain : dot_S200x256_S256x20_S200x20_1_0_0_1_n_n = DotDims.plain 200 256 20 := rfl
theorem dot2_plain : dot_S1000x10000_S10000x20_S1000x20_1_0_0_1_n_n = DotDims.plain 1000 10000 20 := rfl
theorem dot4_transposed : dot_S400x20_S10000x20_S400x10000_1_1_0_0_n_n = DotDims.transposedRhs 400 20 10000 := rfl

/-! ## The sparse products: a block of A times an array -/

theorem pay2 (v0 : Vec Ideal S1000x10000 .bf16) (v2 : Vec Ideal S10000x20 .bf16) :
    k2_pay1 (F := Ideal) v0 v2 = vec (mm (mat v0) (mat v2)) := by
  unfold k2_pay1
  simp only [shapeCast_self]
  exact matmul_plain_zero_eq (φ₁ := .bf16) (φ₂ := .bf16) _ dot2_plain none v0 v2

theorem pay3 (v0 : Vec Ideal S1000x10000 .bf16) (v2 : Vec Ideal S10000x20 .bf16) :
    k3_pay1 (F := Ideal) v0 v2 = vec (mm (mat v0) (mat v2)) := by
  unfold k3_pay1
  simp only [shapeCast_self]
  exact matmul_plain_zero_eq (φ₁ := .bf16) (φ₂ := .bf16) _ dot2_plain none v0 v2

/-! ## The first layer's support: tanh (X W1) -/

theorem pay0 (v0 : Vec Ideal S10000x128 .f32) (v1 : Vec Ideal S128x128 .f32) :
    k0_pay1 (F := Ideal) v0 v1 = vec (th (mm (mat v0) (mat v1))) := by
  have e : matmul (F := Ideal) (φ₁ := .f32) (φ₂ := .f32) dot_S10000x128_S128x128_S10000x128_1_0_0_1_n_n (some .fp32) v0 v1 (constant (F := Ideal) S10000x128 .f32 0x00000000#32)
      = vec (mm (mat v0) (mat v1)) :=
    matmul_plain_zero_eq (φ₁ := .f32) (φ₂ := .f32) _ dot0_plain (some .fp32) v0 v1
  unfold k0_pay1
  dsimp only
  rw [e]
  rfl

/-! ## The first pass: the copy of A's block, and ((A S) W2 → tanh) W3 -/

theorem pay1_copy (v0 : Vec Ideal S200x10000 .f32) : k1_pay1 (F := Ideal) v0 = v0 := rfl

theorem pay1 (v0 : Vec Ideal S200x10000 .f32) (v3 : Vec Ideal S10000x128 .bf16) (v6 : Vec Ideal S128x256 .f32)
    (v9 : Vec Ideal S256x20 .f32) :
    k1_pay2 (F := Ideal) v0 v3 v6 v9 = vec (mm (th (mm (mm (mat v0) (mat v3)) (mat v6))) (mat v9)) := by
  have e1 : matmul (F := Ideal) (φ₁ := .bf16) (φ₂ := .bf16) dot_S200x10000_S10000x128_S200x128_1_0_0_1_n_n none (k1_pay1 (F := Ideal) v0) v3
        (constant (F := Ideal) S200x128 .f32 0x00000000#32)
      = vec (mm (mat v0) (mat v3)) :=
    matmul_plain_zero_eq (φ₁ := .bf16) (φ₂ := .bf16) _ dot1a_plain none v0 v3
  have e2 : matmul (F := Ideal) (φ₁ := .f32) (φ₂ := .f32) dot_S200x128_S128x256_S200x256_1_0_0_1_n_n (some .fp32) (vec (mm (mat v0) (mat v3))) v6
        (constant (F := Ideal) S200x256 .f32 0x00000000#32)
      = vec (mm (mm (mat v0) (mat v3)) (mat v6)) :=
    matmul_plain_zero_eq (φ₁ := .f32) (φ₂ := .f32) _ dot1b_plain (some .fp32) _ v6
  have e3 : matmul (F := Ideal) (φ₁ := .f32) (φ₂ := .f32) dot_S200x256_S256x20_S200x20_1_0_0_1_n_n (some .fp32) (vec (th (mm (mm (mat v0) (mat v3)) (mat v6)))) v9
        (constant (F := Ideal) S200x20 .f32 0x00000000#32)
      = vec (mm (th (mm (mm (mat v0) (mat v3)) (mat v6))) (mat v9)) :=
    matmul_plain_zero_eq (φ₁ := .f32) (φ₂ := .f32) _ dot1c_plain (some .fp32) _ v9
  unfold k1_pay2
  simp only [shapeCast_self]
  rw [e1, e2]
  exact e3

/-! ## The decoder: the logistic function of Z Zᵀ -/

theorem pay4 (v0 : Vec Ideal S400x20 .f32) (v3 : Vec Ideal S10000x20 .f32) :
    k4_pay1 (F := Ideal) v0 v3 = vec (sg (mmT (mat v0) (mat v3))) := by
  have e : matmul (F := Ideal) (φ₁ := .bf16) (φ₂ := .bf16) dot_S400x20_S10000x20_S400x10000_1_1_0_0_n_n none
        (truncf (F := Ideal) (φ := .f32) .bf16 v0 bitsLt_bf16_f32) (truncf (F := Ideal) (φ := .f32) .bf16 v3 bitsLt_bf16_f32) (constant (F := Ideal) S400x10000 .f32 0x00000000#32)
      = vec (mmT (mat v0) (mat v3)) :=
    matmul_transposed_zero_eq (φ₁ := .bf16) (φ₂ := .bf16) _ dot4_transposed none v0 v3
  unfold k4_pay1
  simp only [shapeCast_self]
  rw [e]
  rfl

end Cert.KernelIdeal.Pay

end
-- ==== Proof.IdealValues023.lean ====
/-
  What the first layer's region and the two sparse-product regions leave in their output arrays.

  A region runs its body once per grid point; the body at point t stores, into the block of the output array that
  t addresses, a matrix expression of the blocks of the input arrays that t addresses. A row-panel window's block
  at point t is rows 1000 t … 1000 t + 999 of its array, a whole-array window's block is the array. So each point
  writes rows 1000 t … of the product of the whole arrays, the ten panels tile the 10000 rows, and the output array
  ends as the product: entry (i, q) is the sum over k of A(i, k) · B(k, q).
-/
import proofs.«107705_g22454089023912_cont_8to1_328_7_alg».proof.Proof.IdealRegion0
import proofs.«107705_g22454089023912_cont_8to1_328_7_alg».proof.Proof.IdealRegion2
import proofs.«107705_g22454089023912_cont_8to1_328_7_alg».proof.Proof.IdealRegion3
import proofs.«107705_g22454089023912_cont_8to1_328_7_alg».proof.Proof.Payloads
import proofs.«107705_g22454089023912_cont_8to1_328_7_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b)) (c : Dev nD)

/-- The zero offset of a whole-buffer rectangle. -/
theorem hz : (![0, 0] : Fin 2 → Nat) = fun _ => 0 := funext fun a => by fin_cases a <;> rfl

/-! ## The second product, u = A t: ten row panels of 1000 rows -/

/-- The index maps of the region's three windows, decided over the ten points: the panels of A and of the output are
    panel t, the right operand is the whole array. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 1000 t … 1000 t + 999 of A. -/
theorem panel2_left (t : Fin cfg2.N) (r : Fin 1000) (k : Fin 10000) (h : t.val * 1000 + r.val < 10000) :
    mat (M := 1000) (N := 10000) (blk2 V c 0 t) r k
      = mat (M := 10000) (N := 10000) (V c main_v1_0) ⟨t.val * 1000 + r.val, h⟩ k := by
  obtain ⟨e0, e1, -, -, -, -⟩ := index_maps2 t
  unfold mat blk2
  rw [View.read_apply]
  refine congrArg (V c main_v1_0) (funext fun a => Fin.ext ?_)
  match a with
  | ⟨0, _⟩ => show win2_0.index t (0 : Fin 2) * 1000 + 1 * r.val = t.val * 1000 + r.val; omega
  | ⟨1, _⟩ => show win2_0.index t (1 : Fin 2) * 10000 + 1 * k.val = k.val; omega

/-- The right operand's block at every point is the whole array. -/
theorem panel2_right (t : Fin cfg2.N) (k : Fin 10000) (q : Fin 20) :
    mat (M := 10000) (N := 20) (blk2 V c 1 t) k q = mat (M := 10000) (N := 20) (V c main_v1_1) k q := by
  obtain ⟨-, -, e2, e3, -, -⟩ := index_maps2 t
  unfold mat blk2
  rw [View.read_apply]
  refine congrArg (V c main_v1_1) (funext fun a => Fin.ext ?_)
  match a with
  | ⟨0, _⟩ => show win2_1.index t (0 : Fin 2) * 10000 + 1 * k.val = k.val; omega
  | ⟨1, _⟩ => show win2_1.index t (1 : Fin 2) * 20 + 1 * q.val = q.val; omega

/-- What point t writes back is rows 1000 t … of the product of the whole arrays: entry (r, q) of the panel's
    product is the sum over k of A(1000 t + r, k) · B(k, q). -/
theorem written2 (t : Fin cfg2.N) :
    (dat2 V c).flushed 2 t
      = ((cfg2.win 2).blk t).view.read (Elt Ideal)
          (vec (mm (mat (M := 10000) (N := 10000) (V c main_v1_0)) (mat (M := 10000) (N := 20) (V c main_v1_1)))) := by
  show (cfg2.win 2).cut (grid2.coords t) ((dat2 V c).after 2 t) = _
  rw [dat2_after2]
  unfold res2
  rw [View.canon_unit_zero hz]
  simp only [View.ld_unit_zero (S := S1000x10000) hz, View.ld_unit_zero (S := S10000x20) hz]
  rw [Pay.pay2]
  obtain ⟨-, -, -, -, e4, e5⟩ := index_maps2 t
  funext j
  have hr : (j 0).val < 1000 := (j 0).isLt
  have hq : (j 1).val < 20 := (j 1).isLt
  have ht : t.val < 10 := lt_of_lt_of_eq t.isLt N_2
  have hi : ((View.whole main_v2).slice ((win2 2).rect t)).emb j
      = ix2 (⟨t.val * 1000 + (j 0).val, by omega⟩ : Fin 10000) (⟨(j 1).val, hq⟩ : Fin 20) := by
    funext a; apply Fin.ext
    match a with
    | ⟨0, _⟩ => show win2_2.index t (0 : Fin 2) * 1000 + 1 * (j 0).val = t.val * 1000 + (j 0).val; omega
    | ⟨1, _⟩ => show win2_2.index t (1 : Fin 2) * 20 + 1 * (j 1).val = (j 1).val; omega
  rw [View.read_apply, hi]
  show ∑ k : Fin 10000, mat (M := 1000) (N := 10000) (blk2 V c 0 t) ⟨(j 0).val, hr⟩ k
        * mat (M := 10000) (N := 20) (blk2 V c 1 t) k ⟨(j 1).val, hq⟩
      = ∑ k : Fin 10000, mat (M := 10000) (N := 10000) (V c main_v1_0) ⟨t.val * 1000 + (j 0).val, by omega⟩ k
        * mat (M := 10000) (N := 20) (V c main_v1_1) k ⟨(j 1).val, hq⟩
  refine Finset.sum_congr rfl fun k _ => ?_
  rw [panel2_left V c t ⟨(j 0).val, hr⟩ k (by show t.val * 1000 + (j 0).val < 10000; omega),
    panel2_right V c t k ⟨(j 1).val, hq⟩]

/-- An index of the output array is in point t's block iff each coordinate is in the block's range on its axis. -/
theorem in_panel2 (t : Fin cfg2.N) (i : S10000x20.Idx) :
    i ∈ ((cfg2.win 2).blk t).view.set ↔ ∀ a : Fin 2, win2_2.index t a * S1000x20.size a ≤ (i a).val
      ∧ (i a).val < win2_2.index t a * S1000x20.size a + S1000x20.size a := by
  show i ∈ ((View.whole main_v2).slice (win2_2.rect t)).set ↔ _
  rw [View.set_slice_whole, Rect.mem_set_unit]
  exact Iff.rfl

/-- The ten panels tile the rows: row i is in panel i / 1000. -/
theorem panels2_tile (i : S10000x20.Idx) :
    ∃ t : Fin cfg2.N, (cfg2.win 2).flush t = true ∧ i ∈ ((cfg2.win 2).blk t).view.set := by
  have hi0 : (i 0).val < 10000 := (i 0).isLt
  have hi1 : (i 1).val < 20 := (i 1).isLt
  have hN : (i 0).val / 1000 < cfg2.N := lt_of_lt_of_eq (by omega) N_2.symm
  obtain ⟨-, -, -, -, e4, e5⟩ := index_maps2 ⟨(i 0).val / 1000, hN⟩
  refine ⟨⟨(i 0).val / 1000, hN⟩, flush2_2 _, ?_⟩
  rw [in_panel2]
  intro a
  match a with
  | ⟨0, _⟩ =>
    show win2_2.index ⟨(i 0).val / 1000, hN⟩ (0 : Fin 2) * 1000 ≤ (i 0).val
      ∧ (i 0).val < win2_2.index ⟨(i 0).val / 1000, hN⟩ (0 : Fin 2) * 1000 + 1000
    have e4' : win2_2.index ⟨(i 0).val / 1000, hN⟩ (0 : Fin 2) = (i 0).val / 1000 := e4
    omega
  | ⟨1, _⟩ =>
    show win2_2.index ⟨(i 0).val / 1000, hN⟩ (1 : Fin 2) * 20 ≤ (i 1).val
      ∧ (i 1).val < win2_2.index ⟨(i 0).val / 1000, hN⟩ (1 : Fin 2) * 20 + 20
    omega

/-- The region's output array ends as the product of the arrays it was entered with. -/
theorem array2 : (dat2 V c).arrAt 2 cfg2.N
    = vec (mm (mat (M := 10000) (N := 10000) (V c main_v1_0)) (mat (M := 10000) (N := 20) (V c main_v1_1))) :=
  (dat2 V c).arrAt_eq_of_cover 2 _ (fun t _ => written2 V c t) panels2_tile

theorem val2 : mat (M := 10000) (N := 20) ((dat2 V c).arrAt 2 cfg2.N)
    = mm (mat (M := 10000) (N := 10000) (V c main_v1_0)) (mat (M := 10000) (N := 20) (V c main_v1_1)) := by
  rw [array2]; rfl

/-! ## The third product, the same body on other arrays: A times what the second product left -/

/-- The index maps of the region's three windows, decided over the ten points: the panels of A and of the output are
    panel t, the right operand is the whole array. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point t is rows 1000 t … 1000 t + 999 of A. -/
theorem panel3_left (t : Fin cfg3.N) (r : Fin 1000) (k : Fin 10000) (h : t.val * 1000 + r.val < 10000) :
    mat (M := 1000) (N := 10000) (blk3 V c 0 t) r k
      = mat (M := 10000) (N := 10000) (V c main_v1_0) ⟨t.val * 1000 + r.val, h⟩ k := by
  obtain ⟨e0, e1, -, -, -, -⟩ := index_maps3 t
  unfold mat blk3
  rw [View.read_apply]
  refine congrArg (V c main_v1_0) (funext fun a => Fin.ext ?_)
  match a with
  | ⟨0, _⟩ => show win3_0.index t (0 : Fin 2) * 1000 + 1 * r.val = t.val * 1000 + r.val; omega
  | ⟨1, _⟩ => show win3_0.index t (1 : Fin 2) * 10000 + 1 * k.val = k.val; omega

/-- The right operand's block at every point is the whole array. -/
theorem panel3_right (t : Fin cfg3.N) (k : Fin 10000) (q : Fin 20) :
    mat (M := 10000) (N := 20) (blk3 V c 1 t) k q = mat (M := 10000) (N := 20) (V c main_v2) k q := by
  obtain ⟨-, -, e2, e3, -, -⟩ := index_maps3 t
  unfold mat blk3
  rw [View.read_apply]
  refine congrArg (V c main_v2) (funext fun a => Fin.ext ?_)
  match a with
  | ⟨0, _⟩ => show win3_1.index t (0 : Fin 2) * 10000 + 1 * k.val = k.val; omega
  | ⟨1, _⟩ => show win3_1.index t (1 : Fin 2) * 20 + 1 * q.val = q.val; omega

/-- What point t writes back is rows 1000 t … of the product of the whole arrays: entry (r, q) of the panel's
    product is the sum over k of A(1000 t + r, k) · B(k, q). -/
theorem written3 (t : Fin cfg3.N) :
    (dat3 V c).flushed 2 t
      = ((cfg3.win 2).blk t).view.read (Elt Ideal)
          (vec (mm (mat (M := 10000) (N := 10000) (V c main_v1_0)) (mat (M := 10000) (N := 20) (V c main_v2)))) := by
  show (cfg3.win 2).cut (grid3.coords t) ((dat3 V c).after 2 t) = _
  rw [dat3_after2]
  unfold res3
  rw [View.canon_unit_zero hz]
  simp only [View.ld_unit_zero (S := S1000x10000) hz, View.ld_unit_zero (S := S10000x20) hz]
  rw [Pay.pay3]
  obtain ⟨-, -, -, -, e4, e5⟩ := index_maps3 t
  funext j
  have hr : (j 0).val < 1000 := (j 0).isLt
  have hq : (j 1).val < 20 := (j 1).isLt
  have ht : t.val < 10 := lt_of_lt_of_eq t.isLt N_3
  have hi : ((View.whole main_v3).slice ((win3 2).rect t)).emb j
      = ix2 (⟨t.val * 1000 + (j 0).val, by omega⟩ : Fin 10000) (⟨(j 1).val, hq⟩ : Fin 20) := by
    funext a; apply Fin.ext
    match a with
    | ⟨0, _⟩ => show win3_2.index t (0 : Fin 2) * 1000 + 1 * (j 0).val = t.val * 1000 + (j 0).val; omega
    | ⟨1, _⟩ => show win3_2.index t (1 : Fin 2) * 20 + 1 * (j 1).val = (j 1).val; omega
  rw [View.read_apply, hi]
  show ∑ k : Fin 10000, mat (M := 1000) (N := 10000) (blk3 V c 0 t) ⟨(j 0).val, hr⟩ k
        * mat (M := 10000) (N := 20) (blk3 V c 1 t) k ⟨(j 1).val, hq⟩
      = ∑ k : Fin 10000, mat (M := 10000) (N := 10000) (V c main_v1_0) ⟨t.val * 1000 + (j 0).val, by omega⟩ k
        * mat (M := 10000) (N := 20) (V c main_v2) k ⟨(j 1).val, hq⟩
  refine Finset.sum_congr rfl fun k _ => ?_
  rw [panel3_left V c t ⟨(j 0).val, hr⟩ k (by show t.val * 1000 + (j 0).val < 10000; omega),
    panel3_right V c t k ⟨(j 1).val, hq⟩]

/-- An index of the output array is in point t's block iff each coordinate is in the block's range on its axis. -/
theorem in_panel3 (t : Fin cfg3.N) (i : S10000x20.Idx) :
    i ∈ ((cfg3.win 2).blk t).view.set ↔ ∀ a : Fin 2, win3_2.index t a * S1000x20.size a ≤ (i a).val
      ∧ (i a).val < win3_2.index t a * S1000x20.size a + S1000x20.size a := by
  show i ∈ ((View.whole main_v3).slice (win3_2.rect t)).set ↔ _
  rw [View.set_slice_whole, Rect.mem_set_unit]
  exact Iff.rfl

/-- The ten panels tile the rows: row i is in panel i / 1000. -/
theorem panels3_tile (i : S10000x20.Idx) :
    ∃ t : Fin cfg3.N, (cfg3.win 2).flush t = true ∧ i ∈ ((cfg3.win 2).blk t).view.set := by
  have hi0 : (i 0).val < 10000 := (i 0).isLt
  have hi1 : (i 1).val < 20 := (i 1).isLt
  have hN : (i 0).val / 1000 < cfg3.N := lt_of_lt_of_eq (by omega) N_3.symm
  obtain ⟨-, -, -, -, e4, e5⟩ := index_maps3 ⟨(i 0).val / 1000, hN⟩
  refine ⟨⟨(i 0).val / 1000, hN⟩, flush3_2 _, ?_⟩
  rw [in_panel3]
  intro a
  match a with
  | ⟨0, _⟩ =>
    show win3_2.index ⟨(i 0).val / 1000, hN⟩ (0 : Fin 2) * 1000 ≤ (i 0).val
      ∧ (i 0).val < win3_2.index ⟨(i 0).val / 1000, hN⟩ (0 : Fin 2) * 1000 + 1000
    have e4' : win3_2.index ⟨(i 0).val / 1000, hN⟩ (0 : Fin 2) = (i 0).val / 1000 := e4
    omega
  | ⟨1, _⟩ =>
    show win3_2.index ⟨(i 0).val / 1000, hN⟩ (1 : Fin 2) * 20 ≤ (i 1).val
      ∧ (i 1).val < win3_2.index ⟨(i 0).val / 1000, hN⟩ (1 : Fin 2) * 20 + 20
    omega

/-- The region's output array ends as the product of the arrays it was entered with. -/
theorem array3 : (dat3 V c).arrAt 2 cfg3.N
    = vec (mm (mat (M := 10000) (N := 10000) (V c main_v1_0)) (mat (M := 10000) (N := 20) (V c main_v2))) :=
  (dat3 V c).arrAt_eq_of_cover 2 _ (fun t _ => written3 V c t) panels3_tile

theorem val3 : mat (M := 10000) (N := 20) ((dat3 V c).arrAt 2 cfg3.N)
    = mm (mat (M := 10000) (N := 10000) (V c main_v1_0)) (mat (M := 10000) (N := 20) (V c main_v2)) := by
  rw [array3]; rfl

/-! ## The first layer's support, tanh (X W1): one point, every window its whole array -/

/-- A whole-array window's block is the array: the left operand. -/
theorem whole0_left (t : Fin cfg0.N) (r : Fin 10000) (k : Fin 128) :
    mat (M := 10000) (N := 128) (blk0 V c 0 t) r k = mat (M := 10000) (N := 128) (V c main_arg0) r k := by
  unfold mat blk0
  rw [View.read_apply]
  refine congrArg (V c main_arg0) (funext fun a => Fin.ext ?_)
  match a with
  | ⟨0, _⟩ => show 0 * 10000 + 1 * r.val = r.val; omega
  | ⟨1, _⟩ => show 0 * 128 + 1 * k.val = k.val; omega

/-- A whole-array window's block is the array: the right operand. -/
theorem whole0_right (t : Fin cfg0.N) (k : Fin 128) (q : Fin 128) :
    mat (M := 128) (N := 128) (blk0 V c 1 t) k q = mat (M := 128) (N := 128) (V c main_arg2) k q := by
  unfold mat blk0
  rw [View.read_apply]
  refine congrArg (V c main_arg2) (funext fun a => Fin.ext ?_)
  match a with
  | ⟨0, _⟩ => show 0 * 128 + 1 * k.val = k.val; omega
  | ⟨1, _⟩ => show 0 * 128 + 1 * q.val = q.val; omega

/-- What the one point writes back is tanh (X W1) of the whole arrays. -/
theorem written0 (t : Fin cfg0.N) :
    (dat0 V c).flushed 2 t
      = ((cfg0.win 2).blk t).view.read (Elt Ideal)
          (vec (th (mm (mat (M := 10000) (N := 128) (V c main_arg0)) (mat (M := 128) (N := 128) (V c main_arg2))))) := by
  show (cfg0.win 2).cut (grid0.coords t) ((dat0 V c).after 2 t) = _
  rw [dat0_after2]
  unfold res0
  rw [View.canon_unit_zero hz]
  simp only [View.ld_unit_zero (S := S10000x128) hz, View.ld_unit_zero (S := S128x128) hz]
  rw [Pay.pay0]
  funext j
  have hr : (j 0).val < 10000 := (j 0).isLt
  have hq : (j 1).val < 128 := (j 1).isLt
  have hi : ((View.whole main_v0).slice ((win0 2).rect t)).emb j
      = ix2 (⟨(j 0).val, hr⟩ : Fin 10000) (⟨(j 1).val, hq⟩ : Fin 128) := by
    funext a; apply Fin.ext
    match a with
    | ⟨0, _⟩ => show 0 * 10000 + 1 * (j 0).val = (j 0).val; omega
    | ⟨1, _⟩ => show 0 * 128 + 1 * (j 1).val = (j 1).val; omega
  rw [View.read_apply, hi]
  show Ideal.tanh (∑ k : Fin 128, mat (M := 10000) (N := 128) (blk0 V c 0 t) ⟨(j 0).val, hr⟩ k
        * mat (M := 128) (N := 128) (blk0 V c 1 t) k ⟨(j 1).val, hq⟩)
      = Ideal.tanh (∑ k : Fin 128, mat (M := 10000) (N := 128) (V c main_arg0) ⟨(j 0).val, hr⟩ k
        * mat (M := 128) (N := 128) (V c main_arg2) k ⟨(j 1).val, hq⟩)
  refine congrArg Ideal.tanh (Finset.sum_congr rfl fun k _ => ?_)
  rw [whole0_left V c t ⟨(j 0).val, hr⟩ k, whole0_right V c t k ⟨(j 1).val, hq⟩]

/-- An index of the output array is in the one point's block iff each coordinate is in the block's range. -/
theorem in_whole0 (t : Fin cfg0.N) (i : S10000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- The one block is the whole array. -/
theorem whole0_covers (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  refine ⟨t0_0, flush0_2 _, ?_⟩
  rw [in_whole0]
  intro a
  match a with
  | ⟨0, _⟩ => show 0 * 10000 ≤ (i 0).val ∧ (i 0).val < 0 * 10000 + 10000; omega
  | ⟨1, _⟩ => show 0 * 128 ≤ (i 1).val ∧ (i 1).val < 0 * 128 + 128; omega

/-- The region's output array ends as tanh (X W1) of the arrays it was entered with. -/
theorem array0 : (dat0 V c).arrAt 2 cfg0.N
    = vec (th (mm (mat (M := 10000) (N := 128) (V c main_arg0)) (mat (M := 128) (N := 128) (V c main_arg2)))) :=
  (dat0 V c).arrAt_eq_of_cover 2 _ (fun t _ => written0 V c t) whole0_covers

theorem val0 : mat (M := 10000) (N := 128) ((dat0 V c).arrAt 2 cfg0.N)
    = th (mm (mat (M := 10000) (N := 128) (V c main_arg0)) (mat (M := 128) (N := 128) (V c main_arg2))) := by
  rw [array0]; rfl

end Cert.KernelIdeal.Val

end
-- ==== Proof.IdealValues14.lean ====
/-
  What regions 1 and 4 of the program leave in their output arrays, as matrices of the arrays they are entered with.

  Each region runs its body once per row panel. At panel t the body loads panel t of one array (rows t·b to t·b + b − 1,
  b the panel height) and the whole of the others, and stores one array computed from them over its output buffer; the
  pipeline writes that buffer back as panel t of the output array. Entry (r, q) of what is written back depends on the
  loaded panel only through its row r, which is row t·b + r of the array: so the panel written back is panel t of ONE
  matrix G of the arrays the region is entered with. The panels cover every row (row i is in panel i / b), hence the
  output array ends holding G.

  Region 4 (25 panels of 400 rows): G is the logistic function of Z Zᵀ, the panel of Z against the whole of Z.
  Region 1 (50 panels of 200 rows): the first output is the adjacency panel itself, so G is A; the second is the panel's
  rows of tanh ((A S) W2) W3.
-/
import proofs.«107705_g22454089023912_cont_8to1_328_7_alg».proof.Proof.IdealRegion1
import proofs.«107705_g22454089023912_cont_8to1_328_7_alg».proof.Proof.IdealRegion4
import proofs.«107705_g22454089023912_cont_8to1_328_7_alg».proof.Proof.Payloads
import proofs.«107705_g22454089023912_cont_8to1_328_7_alg».proof.Proof.Spec
import proofs.«107705_g22454089023912_cont_8to1_328_7_alg».proof.Proof.Gen.KernelIdeal.Launch
import proofs.«107705_g22454089023912_cont_8to1_328_7_alg».proof.Proof.Gen.KernelIdeal.Skeleton
import proofs.«107705_g22454089023912_cont_8to1_328_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Tactic

set_option maxRecDepth 16384

noncomputable section

namespace Cert.KernelIdeal.Val

open Cert.Spec Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The zero offsets of a whole-buffer rectangle, however spelt. -/
theorem zero_offsets : (![0, 0] : Fin 2 → Nat) = fun _ => 0 := funext fun a => by fin_cases a <;> rfl

/-! ## The decoder's row panel, over plain arrays -/

/-- A row panel of the logistic Gram matrix. If the first block's entry (r, k) is Z's entry (i₀, k) and the second
    block's entry (q, k) is Z's entry (i₁, k), then entry (r, q) of the logistic function of (first block) (second
    block)ᵀ is entry (i₀, i₁) of the logistic function of Z Zᵀ. -/
theorem gram_panel {m n e M : ℕ} (Z : (⟨2, ![M, e]⟩ : Shape).Idx → EReal) (b0 : (⟨2, ![m, e]⟩ : Shape).Idx → EReal)
    (b1 : (⟨2, ![n, e]⟩ : Shape).Idx → EReal)
    (e0 : (⟨2, ![m, e]⟩ : Shape).Idx → (⟨2, ![M, e]⟩ : Shape).Idx) (e1 : (⟨2, ![n, e]⟩ : Shape).Idx → (⟨2, ![M, e]⟩ : Shape).Idx)
    (h0 : ∀ y, b0 y = Z (e0 y)) (h1 : ∀ y, b1 y = Z (e1 y)) (r : Fin m) (q : Fin n) (i0 i1 : Fin M)
    (hr : ∀ k : Fin e, e0 (ix2 r k) = ix2 i0 k) (hq : ∀ k : Fin e, e1 (ix2 q k) = ix2 i1 k) :
    sg (mmT (mat b0) (mat b1)) r q = sg (mmT (mat Z) (mat Z)) i0 i1 := by
  show Ideal.logistic (∑ k : Fin e, b0 (ix2 r k) * b1 (ix2 q k)) = Ideal.logistic (∑ k : Fin e, Z (ix2 i0 k) * Z (ix2 i1 k))
  refine congrArg Ideal.logistic (Finset.sum_congr rfl fun k _ => ?_)
  rw [h0, h1, hr, hq]

/-- A row panel of the first pass. If row r of the first block is row i₀ of A and the other three blocks are the
    arrays S, W2, W3 themselves, then row r of tanh (((first block) S) W2) W3 is row i₀ of tanh ((A S) W2) W3. -/
theorem pass1_panel {m n d e1 e2 : ℕ} (A : (⟨2, ![n, n]⟩ : Shape).Idx → EReal) (S : (⟨2, ![n, d]⟩ : Shape).Idx → EReal)
    (W2 : (⟨2, ![d, e1]⟩ : Shape).Idx → EReal) (W3 : (⟨2, ![e1, e2]⟩ : Shape).Idx → EReal)
    (b0 : (⟨2, ![m, n]⟩ : Shape).Idx → EReal) (b1 : (⟨2, ![n, d]⟩ : Shape).Idx → EReal)
    (b2 : (⟨2, ![d, e1]⟩ : Shape).Idx → EReal) (b3 : (⟨2, ![e1, e2]⟩ : Shape).Idx → EReal)
    (r : Fin m) (i0 : Fin n) (h0 : ∀ k : Fin n, b0 (ix2 r k) = A (ix2 i0 k))
    (h1 : ∀ y, b1 y = S y) (h2 : ∀ y, b2 y = W2 y) (h3 : ∀ y, b3 y = W3 y) (q i1 : Fin e2) (hq : q = i1) :
    mm (th (mm (mm (mat b0) (mat b1)) (mat b2))) (mat b3) r q
      = mm (th (mm (mm (mat A) (mat S)) (mat W2))) (mat W3) i0 i1 := by
  obtain rfl : b1 = S := funext h1
  obtain rfl : b2 = W2 := funext h2
  obtain rfl : b3 = W3 := funext h3
  subst hq
  show ∑ k : Fin e1, Ideal.tanh (∑ l : Fin d, (∑ u : Fin n, b0 (ix2 r u) * b1 (ix2 u l)) * b2 (ix2 l k)) * b3 (ix2 k q)
     = ∑ k : Fin e1, Ideal.tanh (∑ l : Fin d, (∑ u : Fin n, A (ix2 i0 u) * b1 (ix2 u l)) * b2 (ix2 l k)) * b3 (ix2 k q)
  simp only [h0]

section
variable (V : (c : Dev nD) → (b : Ref sig .tc) → Buf (Elt Ideal) ((c : Thread nD τ).loc b)) (c : Dev nD)

/-! ## Region 4: the logistic function of the embedding's Gram matrix -/

/-- The printed index maps over the 25 grid points: the row-panel windows are at panel t, the whole-array window at 0. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What the output array ends holding: the logistic function of Z Zᵀ, for Z the array the region is entered with. -/
def gram4 : S10000x10000.Idx → EReal :=
  vec (sg (mmT (mat (V c main_v3 : S10000x20.Idx → EReal)) (mat (V c main_v3 : S10000x20.Idx → EReal))))

/-- What grid point t writes back is row panel t of the logistic Gram matrix. -/
theorem flushed4_eq (t : Fin cfg4.N) :
    (dat4 V c).flushed 2 t = ((cfg4.win 2).blk t).view.read (Elt Ideal) (gram4 V c) := by
  show (cfg4.win 2).cut (grid4.coords t) ((dat4 V c).after 2 t) = _
  rw [dat4_after2]
  unfold res4
  rw [View.canon_unit_zero zero_offsets]
  simp only [View.ld_unit_zero (S := S400x20) zero_offsets, View.ld_unit_zero (S := S10000x20) zero_offsets]
  rw [Pay.pay4]
  obtain ⟨e0, e1, e2, e3, e4, e5⟩ := idx4 t
  funext j
  obtain ⟨r, q, rfl⟩ : ∃ (r : Fin 400) (q : Fin 10000), j = ix2 r q := ⟨j 0, j 1, eq_ix2 j⟩
  refine (gram_panel (V c main_v3 : S10000x20.Idx → EReal) (blk4 V c 0 t) (blk4 V c 1 t)
    (fun y => ((cfg4.win 0).blk t).view.emb y) (fun y => ((cfg4.win 1).blk t).view.emb y) (fun _ => rfl) (fun _ => rfl) r q
    (((cfg4.win 2).blk t).view.emb (ix2 r q) 0) (((cfg4.win 2).blk t).view.emb (ix2 r q) 1) (fun k => ?_) (fun k => ?_))
  · funext a; apply Fin.ext
    match a with
    | ⟨0, _⟩ => show win4_0.index t (0 : Fin 2) * 400 + 1 * r.val = win4_2.index t (0 : Fin 2) * 400 + 1 * r.val; omega
    | ⟨1, _⟩ => show win4_0.index t (1 : Fin 2) * 20 + 1 * k.val = k.val; omega
  · funext a; apply Fin.ext
    match a with
    | ⟨0, _⟩ => show win4_1.index t (0 : Fin 2) * 10000 + 1 * q.val = win4_2.index t (1 : Fin 2) * 10000 + 1 * q.val; omega
    | ⟨1, _⟩ => show win4_1.index t (1 : Fin 2) * 20 + 1 * k.val = k.val; omega

/-- An index of the output array is in point t's block iff each coordinate is in the block's range on its axis. -/
theorem mem_blk4 (t : Fin cfg4.N) (i : S10000x10000.Idx) :
    i ∈ ((cfg4.win 2).blk t).view.set ↔ ∀ a : Fin 2, win4_2.index t a * S400x10000.size a ≤ (i a).val
      ∧ (i a).val < win4_2.index t a * S400x10000.size a + S400x10000.size a := by
  show i ∈ ((View.whole main_v4).slice (win4_2.rect t)).set ↔ _
  rw [View.set_slice_whole, Rect.mem_set_unit]
  exact Iff.rfl

/-- The 25 row panels of 400 rows cover the 10000 rows: row i₀ is in panel i₀ / 400. -/
theorem cover4 (i : S10000x10000.Idx) :
    ∃ t : Fin cfg4.N, (cfg4.win 2).flush t = true ∧ i ∈ ((cfg4.win 2).blk t).view.set := by
  have hi0 : (i 0).val < 10000 := (i 0).isLt
  have hi1 : (i 1).val < 10000 := (i 1).isLt
  have hN : cfg4.N = 25 := N_4
  let t : Fin cfg4.N := ⟨(i 0).val / 400, by omega⟩
  have ht : t.val = (i 0).val / 400 := rfl
  obtain ⟨e0, e1, e2, e3, e4, e5⟩ := idx4 t
  refine ⟨t, flush4_2 t, ?_⟩
  rw [mem_blk4]
  intro a
  match a with
  | ⟨0, _⟩ => show win4_2.index t (0 : Fin 2) * 400 ≤ (i 0).val ∧ (i 0).val < win4_2.index t (0 : Fin 2) * 400 + 400; omega
  | ⟨1, _⟩ => show win4_2.index t (1 : Fin 2) * 10000 ≤ (i 1).val ∧ (i 1).val < win4_2.index t (1 : Fin 2) * 10000 + 10000; omega

/-- The output array after the region's last grid point. -/
theorem final4 : (dat4 V c).arrAt 2 cfg4.N = gram4 V c :=
  (dat4 V c).arrAt_eq_of_cover 2 (gram4 V c) (fun t _ => flushed4_eq V c t) cover4

/-- Region 4 leaves the logistic function of Z Zᵀ, for Z the embedding it is entered with. -/
theorem val4 : mat ((dat4 V c).arrAt 2 cfg4.N : S10000x10000.Idx → EReal)
    = sg (mmT (mat (V c main_v3 : S10000x20.Idx → EReal)) (mat (V c main_v3 : S10000x20.Idx → EReal))) := by
  rw [final4]
  rfl

/-! ## Region 1: the first pass over the adjacency matrix -/

/-- The printed index maps over the 50 grid points: the row-panel windows are at panel t, the whole-array windows at 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What the copy's array ends holding: the adjacency matrix the region is entered with. -/
def copy1 : S10000x10000.Idx → EReal := (V c main_arg1 : S10000x10000.Idx → EReal)

/-- What the epilogue's array ends holding: tanh ((A S) W2) W3 of the arrays the region is entered with. -/
def pass1 : S10000x20.Idx → EReal :=
  vec (mm (th (mm (mm (mat (V c main_arg1 : S10000x10000.Idx → EReal)) (mat (V c main_v0 : S10000x128.Idx → EReal)))
    (mat (V c main_arg3 : S128x256.Idx → EReal)))) (mat (V c main_arg4 : S256x20.Idx → EReal)))

/-- What grid point t writes back to the copy is row panel t of the adjacency matrix. -/
theorem flushed1_copy_eq (t : Fin cfg1.N) :
    (dat1 V c).flushed 4 t = ((cfg1.win 4).blk t).view.read (Elt Ideal) (copy1 V c) := by
  show (cfg1.win 4).cut (grid1.coords t) ((dat1 V c).after 4 t) = _
  rw [dat1_after4]
  unfold res1_4
  rw [View.canon_unit_zero zero_offsets]
  simp only [View.ld_unit_zero (S := S200x10000) zero_offsets]
  rw [Pay.pay1_copy]
  obtain ⟨e0, e1, e2, e3, e4, e5, e6, e7, e8, e9, e10, e11⟩ := idx1 t
  funext j
  obtain ⟨r, q, rfl⟩ : ∃ (r : Fin 200) (q : Fin 10000), j = ix2 r q := ⟨j 0, j 1, eq_ix2 j⟩
  show (V c main_arg1 : S10000x10000.Idx → EReal) (((cfg1.win 0).blk t).view.emb (ix2 r q))
    = (V c main_arg1 : S10000x10000.Idx → EReal) (((cfg1.win 4).blk t).view.emb (ix2 r q))
  refine congrArg (V c main_arg1 : S10000x10000.Idx → EReal) ?_
  funext a; apply Fin.ext
  match a with
  | ⟨0, _⟩ => show win1_0.index t (0 : Fin 2) * 200 + 1 * r.val = win1_4.index t (0 : Fin 2) * 200 + 1 * r.val; omega
  | ⟨1, _⟩ => show win1_0.index t (1 : Fin 2) * 10000 + 1 * q.val = win1_4.index t (1 : Fin 2) * 10000 + 1 * q.val; omega

/-- What grid point t writes back to the epilogue's array is row panel t of tanh ((A S) W2) W3. -/
theorem flushed1_eq (t : Fin cfg1.N) :
    (dat1 V c).flushed 5 t = ((cfg1.win 5).blk t).view.read (Elt Ideal) (pass1 V c) := by
  show (cfg1.win 5).cut (grid1.coords t) ((dat1 V c).after 5 t) = _
  rw [dat1_after5]
  unfold res1_5
  rw [View.canon_unit_zero zero_offsets]
  simp only [View.ld_unit_zero (S := S200x10000) zero_offsets, View.ld_unit_zero (S := S10000x128) zero_offsets,
    View.ld_unit_zero (S := S128x256) zero_offsets, View.ld_unit_zero (S := S256x20) zero_offsets]
  rw [Pay.pay1]
  obtain ⟨e0, e1, e2, e3, e4, e5, e6, e7, e8, e9, e10, e11⟩ := idx1 t
  funext j
  obtain ⟨r, q, rfl⟩ : ∃ (r : Fin 200) (q : Fin 20), j = ix2 r q := ⟨j 0, j 1, eq_ix2 j⟩
  refine pass1_panel (V c main_arg1 : S10000x10000.Idx → EReal) (V c main_v0 : S10000x128.Idx → EReal)
    (V c main_arg3 : S128x256.Idx → EReal) (V c main_arg4 : S256x20.Idx → EReal)
    (blk1 V c 0 t) (blk1 V c 1 t) (blk1 V c 2 t) (blk1 V c 3 t) r (((cfg1.win 5).blk t).view.emb (ix2 r q) 0)
    (fun k => ?_) (fun y => ?_) (fun y => ?_) (fun y => ?_) q (((cfg1.win 5).blk t).view.emb (ix2 r q) 1) ?_
  · show (V c main_arg1 : S10000x10000.Idx → EReal) (((cfg1.win 0).blk t).view.emb (ix2 r k)) = _
    refine congrArg (V c main_arg1 : S10000x10000.Idx → EReal) ?_
    funext a; apply Fin.ext
    match a with
    | ⟨0, _⟩ => show win1_0.index t (0 : Fin 2) * 200 + 1 * r.val = win1_5.index t (0 : Fin 2) * 200 + 1 * r.val; omega
    | ⟨1, _⟩ => show win1_0.index t (1 : Fin 2) * 10000 + 1 * k.val = k.val; omega
  · show (V c main_v0 : S10000x128.Idx → EReal) (((cfg1.win 1).blk t).view.emb y) = _
    refine congrArg (V c main_v0 : S10000x128.Idx → EReal) ?_
    funext a; apply Fin.ext
    match a with
    | ⟨0, _⟩ => show win1_1.index t (0 : Fin 2) * 10000 + 1 * (y 0).val = (y 0).val; omega
    | ⟨1, _⟩ => show win1_1.index t (1 : Fin 2) * 128 + 1 * (y 1).val = (y 1).val; omega
  · show (V c main_arg3 : S128x256.Idx → EReal) (((cfg1.win 2).blk t).view.emb y) = _
    refine congrArg (V c main_arg3 : S128x256.Idx → EReal) ?_
    funext a; apply Fin.ext
    match a with
    | ⟨0, _⟩ => show win1_2.index t (0 : Fin 2) * 128 + 1 * (y 0).val = (y 0).val; omega
    | ⟨1, _⟩ => show win1_2.index t (1 : Fin 2) * 256 + 1 * (y 1).val = (y 1).val; omega
  · show (V c main_arg4 : S256x20.Idx → EReal) (((cfg1.win 3).blk t).view.emb y) = _
    refine congrArg (V c main_arg4 : S256x20.Idx → EReal) ?_
    funext a; apply Fin.ext
    match a with
    | ⟨0, _⟩ => show win1_3.index t (0 : Fin 2) * 256 + 1 * (y 0).val = (y 0).val; omega
    | ⟨1, _⟩ => show win1_3.index t (1 : Fin 2) * 20 + 1 * (y 1).val = (y 1).val; omega
  · apply Fin.ext
    show q.val = win1_5.index t (1 : Fin 2) * 20 + 1 * q.val
    omega

/-- An index of the copy's array is in point t's block iff each coordinate is in the block's range on its axis. -/
theorem mem_blk1_copy (t : Fin cfg1.N) (i : S10000x10000.Idx) :
    i ∈ ((cfg1.win 4).blk t).view.set ↔ ∀ a : Fin 2, win1_4.index t a * S200x10000.size a ≤ (i a).val
      ∧ (i a).val < win1_4.index t a * S200x10000.size a + S200x10000.size a := by
  show i ∈ ((View.whole main_v1_0).slice (win1_4.rect t)).set ↔ _
  rw [View.set_slice_whole, Rect.mem_set_unit]
  exact Iff.rfl

/-- An index of the epilogue's array is in point t's block iff each coordinate is in the block's range on its axis. -/
theorem mem_blk1 (t : Fin cfg1.N) (i : S10000x20.Idx) :
    i ∈ ((cfg1.win 5).blk t).view.set ↔ ∀ a : Fin 2, win1_5.index t a * S200x20.size a ≤ (i a).val
      ∧ (i a).val < win1_5.index t a * S200x20.size a + S200x20.size a := by
  show i ∈ ((View.whole main_v1_1).slice (win1_5.rect t)).set ↔ _
  rw [View.set_slice_whole, Rect.mem_set_unit]
  exact Iff.rfl

/-- The 50 row panels of 200 rows cover the copy's 10000 rows: row i₀ is in panel i₀ / 200. -/
theorem cover1_copy (i : S10000x10000.Idx) :
    ∃ t : Fin cfg1.N, (cfg1.win 4).flush t = true ∧ i ∈ ((cfg1.win 4).blk t).view.set := by
  have hi0 : (i 0).val < 10000 := (i 0).isLt
  have hi1 : (i 1).val < 10000 := (i 1).isLt
  have hN : cfg1.N = 50 := N_1
  let t : Fin cfg1.N := ⟨(i 0).val / 200, by omega⟩
  have ht : t.val = (i 0).val / 200 := rfl
  obtain ⟨e0, e1, e2, e3, e4, e5, e6, e7, e8, e9, e10, e11⟩ := idx1 t
  refine ⟨t, flush1_4 t, ?_⟩
  rw [mem_blk1_copy]
  intro a
  match a with
  | ⟨0, _⟩ => show win1_4.index t (0 : Fin 2) * 200 ≤ (i 0).val ∧ (i 0).val < win1_4.index t (0 : Fin 2) * 200 + 200; omega
  | ⟨1, _⟩ => show win1_4.index t (1 : Fin 2) * 10000 ≤ (i 1).val ∧ (i 1).val < win1_4.index t (1 : Fin 2) * 10000 + 10000; omega

/-- The 50 row panels of 200 rows cover the epilogue's 10000 rows. -/
theorem cover1 (i : S10000x20.Idx) :
    ∃ t : Fin cfg1.N, (cfg1.win 5).flush t = true ∧ i ∈ ((cfg1.win 5).blk t).view.set := by
  have hi0 : (i 0).val < 10000 := (i 0).isLt
  have hi1 : (i 1).val < 20 := (i 1).isLt
  have hN : cfg1.N = 50 := N_1
  let t : Fin cfg1.N := ⟨(i 0).val / 200, by omega⟩
  have ht : t.val = (i 0).val / 200 := rfl
  obtain ⟨e0, e1, e2, e3, e4, e5, e6, e7, e8, e9, e10, e11⟩ := idx1 t
  refine ⟨t, flush1_5 t, ?_⟩
  rw [mem_blk1]
  intro a
  match a with
  | ⟨0, _⟩ => show win1_5.index t (0 : Fin 2) * 200 ≤ (i 0).val ∧ (i 0).val < win1_5.index t (0 : Fin 2) * 200 + 200; omega
  | ⟨1, _⟩ => show win1_5.index t (1 : Fin 2) * 20 ≤ (i 1).val ∧ (i 1).val < win1_5.index t (1 : Fin 2) * 20 + 20; omega

/-- The copy's array after the region's last grid point. -/
theorem final1_copy : (dat1 V c).arrAt 4 cfg1.N = copy1 V c :=
  (dat1 V c).arrAt_eq_of_cover 4 (copy1 V c) (fun t _ => flushed1_copy_eq V c t) cover1_copy

/-- The epilogue's array after the region's last grid point. -/
theorem final1 : (dat1 V c).arrAt 5 cfg1.N = pass1 V c :=
  (dat1 V c).arrAt_eq_of_cover 5 (pass1 V c) (fun t _ => flushed1_eq V c t) cover1

/-- Region 1 leaves, in its first output, the adjacency matrix it is entered with. -/
theorem val1_copy : mat ((dat1 V c).arrAt 4 cfg1.N : S10000x10000.Idx → EReal)
    = mat (V c main_arg1 : S10000x10000.Idx → EReal) := by
  rw [final1_copy]
  rfl

/-- Region 1 leaves, in its second output, tanh ((A S) W2) W3 of the arrays it is entered with. -/
theorem val1 : mat ((dat1 V c).arrAt 5 cfg1.N : S10000x20.Idx → EReal)
    = mm (th (mm (mm (mat (V c main_arg1 : S10000x10000.Idx → EReal)) (mat (V c main_v0 : S10000x128.Idx → EReal)))
        (mat (V c main_arg3 : S128x256.Idx → EReal)))) (mat (V c main_arg4 : S256x20.Idx → EReal)) := by
  rw [final1]
  rfl

end

end Cert.KernelIdeal.Val

end
-- ==== Proof.IdealKernelValue.lean ====
/-
  The kernel program's two results as the Spec's mathematics of its five inputs.

  With X, A, W1, W2, W3 the inputs as matrices, follow the five regions in order, each reading what the earlier
  ones left and each contributing the value its output array holds after its last grid point:
    region 0 leaves  S = tanh (X W1);
    region 1 leaves a copy of A, and  H W3  with  H = tanh ((A S) W2);
    region 2 leaves  A (H W3);
    region 3 leaves  A (A (H W3)),  the embedding in the bracketing the kernel computes;
    region 4 leaves the logistic function of the embedding's Gram matrix.
  The arguments and the copy of A are read by later regions as they were, since a region changes only its outputs.
-/
import proofs.«107705_g22454089023912_cont_8to1_328_7_alg».proof.Proof.IdealReads
import proofs.«107705_g22454089023912_cont_8to1_328_7_alg».proof.Proof.IdealValues023
import proofs.«107705_g22454089023912_cont_8to1_328_7_alg».proof.Proof.IdealValues14
import proofs.«107705_g22454089023912_cont_8to1_328_7_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Val

open Cert.Spec Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-! ## The five inputs as matrices -/

/-- The features X, n × d. -/
abbrev inX : Fin 10000 → Fin 128 → EReal := mat (m ((c : Thread nD τ).loc main_arg0))
/-- The adjacency matrix A, n × n. -/
abbrev inA : Fin 10000 → Fin 10000 → EReal := mat (m ((c : Thread nD τ).loc main_arg1))
/-- The first layer's weights W1. -/
abbrev inW1 : Fin 128 → Fin 128 → EReal := mat (m ((c : Thread nD τ).loc main_arg2))
/-- The second layer's weights W2. -/
abbrev inW2 : Fin 128 → Fin 256 → EReal := mat (m ((c : Thread nD τ).loc main_arg3))
/-- The third layer's weights W3. -/
abbrev inW3 : Fin 256 → Fin 20 → EReal := mat (m ((c : Thread nD τ).loc main_arg4))

/-! ## What each region finds and leaves, region by region -/

/-- Region 0 leaves the first layer's support tanh (X W1), which region 1 reads. -/
theorem read1_v0 : mat (V1 m c main_v0) = sup1 (inX m c) (inW1 m c) :=
  (congrArg mat (V1_v0 m c)).trans (val0 (V0 m) c)

/-- Region 1 reads the adjacency matrix and the last two weight matrices as launched. -/
theorem read1_arg1 : mat (V1 m c main_arg1) = inA m c := congrArg mat (V1_arg1 m c)
theorem read1_arg3 : mat (V1 m c main_arg3) = inW2 m c := congrArg mat (V1_arg3 m c)
theorem read1_arg4 : mat (V1 m c main_arg4) = inW3 m c := congrArg mat (V1_arg4 m c)

/-- Region 1's first output is a copy of the adjacency matrix. -/
theorem read2_v1_0 : mat (V2 m c main_v1_0) = inA m c :=
  (congrArg mat (V2_v1_0 m c)).trans ((val1_copy (V1 m) c).trans (read1_arg1 m c))

/-- Region 1's second output is H W3, with H = tanh ((A tanh (X W1)) W2) the hidden activations. -/
theorem read2_v1_1 : mat (V2 m c main_v1_1) = mm (hid (inX m c) (inA m c) (inW1 m c) (inW2 m c)) (inW3 m c) := by
  refine (congrArg mat (V2_v1_1 m c)).trans ((val1 (V1 m) c).trans ?_)
  rw [read1_arg1, read1_v0, read1_arg3, read1_arg4]
  rfl

/-- Region 2 leaves A (H W3). -/
theorem read3_v2 : mat (V3 m c main_v2)
    = mm (inA m c) (mm (hid (inX m c) (inA m c) (inW1 m c) (inW2 m c)) (inW3 m c)) := by
  refine (congrArg mat (V3_v2 m c)).trans ((val2 (V2 m) c).trans ?_)
  rw [read2_v1_0, read2_v1_1]

/-- Region 3 still finds the copy of the adjacency matrix. -/
theorem read3_v1_0 : mat (V3 m c main_v1_0) = inA m c :=
  (congrArg mat (V3_v1_0 m c)).trans (read2_v1_0 m c)

/-- Region 3 leaves the embedding A (A (H W3)), which region 4 reads. -/
theorem read4_v3 : mat (V4 m c main_v3) = embK (inX m c) (inA m c) (inW1 m c) (inW2 m c) (inW3 m c) := by
  refine (congrArg mat (V4_v3 m c)).trans ((val3 (V3 m) c).trans ?_)
  rw [read3_v1_0, read3_v2]
  rfl

/-! ## The two results -/

/-- The first result is the embedding A (A (H W3)). -/
theorem kernel_emb : mat (E5 m c (Proc.devRef .tc main_v3))
    = embK (inX m c) (inA m c) (inW1 m c) (inW2 m c) (inW3 m c) :=
  (congrArg mat ((E5_v3 m c).trans (V4_v3 m c).symm)).trans (read4_v3 m c)

/-- The second result is the logistic function of the embedding's Gram matrix. -/
theorem kernel_gram : mat (E5 m c (Proc.devRef .tc main_v4))
    = gram (embK (inX m c) (inA m c) (inW1 m c) (inW2 m c) (inW3 m c)) := by
  refine (congrArg mat (E5_v4 m c)).trans ((val4 (V4 m) c).trans ?_)
  rw [read4_v3]
  rfl

/-- The first result as an array. -/
theorem kernel_emb_arr : (E5 m c (Proc.devRef .tc main_v3) : (⟨2, ![10000, 20]⟩ : Shape).Idx → EReal)
    = vec (embK (inX m c) (inA m c) (inW1 m c) (inW2 m c) (inW3 m c)) :=
  (vec_mat _).symm.trans (congrArg vec (kernel_emb m c))

/-- The second result as an array. -/
theorem kernel_gram_arr : (E5 m c (Proc.devRef .tc main_v4) : (⟨2, ![10000, 10000]⟩ : Shape).Idx → EReal)
    = vec (gram (embK (inX m c) (inA m c) (inW1 m c) (inW2 m c) (inW3 m c))) :=
  (vec_mat _).symm.trans (congrArg vec (kernel_gram m c))

end Cert.KernelIdeal.Val

end
-- ==== Proof.RefSide.lean ====
/-
  The reference program's two results are the specification's functions of its five argument arrays.

  Read over the extended reals, the reference computes, one operation at a time,
    X W1,  S = tanh (X W1),  Z1 = A S,  Z1 W2,  H = tanh (Z1 W2),  A H,  (A H) W3,  Z = A ((A H) W3),
  and then Zᵀ, Z Zᵀ, -(Z Zᵀ), exp (-(Z Zᵀ)), 1 + exp (-(Z Zᵀ)) and 1 / (1 + exp (-(Z Zᵀ))).
  Every product contracts the left operand's second axis with the right operand's first, so its entry (p, q) is the sum
  over k of L(p, k) · R(k, q); with the transpose as the right operand that sum is the sum over k of Z(p, k) · Z(q, k). The
  last four operations, entry by entry, are the logistic function by its definition, the literal being the number one.
  Each stage is stated as "the stage's array is the array of a matrix of the specification" and follows from the
  stage before it; no sum is ever evaluated.
-/
import proofs.«107705_g22454089023912_cont_8to1_328_7_alg».proof.Proof.Gen.ReferenceIdeal.Read
import proofs.«107705_g22454089023912_cont_8to1_328_7_alg».proof.Proof.Spec
import proofs.«107705_g22454089023912_cont_8to1_328_7_alg».proof.Proof.LibPlainDot
import Idealize.ShloMosaic.Lib.Pipeline.Value
import Idealize.ShloMosaic.Lib.ValueIdx
import Idealize.ShloMosaic.PureOps.Ideal.Laws

noncomputable section

namespace Cert.RefSide

open Idealize.ShloMosaic Idealize.ShloMosaic.ValueIdx Cert.ReferenceIdeal Cert.ReferenceIdeal.Read Cert.Spec

/-! ## Stages in general: a product, a transposed product, the entrywise functions -/

/-- The product of two arrays that are the matrices A and B is the matrix A B. -/
theorem dot_mat {M K N : ℕ} (D : DotDims ⟨2, ![M, K]⟩ ⟨2, ![K, N]⟩ ⟨2, ![M, N]⟩) (hD : D = DotDims.plain M K N)
    (prec : Option ContractPrecision) (L : FVec Ideal ⟨2, ![M, K]⟩ .f32) (R : FVec Ideal ⟨2, ![K, N]⟩ .f32)
    (A : Fin M → Fin K → EReal) (B : Fin K → Fin N → EReal) (hL : L = vec A) (hR : R = vec B) :
    Host.dotGeneral D prec L R = vec (mm A B) := by
  subst hL hR
  funext j
  obtain ⟨p, q, rfl⟩ : ∃ p q, j = ix2 p q := ⟨j 0, j 1, eq_ix2 j⟩
  exact dotGeneral_plain_apply D hD prec (vec A) (vec B) p q

/-- The hyperbolic tangent of an array that is the matrix A is the matrix of the tangents. -/
theorem tanh_mat {M N : ℕ} (L : FVec Ideal ⟨2, ![M, N]⟩ .f32) (A : Fin M → Fin N → EReal) (hL : L = vec A) :
    Host.tanh L = vec (th A) := by
  subst hL
  rfl

/-- The product of the array of A with an array whose entry (k, q) is B(q, k) — the transpose of the array of B — is the
    matrix A Bᵀ. -/
theorem dotT_mat {M K N : ℕ} (D : DotDims ⟨2, ![M, K]⟩ ⟨2, ![K, N]⟩ ⟨2, ![M, N]⟩) (hD : D = DotDims.plain M K N)
    (prec : Option ContractPrecision) (L : FVec Ideal ⟨2, ![M, K]⟩ .f32) (R : FVec Ideal ⟨2, ![K, N]⟩ .f32)
    (A : Fin M → Fin K → EReal) (B : Fin N → Fin K → EReal) (hL : L = vec A) (hR : ∀ k q, R (ix2 k q) = B q k) :
    Host.dotGeneral D prec L R = vec (mmT A B) := by
  subst hL
  funext j
  obtain ⟨p, q, rfl⟩ : ∃ p q, j = ix2 p q := ⟨j 0, j 1, eq_ix2 j⟩
  rw [dotGeneral_plain_apply D hD prec (vec A) R p q]
  show ∑ k : Fin K, vec A (ix2 p k) * R (ix2 k q) = ∑ k : Fin K, A p k * B q k
  refine Finset.sum_congr rfl fun k _ => ?_
  rw [hR k q]
  rfl

/-- With c and c' arrays of ones, c' / (c + exp (-L)) at an array L that is the matrix A is the matrix of the logistic
    function of A's entries. -/
theorem logistic_mat {M N : ℕ} (L c c' : FVec Ideal ⟨2, ![M, N]⟩ .f32) (A : Fin M → Fin N → EReal) (hL : L = vec A)
    (hc : ∀ j, c j = 1) (hc' : ∀ j, c' j = 1) :
    Host.divf c' (addf c (Host.exp (Host.negf L))) = vec (sg A) := by
  subst hL
  funext j
  show Ideal.div (c' j) (c j + Ideal.exp (-(vec A j))) = Ideal.logistic (A (j 0) (j 1))
  rw [hc j, hc' j]
  rfl

/-- The bit pattern of the literal is the real number one. -/
theorem one_eq : Ideal.ofBits .f32 0x3F800000#32 = 1 := by
  simp [Ideal.ofBits, Ideal.ieee, -EReal.coe_mul]; norm_num

/-! ## The reference program, stage by stage -/

section Stages

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128x256, .f32⟩ : BufTy).Contents (Elt Ideal))
  (x4 : (⟨S256x20, .f32⟩ : BufTy).Contents (Elt Ideal))

/-- X W1. -/
theorem ref_v0 : val_main_v0 (F := Ideal) x0 x2 = vec (mm (mat x0) (mat x2)) :=
  dot_mat _ rfl _ x0 x2 _ _ (vec_mat x0).symm (vec_mat x2).symm

/-- S = tanh (X W1). -/
theorem ref_v1 : val_main_v1 (F := Ideal) x0 x2 = vec (sup1 (mat x0) (mat x2)) :=
  tanh_mat _ _ (ref_v0 x0 x2)

/-- Z1 = A S. -/
theorem ref_v2 : val_main_v2 (F := Ideal) x0 x1 x2 = vec (mm (mat x1) (sup1 (mat x0) (mat x2))) :=
  dot_mat _ rfl _ x1 _ _ _ (vec_mat x1).symm (ref_v1 x0 x2)

/-- Z1 W2. -/
theorem ref_v3 : val_main_v3 (F := Ideal) x0 x1 x2 x3 = vec (mm (mm (mat x1) (sup1 (mat x0) (mat x2))) (mat x3)) :=
  dot_mat _ rfl _ _ x3 _ _ (ref_v2 x0 x1 x2) (vec_mat x3).symm

/-- H = tanh (Z1 W2). -/
theorem ref_v4 : val_main_v4 (F := Ideal) x0 x1 x2 x3 = vec (hid (mat x0) (mat x1) (mat x2) (mat x3)) :=
  tanh_mat _ _ (ref_v3 x0 x1 x2 x3)

/-- A H. -/
theorem ref_v5 : val_main_v5 (F := Ideal) x0 x1 x2 x3 = vec (mm (mat x1) (hid (mat x0) (mat x1) (mat x2) (mat x3))) :=
  dot_mat _ rfl _ x1 _ _ _ (vec_mat x1).symm (ref_v4 x0 x1 x2 x3)

/-- (A H) W3. -/
theorem ref_v6 : val_main_v6 (F := Ideal) x0 x1 x2 x3 x4
    = vec (mm (mm (mat x1) (hid (mat x0) (mat x1) (mat x2) (mat x3))) (mat x4)) :=
  dot_mat _ rfl _ _ x4 _ _ (ref_v5 x0 x1 x2 x3) (vec_mat x4).symm

/-- The first result: the embedding A ((A H) W3). -/
theorem ref_emb : val_main_v7 (F := Ideal) x0 x1 x2 x3 x4 = vec (embR (mat x0) (mat x1) (mat x2) (mat x3) (mat x4)) :=
  dot_mat _ rfl _ x1 _ _ _ (vec_mat x1).symm (ref_v6 x0 x1 x2 x3 x4)

/-- Z Zᵀ, for Z the embedding: the second operand is the transpose of the first. -/
theorem ref_v9 : val_main_v9 (F := Ideal) x0 x1 x2 x3 x4
    = vec (mmT (embR (mat x0) (mat x1) (mat x2) (mat x3) (mat x4)) (embR (mat x0) (mat x1) (mat x2) (mat x3) (mat x4))) :=
  dotT_mat _ rfl _ _ _ _ _ (ref_emb x0 x1 x2 x3 x4) fun k q => by
    rw [val_main_v8_apply, ref_emb]
    rfl

/-- The second result: the logistic function of the Gram matrix of the embedding. -/
theorem ref_gram : val_main_v15 (F := Ideal) x0 x1 x2 x3 x4
    = vec (gram (embR (mat x0) (mat x1) (mat x2) (mat x3) (mat x4))) := by
  unfold val_main_v15 val_main_v13 val_main_v11 val_main_v10
  exact logistic_mat _ _ _ _ (ref_v9 x0 x1 x2 x3 x4)
    (fun j => (val_main_v12_apply (F := Ideal) j).trans one_eq)
    (fun j => (val_main_v14_apply (F := Ideal) j).trans one_eq)

end Stages

end Cert.RefSide

end
-- ==== Proof.SpecLaws.lean ====
/-
  Laws of the matrix product over the extended reals that hold when every entry is a real number.

  Over the extended reals multiplication does not distribute over addition at the infinities
  (for instance (1 + (−1)) · ⊤ = 0 · ⊤ = 0, whereas 1 · ⊤ + (−1) · ⊤ = ⊤ + ⊥ = ⊥), so the matrix product
  is not associative there in general. When every entry of the three factors is the image of a real number, the coercion
  ℝ → EReal commutes with products and with finite sums, so both bracketings are the image of
  the same real triple sum  ∑ k, ∑ j, a(p,k) · b(k,j) · c(j,q),  and associativity is inherited from ℝ.

  The hyperbolic tangent maps every extended real to a real number (−1 at ⊥, 1 at ⊤), so the hidden
  activations are real whatever the inputs, and the two bracketings of the embedding agree as soon as
  the adjacency matrix and the last weight matrix are real.
-/
import proofs.«107705_g22454089023912_cont_8to1_328_7_alg».proof.Proof.Spec
import Mathlib.Data.EReal.Basic
import Mathlib.Algebra.BigOperators.Ring.Finset

noncomputable section

namespace Cert.Spec

open Idealize.ShloMosaic

/-- Every entry of the matrix is (the image of) a real number. -/
def IsReal {M N : ℕ} (A : Fin M → Fin N → EReal) : Prop := ∀ p q, ∃ r : ℝ, A p q = (r : EReal)

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The entrywise image of a real matrix is real. -/
theorem isReal_coe {M N : ℕ} (a : Fin M → Fin N → ℝ) : IsReal (fun p q => (a p q : EReal)) :=
  fun p q => ⟨a p q, rfl⟩

/-- A real matrix is the entrywise image of a matrix over ℝ. -/
theorem IsReal.exists_coe {M N : ℕ} {A : Fin M → Fin N → EReal} (h : IsReal A) :
    ∃ a : Fin M → Fin N → ℝ, A = fun p q => (a p q : EReal) := by
  choose a ha using h
  exact ⟨a, funext fun p => funext fun q => ha p q⟩

/-- The product of the images of two real matrices is the image of their product over ℝ. -/
theorem mm_coe {M K N : ℕ} (a : Fin M → Fin K → ℝ) (b : Fin K → Fin N → ℝ) :
    mm (fun p k => (a p k : EReal)) (fun k q => (b k q : EReal))
      = fun p q => ((∑ k : Fin K, a p k * b k q : ℝ) : EReal) := by
  funext p q
  show ∑ k : Fin K, (a p k : EReal) * (b k q : EReal) = ((∑ k : Fin K, a p k * b k q : ℝ) : EReal)
  rw [coe_sum]
  exact Finset.sum_congr rfl fun k _ => (EReal.coe_mul _ _).symm

/-- The hyperbolic tangent of any extended real is a real number: −1 at ⊥, 1 at ⊤, tanh r at a real r. -/
theorem th_isReal {M N : ℕ} (A : Fin M → Fin N → EReal) : IsReal (th A) := by
  intro p q
  show ∃ r : ℝ, Ideal.tanh (A p q) = (r : EReal)
  induction A p q using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

/-- The product of two real matrices is real. -/
theorem mm_isReal {M K N : ℕ} {L : Fin M → Fin K → EReal} {R : Fin K → Fin N → EReal}
    (hL : IsReal L) (hR : IsReal R) : IsReal (mm L R) := by
  obtain ⟨a, rfl⟩ := hL.exists_coe
  obtain ⟨b, rfl⟩ := hR.exists_coe
  rw [mm_coe]
  exact isReal_coe _

/-- The matrix product of real matrices is associative: both bracketings are the image of the real
    triple sum ∑ k, ∑ j, a(p,k) · b(k,j) · c(j,q). -/
theorem mm_assoc {M K J N : ℕ} (A : Fin M → Fin K → EReal) (B : Fin K → Fin J → EReal)
    (C : Fin J → Fin N → EReal) (hA : IsReal A) (hB : IsReal B) (hC : IsReal C) :
    mm A (mm B C) = mm (mm A B) C := by
  obtain ⟨a, rfl⟩ := hA.exists_coe
  obtain ⟨b, rfl⟩ := hB.exists_coe
  obtain ⟨c, rfl⟩ := hC.exists_coe
  rw [mm_coe b c, mm_coe a b, mm_coe a (fun k q => ∑ j : Fin J, b k j * c j q),
    mm_coe (fun p j => ∑ k : Fin K, a p k * b k j) c]
  funext p q
  refine congrArg (fun r : ℝ => (r : EReal)) ?_
  show ∑ k : Fin K, a p k * ∑ j : Fin J, b k j * c j q
      = ∑ j : Fin J, (∑ k : Fin K, a p k * b k j) * c j q
  simp only [Finset.mul_sum, Finset.sum_mul]
  rw [Finset.sum_comm]
  exact Finset.sum_congr rfl fun j _ => Finset.sum_congr rfl fun k _ => (mul_assoc _ _ _).symm

section Encoder

variable {n d e1 e2 e3 : ℕ}
variable (X : Fin n → Fin d → EReal) (A : Fin n → Fin n → EReal)
variable (W1 : Fin d → Fin e1 → EReal) (W2 : Fin e1 → Fin e2 → EReal) (W3 : Fin e2 → Fin e3 → EReal)

/-- The hidden activations are real whatever the inputs: they are a hyperbolic tangent. -/
theorem hid_isReal : IsReal (hid X A W1 W2) := th_isReal _

/-- The two bracketings A (A (H W3)) and A ((A H) W3) of the embedding agree when the adjacency matrix
    and the last weight matrix are real: A (H W3) = (A H) W3 by associativity, H being real. -/
theorem embK_eq_embR (hA : IsReal A) (hW3 : IsReal W3) :
    embK X A W1 W2 W3 = embR X A W1 W2 W3 := by
  show mm A (mm A (mm (hid X A W1 W2) W3)) = mm A (mm (mm A (hid X A W1 W2)) W3)
  rw [mm_assoc A (hid X A W1 W2) W3 hA (hid_isReal X A W1 W2) hW3]

end Encoder

end Cert.Spec

end
-- ==== Proof.Finite.lean ====
/-
  From the precondition "every input entry has finite absolute value" to "every input entry is a real number".

  The precondition is the conjunction, over the five inputs, of  all (|x| < +∞).  Over the extended reals the
  pattern 0x7F800000 of the 32-bit format denotes ⊤, the absolute value is max x (−x), and max x (−x) < ⊤
  excludes both x = ⊤ (then max x (−x) = ⊤) and x = ⊥ (then −x = ⊤): what is left is the image of a real number.
  A conjunction over all entries that came out true was true at every entry.
-/
import proofs.«107705_g22454089023912_cont_8to1_328_7_alg».proof.Pre_finite_inputs
import proofs.«107705_g22454089023912_cont_8to1_328_7_alg».proof.Proof.Spec
import proofs.«107705_g22454089023912_cont_8to1_328_7_alg».proof.Proof.SpecLaws
import Idealize.ShloMosaic.Lib.ReduceAll

noncomputable section

namespace Cert.Finite

open Idealize.ShloMosaic Idealize.ShloMosaic.ValueIdx Cert.Pre_finite_inputs

/-- The shape of rank 0 has one index. -/
instance : Subsingleton S_.Idx := ⟨fun a b => funext fun d => d.elim0⟩

/-- The pattern 0x7F800000 of the 32-bit format (exponent all ones, significand zero, sign clear) denotes +∞. -/
theorem ofBits_inf : Ideal.ofBits .f32 0x7F800000#32 = (⊤ : EReal) := by simp [Ideal.ofBits, Ideal.ieee]

/-- A comparison "less than" that came out true: the strict order holds. -/
theorem lt_of_cmp_olt (a b : EReal) (h : Ideal.cmp .olt a b = 1#1) : a < b := by
  by_contra hn
  simp [Ideal.cmp, hn] at h

/-- An extended real whose absolute value max x (−x) is below ⊤ is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One conjunct of the precondition, all (|x| < +∞) = true, read at an entry: the entry is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1)
    (i : s.Idx) : ∃ r : ℝ, x i = (r : EReal) := by
  have h1 := Host.reduce_andi_all _ _ hr hu ix0 e i
  have h2 : Ideal.cmp .olt (max (x i) (-(x i))) (Ideal.ofBits .f32 0x7F800000#32) = 1#1 := h1
  rw [ofBits_inf] at h2
  exact real_of_abs_lt_top (x i) (lt_of_cmp_olt _ _ h2)

/-- Under the precondition the adjacency matrix and the last weight matrix have real entries. -/
theorem inputs_real [Facts] (x0 : FVec Ideal S10000x128 .f32) (x1 : FVec Ideal S10000x10000 .f32)
    (x2 : FVec Ideal S128x128 .f32) (x3 : FVec Ideal S128x256 .f32) (x4 : FVec Ideal S256x20 .f32)
    (h : Cert.Pre_finite_inputs.fn (F := Ideal) x0 x1 x2 x3 x4 = (fun _ => 1#1)) :
    Cert.Spec.IsReal (Cert.Spec.mat x1) ∧ Cert.Spec.IsReal (Cert.Spec.mat x4) := by
  have e := congrFun h ix0
  dsimp only [Cert.Pre_finite_inputs.fn, Cert.Pre_finite_inputs.fn_part1] at e
  simp only [andi, IntOp.andi_eq_one] at e
  obtain ⟨⟨⟨⟨_, e1⟩, _⟩, _⟩, e4⟩ := e
  exact ⟨fun p q => all_real x1 _ _ _ e1 (ix2 p q), fun p q => all_real x4 _ _ _ e4 (ix2 p q)⟩

end Cert.Finite

end
-- ==== Proof.lean ====
/-
  The certificate's claims, assembled.

  The kernel computes the graph auto-encoder's embedding as A (A (H W3)) and the reference as A ((A H) W3), where A is
  the adjacency matrix, H = tanh ((A tanh (X W1)) W2) the hidden activations and W3 the last layer's weights; both then
  take the logistic function of the embedding's Gram matrix. Over the extended reals the two bracketings agree because
  every entry involved is a real number: A and W3 by the precondition (every input finite), H because the hyperbolic
  tangent of any extended real is a real in [-1, 1]. On real matrices the product is associative.

  Each program's frame — it runs to the end, faults nowhere and leaves its arguments as launched — is read off its run:
  the kernel's five regions entered one after another, each leaving its arrays at what its write-backs leave; the
  reference's host operations composed. The kernel's format changes are the identity on exact values, and its logistic
  operation is by definition the reference's 1 / (1 + e^(-x)).
-/
import proofs.«107705_g22454089023912_cont_8to1_328_7_alg».proof.Defs
import proofs.«107705_g22454089023912_cont_8to1_328_7_alg».proof.Proof.Gen.Kernel
import proofs.«107705_g22454089023912_cont_8to1_328_7_alg».proof.Proof.Gen.KernelIdeal
import proofs.«107705_g22454089023912_cont_8to1_328_7_alg».proof.Proof.Gen.ReferenceIdeal
import proofs.«107705_g22454089023912_cont_8to1_328_7_alg».proof.Proof.Gen.Pre_finite_inputs
import proofs.«107705_g22454089023912_cont_8to1_328_7_alg».proof.Proof.Gen.ReferenceIdeal.Run
import proofs.«107705_g22454089023912_cont_8to1_328_7_alg».proof.Proof.Gen.ReferenceIdeal.Read
import proofs.«107705_g22454089023912_cont_8to1_328_7_alg».proof.Proof.BitsRun
import proofs.«107705_g22454089023912_cont_8to1_328_7_alg».proof.Proof.BitsReads
import proofs.«107705_g22454089023912_cont_8to1_328_7_alg».proof.Proof.IdealRun
import proofs.«107705_g22454089023912_cont_8to1_328_7_alg».proof.Proof.IdealReads
import proofs.«107705_g22454089023912_cont_8to1_328_7_alg».proof.Proof.IdealKernelValue
import proofs.«107705_g22454089023912_cont_8to1_328_7_alg».proof.Proof.RefSide
import proofs.«107705_g22454089023912_cont_8to1_328_7_alg».proof.Proof.SpecLaws
import proofs.«107705_g22454089023912_cont_8to1_328_7_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its five arguments as launched: no region writes an argument. -/
theorem frame_kernel : Cert.frame_Kernel := fun m ρ _ =>
  (θ_run Cert.Kernel.defs _ _).mono (fun r h c =>
    ⟨(h c _ (Cert.Kernel.Hand.mem_uc Cert.Kernel.main_arg0 (by decide))).trans (Cert.Kernel.Hand.E5_arg0 m c),
     (h c _ (Cert.Kernel.Hand.mem_uc Cert.Kernel.main_arg1 (by decide))).trans (Cert.Kernel.Hand.E5_arg1 m c),
     (h c _ (Cert.Kernel.Hand.mem_uc Cert.Kernel.main_arg2 (by decide))).trans (Cert.Kernel.Hand.E5_arg2 m c),
     (h c _ (Cert.Kernel.Hand.mem_uc Cert.Kernel.main_arg3 (by decide))).trans (Cert.Kernel.Hand.E5_arg3 m c),
     (h c _ (Cert.Kernel.Hand.mem_uc Cert.Kernel.main_arg4 (by decide))).trans (Cert.Kernel.Hand.E5_arg4 m c)⟩)
    (Cert.Kernel.Hand.run (F := Bits) m ρ)

/-- The same of the idealized kernel. -/
theorem frame_ideal : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.E5_arg0 m c),
     (h c _ (Cert.KernelIdeal.Hand.mem_uc Cert.KernelIdeal.main_arg1 (by decide))).trans (Cert.KernelIdeal.Hand.E5_arg1 m c),
     (h c _ (Cert.KernelIdeal.Hand.mem_uc Cert.KernelIdeal.main_arg2 (by decide))).trans (Cert.KernelIdeal.Hand.E5_arg2 m c),
     (h c _ (Cert.KernelIdeal.Hand.mem_uc Cert.KernelIdeal.main_arg3 (by decide))).trans (Cert.KernelIdeal.Hand.E5_arg3 m c),
     (h c _ (Cert.KernelIdeal.Hand.mem_uc Cert.KernelIdeal.main_arg4 (by decide))).trans (Cert.KernelIdeal.Hand.E5_arg4 m c)⟩)
    (Cert.KernelIdeal.Hand.run (F := Ideal) m ρ)

/-- The reference's host operations run to the end and write no argument. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation: there is nothing to preserve. -/
theorem preserves : Cert.preserves_Kernel_KernelIdeal := trivial

open Cert.Spec in
/-- Both idealized programs end with the embedding A ((A H) W3) and the logistic function of its Gram matrix: the
    kernel's bracketing A (A (H W3)) is the reference's by associativity of the product of real matrices. -/
theorem algebraic : Cert.algebraic_KernelIdeal_ReferenceIdeal := by
  intro m ρ m' ρ' hpre hagree
  refine ⟨fun c => vec (embR (mat (m ((c.tc : Thread Cert.KernelIdeal.nD Cert.KernelIdeal.τ).loc Cert.KernelIdeal.main_arg0)))
      (mat (m ((c.tc : Thread Cert.KernelIdeal.nD Cert.KernelIdeal.τ).loc Cert.KernelIdeal.main_arg1)))
      (mat (m ((c.tc : Thread Cert.KernelIdeal.nD Cert.KernelIdeal.τ).loc Cert.KernelIdeal.main_arg2)))
      (mat (m ((c.tc : Thread Cert.KernelIdeal.nD Cert.KernelIdeal.τ).loc Cert.KernelIdeal.main_arg3)))
      (mat (m ((c.tc : Thread Cert.KernelIdeal.nD Cert.KernelIdeal.τ).loc Cert.KernelIdeal.main_arg4)))),
    fun c => vec (gram (embR (mat (m ((c.tc : Thread Cert.KernelIdeal.nD Cert.KernelIdeal.τ).loc Cert.KernelIdeal.main_arg0)))
      (mat (m ((c.tc : Thread Cert.KernelIdeal.nD Cert.KernelIdeal.τ).loc Cert.KernelIdeal.main_arg1)))
      (mat (m ((c.tc : Thread Cert.KernelIdeal.nD Cert.KernelIdeal.τ).loc Cert.KernelIdeal.main_arg2)))
      (mat (m ((c.tc : Thread Cert.KernelIdeal.nD Cert.KernelIdeal.τ).loc Cert.KernelIdeal.main_arg3)))
      (mat (m ((c.tc : Thread Cert.KernelIdeal.nD Cert.KernelIdeal.τ).loc Cert.KernelIdeal.main_arg4))))), ?_, ?_⟩
  · refine (θ_run Cert.KernelIdeal.defs _ _).mono (fun r h c => ?_) (Cert.KernelIdeal.Hand.run (F := Ideal) m ρ)
    obtain ⟨hA, hW3⟩ := Cert.Finite.inputs_real _ _ _ _ _ (hpre c)
    have hlaw := embK_eq_embR (mat (m ((c.tc : Thread Cert.KernelIdeal.nD Cert.KernelIdeal.τ).loc Cert.KernelIdeal.main_arg0)))
      _ (mat (m ((c.tc : Thread Cert.KernelIdeal.nD Cert.KernelIdeal.τ).loc Cert.KernelIdeal.main_arg2)))
      (mat (m ((c.tc : Thread Cert.KernelIdeal.nD Cert.KernelIdeal.τ).loc Cert.KernelIdeal.main_arg3))) _ hA hW3
    refine ⟨?_, ?_,
      (h c _ (Cert.KernelIdeal.Hand.mem_uc Cert.KernelIdeal.main_arg0 (by decide))).trans (Cert.KernelIdeal.Hand.E5_arg0 m c),
      (h c _ (Cert.KernelIdeal.Hand.mem_uc Cert.KernelIdeal.main_arg1 (by decide))).trans (Cert.KernelIdeal.Hand.E5_arg1 m c),
      (h c _ (Cert.KernelIdeal.Hand.mem_uc Cert.KernelIdeal.main_arg2 (by decide))).trans (Cert.KernelIdeal.Hand.E5_arg2 m c),
      (h c _ (Cert.KernelIdeal.Hand.mem_uc Cert.KernelIdeal.main_arg3 (by decide))).trans (Cert.KernelIdeal.Hand.E5_arg3 m c),
      (h c _ (Cert.KernelIdeal.Hand.mem_uc Cert.KernelIdeal.main_arg4 (by decide))).trans (Cert.KernelIdeal.Hand.E5_arg4 m c)⟩
    · refine (h c _ (Cert.KernelIdeal.Hand.mem_uc Cert.KernelIdeal.main_v3 (by decide))).trans ?_
      exact (Cert.KernelIdeal.Val.kernel_emb_arr m c).trans (congrArg vec hlaw)
    · refine (h c _ (Cert.KernelIdeal.Hand.mem_uc Cert.KernelIdeal.main_v4 (by decide))).trans ?_
      exact (Cert.KernelIdeal.Val.kernel_gram_arr m c).trans (congrArg (fun Z => vec (gram Z)) hlaw)
  · refine (θ_run Cert.ReferenceIdeal.defs _ _).mono (fun r h c => ?_) (Cert.ReferenceIdeal.Value.run (F := Ideal) m' ρ')
    obtain ⟨h7, h15, a0, a1, a2, a3, a4⟩ := h c
    obtain ⟨g0, g1, g2, g3, g4⟩ := hagree c
    refine ⟨?_, ?_, a0, a1, a2, a3, a4⟩
    · rw [h7, Cert.ReferenceIdeal.Read.val_main_v7_eq, Cert.RefSide.ref_emb, g0, g1, g2, g3, g4]
    · rw [h15, Cert.ReferenceIdeal.Read.val_main_v15_eq, Cert.RefSide.ref_gram, g0, g1, g2, g3, g4]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
